-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x2048 : Shape := ⟨2, ![1024, 2048]⟩
abbrev S2048 : Shape := ⟨1, ![2048]⟩
abbrev S1024x1024 : Shape := ⟨2, ![1024, 1024]⟩
abbrev S1024 : Shape := ⟨1, ![1024]⟩
abbrev S2x1024 : Shape := ⟨2, ![2, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2x1024 : S_.BroadcastsInDim S2x1024 (![] : Fin 0 → Fin S2x1024.rank)
  reducesTo_S2x1024_S_d0_1 : S2x1024.ReducesTo [0, 1] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S2x1024 .f32) (main_arg6 : FVec F S2x1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2x1024 .f32 := Host.absf main_arg5
  let main_cst_8 : FVec F S_ .f32 := constant S_ .f32 0x7F800000#32
  let main_v25 : FVec F S2x1024 .f32 := broadcastInDim S2x1024 ![] bcast_S_S2x1024 main_cst_8
  let main_v26 : IVec S2x1024 1 := cmpf .olt main_v24 main_v25
  let main_c_9 : IVec S_ 1 := constantI S_ 1 1#1
  let main_v27 : IVec S_ 1 := (fun x v => Host.reduce IntOp.andi x v reducesTo_S2x1024_S_d0_1 h_S_) main_v26 main_c_9
  let main_v28 : IVec S_ 1 := andi main_v23 main_v27
  let main_v29 : FVec F S2x1024 .f32 := Host.absf main_arg6
  let main_cst_10 : FVec F S_ .f32 := constant S_ .f32 0x7F800000#32
  let main_v30 : FVec F S2x1024 .f32 := broadcastInDim S2x1024 ![] bcast_S_S2x1024 main_cst_10
  let main_v31 : IVec S2x1024 1 := cmpf .olt main_v29 main_v30
  let main_c_11 : IVec S_ 1 := constantI S_ 1 1#1
  let main_v32 : IVec S_ 1 := (fun x v => Host.reduce IntOp.andi x v reducesTo_S2x1024_S_d0_1 h_S_) main_v31 main_c_11
  let main_v33 : IVec S_ 1 := andi main_v28 main_v32
  fn_part2 (F := F) main_arg7 main_arg8 main_v33

def fn {F : FTy → Type} [FloatOps F] (main_arg0 : FVec F S8x2048x1024 .f32) (main_arg1 : FVec F S1024x2048 .f32) (main_arg2 : FVec F S2048 .f32) (main_arg3 : FVec F S1024x1024 .f32) (main_arg4 : FVec F S1024 .f32) (main_arg5 : FVec F S2x1024 .f32) (main_arg6 : FVec F S2x1024 .f32) (main_arg7 : FVec F S1024x1024 .f32) (main_arg8 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8x2048x1024 : Shape := ⟨3, ![8, 2048, 1024]⟩
abbrev S1024x2048 : Shape := ⟨2, ![1024, 2048]⟩
abbrev S2048 : Shape := ⟨1, ![2048]⟩
abbrev S1024x1024 : Shape := ⟨2, ![1024, 1024]⟩
abbrev S1024 : Shape := ⟨1, ![1024]⟩
abbrev S2x1024 : Shape := ⟨2, ![2, 1024]⟩
abbrev S1x2048 : Shape := ⟨2, ![1, 2048]⟩
abbrev S1x1024 : Shape := ⟨2, ![1, 1024]⟩
abbrev S1x256x1024 : Shape := ⟨3, ![1, 256, 1024]⟩
abbrev S256x1024 : Shape := ⟨2, ![256, 1024]⟩
abbrev S256x2048 : Shape := ⟨2, ![256, 2048]⟩
abbrev S8x1024x2048 : Shape := ⟨3, ![8, 1024, 2048]⟩
abbrev S1x2048x1024 : Shape := ⟨3, ![1, 2048, 1024]⟩
abbrev S1x1024x256 : Shape := ⟨3, ![1, 1024, 256]⟩
abbrev S2048x1024 : Shape := ⟨2, ![2048, 1024]⟩
abbrev S256 : Shape := ⟨1, ![256]⟩
abbrev S256x1 : Shape := ⟨2, ![256, 1]⟩
abbrev S1024x256 : Shape := ⟨2, ![1024, 256]⟩
abbrev S8x1x1024x2048 : Shape := ⟨4, ![8, 1, 1024, 2048]⟩

abbrev nBuf : Space → Nat
  | .hbm => 21
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S1024x2048, .f32⟩
  | .hbm, ⟨2, _⟩ => ⟨S2048, .f32⟩
  | .hbm, ⟨3, _⟩ => ⟨S1024x1024, .f32⟩
  | .hbm, ⟨4, _⟩ => ⟨S1024, .f32⟩
  | .hbm, ⟨5, _⟩ => ⟨S2x1024, .f32⟩
  | .hbm, ⟨6, _⟩ => ⟨S2x1024, .f32⟩
  | .hbm, ⟨7, _⟩ => ⟨S1024x1024, .f32⟩
  | .hbm, ⟨8, _⟩ => ⟨S1024, .f32⟩
  | .hbm, ⟨9, _⟩ => ⟨S1x2048, .f32⟩
  | .hbm, ⟨10, _⟩ => ⟨S1x1024, .f32⟩
  | .hbm, ⟨11, _⟩ => ⟨S1x1024, .f32⟩
  | .hbm, ⟨12, _⟩ => ⟨S1024x2048, .bf16⟩
  | .hbm, ⟨13, _⟩ => ⟨S1024x1024, .bf16⟩
  | .hbm, ⟨14, _⟩ => ⟨S1024x1024, .bf16⟩
  | .hbm, ⟨15, _⟩ => ⟨S8x2048x1024, .bf16⟩
  | .hbm, ⟨16, _⟩ => ⟨S8x2048x1024, .bf16⟩
  | .hbm, ⟨17, _⟩ => ⟨S8x2048x1024, .bf16⟩
  | .hbm, ⟨18, _⟩ => ⟨S8x2048x1024, .bf16⟩
  | .hbm, ⟨19, _⟩ => ⟨S8x1024x2048, .f32⟩
  | .hbm, ⟨20, _⟩ => ⟨S8x1x1024x2048, .f32⟩
  | .local _ .vmem, ⟨0, _⟩ => ⟨S1x256x1024, .f32⟩
  | .local _ .vmem, ⟨1, _⟩ => ⟨S1x256x1024, .f32⟩
  | .local _ .vmem, ⟨2, _⟩ => ⟨S1024x2048, .bf16⟩
  | .local _ .vmem, ⟨3, _⟩ => ⟨S1x2048, .f32⟩
  | .local _ .vmem, ⟨4, _⟩ => ⟨S1024x1024, .bf16⟩
  | .local _ .vmem, ⟨5, _⟩ => ⟨S1x1024, .f32⟩
  | .local _ .vmem, ⟨6, _⟩ => ⟨S2x1024, .f32⟩
  | .local _ .vmem, ⟨7, _⟩ => ⟨S2x1024, .f32⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S1024x1024, .bf16⟩
  | .local _ .vmem, ⟨25, _⟩ => ⟨S1x1024, .f32⟩
  | .local _ .vmem, ⟨26, _⟩ => ⟨S1x1024x256, .f32⟩
  | .local _ .vmem, ⟨27, _⟩ => ⟨S1x1024x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S2048_S1x2048 : S2048.ShapeCasts S1x2048
  shapeCasts_S1024_S1x1024 : S1024.ShapeCasts S1x1024
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S256x2048_o0_0_S256x1024 : S256x2048.Slices ![0, 0] S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  slices_S256x2048_o0_1024_S256x1024 : S256x2048.Slices ![0, 1024] S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S2x1024_S2x1024_0_0 : ∀ a, (![0, 0] : Fin 2 → Nat) a + S2x1024.size a ≤ S2x1024.size a
  h_S2x1024 : 0 < S2x1024.numel
  slices_S2x1024_o0_0_S1x1024 : S2x1024.Slices ![0, 0] S1x1024
  slices_S2x1024_o1_0_S1x1024 : S2x1024.Slices ![1, 0] S1x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  iota_S256x1_d0_w32 : S256x1.Iotas .tc 32 [0]
  iota_S1x2048_d1_w32 : S1x2048.Iotas .tc 32 [1]
  broadcasts_S256x1_S256x1024 : S256x1.Broadcasts S256x1024
  transposes_S256x1024_p1_0_S1024x256 : S256x1024.Transposes [1, 0] S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  bcast_S8x1024x2048_S8x1x1024x2048_0_2_3 : S8x1024x2048.BroadcastsInDim S8x1x1024x2048 (![0, 2, 3] : Fin 3 → Fin S8x1x1024x2048.rank)
  dot_S256x1024_S1024x2048_S256x2048_1_0_0_1_n_n_wf : DotDims.WF S256x1024 S1024x2048 S256x2048 [1] [0] [0] [1] [] []
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .f32 = 32 ∨ (Rect.block (s := S8x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x1024.size a ≤ S2x1024.size a
  hwx0_5 : ∀ i : grid0.Coords, EltTy.bits .f32 = 32 ∨ (Rect.block (s := S2x1024) S2x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x1024.size a ≤ S2x1024.size a
  hwx0_6 : ∀ i : grid0.Coords, EltTy.bits .f32 = 32 ∨ (Rect.block (s := S2x1024) S2x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S8x2048x1024.size a
  hwx0_7 : ∀ i : grid0.Coords, EltTy.bits .bf16 = 32 ∨ (Rect.block (s := S8x2048x1024) S1x256x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x1024.size a ≤ S8x2048x1024.size a
  hwx0_8 : ∀ i : grid0.Coords, EltTy.bits .bf16 = 32 ∨ (Rect.block (s := S8x2048x1024) S1x256x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x1024.size a ≤ S8x2048x1024.size a
  hwx0_9 : ∀ i : grid0.Coords, EltTy.bits .bf16 = 32 ∨ (Rect.block (s := S8x2048x1024) S1x256x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x1024.size a ≤ S8x2048x1024.size a
  hwx0_10 : ∀ i : grid0.Coords, EltTy.bits .bf16 = 32 ∨ (Rect.block (s := S8x2048x1024) S1x256x1024.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x2048x1024.size a
  hwx1_0 : ∀ i : grid1.Coords, EltTy.bits .bf16 = 32 ∨ (Rect.block (s := S8x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S8x2048x1024.size a
  hwx1_1 : ∀ i : grid1.Coords, EltTy.bits .bf16 = 32 ∨ (Rect.block (s := S8x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1024.size a ≤ S8x2048x1024.size a
  hwx1_2 : ∀ i : grid1.Coords, EltTy.bits .bf16 = 32 ∨ (Rect.block (s := S8x2048x1024) S1x256x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S8x2048x1024.size a
  hwx1_3 : ∀ i : grid1.Coords, EltTy.bits .bf16 = 32 ∨ (Rect.block (s := S8x2048x1024) S1x256x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x256.size a ≤ S8x1024x2048.size a
  hwx1_6 : ∀ i : grid1.Coords, EltTy.bits .f32 = 32 ∨ (Rect.block (s := S8x1024x2048) S1x1024x256.size (cc1_transform_6 i) (hinb1_6 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S1x256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S1x256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S1x256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_3) S1x256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v6_2) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_3) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_0) S1x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6_1) S1x256x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x1024x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x2048 : Shape := ⟨2, ![1024, 2048]⟩
abbrev S2048 : Shape := ⟨1, ![2048]⟩
abbrev S1024x1024 : Shape := ⟨2, ![1024, 1024]⟩
abbrev S1024 : Shape := ⟨1, ![1024]⟩
abbrev S2x1024 : Shape := ⟨2, ![2, 1024]⟩
abbrev S8x2048x2048 : Shape := ⟨3, ![8, 2048, 2048]⟩
abbrev S1x1x2048 : Shape := ⟨3, ![1, 1, 2048]⟩
abbrev S_ : Shape := ⟨0, ![]⟩
abbrev S1x1x1024 : Shape := ⟨3, ![1, 1, 1024]⟩
abbrev S8x2048x1x1024 : Shape := ⟨4, ![8, 2048, 1, 1024]⟩
abbrev S1x1x2x1024 : Shape := ⟨4, ![1, 1, 2, 1024]⟩
abbrev S8x2048x2x1024 : Shape := ⟨4, ![8, 2048, 2, 1024]⟩
abbrev S8x2048 : Shape := ⟨2, ![8, 2048]⟩
abbrev S8x2048x1 : Shape := ⟨3, ![8, 2048, 1]⟩
abbrev S2048x1 : Shape := ⟨2, ![2048, 1]⟩
abbrev S2048x2 : Shape := ⟨2, ![2048, 2]⟩
abbrev S8x1024x2048 : Shape := ⟨3, ![8, 1024, 2048]⟩
abbrev S8x1x1024x2048 : Shape := ⟨4, ![8, 1, 1024, 2048]⟩

abbrev nBuf : Space → Nat
  | .hbm => 98
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x2048, .f32⟩
  | .hbm, ⟨2, _⟩ => ⟨S2048, .f32⟩
  | .hbm, ⟨3, _⟩ => ⟨S1024x1024, .f32⟩
  | .hbm, ⟨4, _⟩ => ⟨S1024, .f32⟩
  | .hbm, ⟨5, _⟩ => ⟨S2x1024, .f32⟩
  | .hbm, ⟨6, _⟩ => ⟨S2x1024, .f32⟩
  | .hbm, ⟨7, _⟩ => ⟨S1024x1024, .f32⟩
  | .hbm, ⟨8, _⟩ => ⟨S1024, .f32⟩
  | .hbm, ⟨9, _⟩ => ⟨S8x2048x2048, .f32⟩
  | .hbm, ⟨10, _⟩ => ⟨S1x1x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1x1024, .f32⟩
  | .hbm, ⟨38, _⟩ => ⟨S1x1x2x1024, .f32⟩
  | .hbm, ⟨39, _⟩ => ⟨S8x2048x2x1024, .f32⟩
  | .hbm, ⟨40, _⟩ => ⟨S8x2048x2x1024, .f32⟩
  | .hbm, ⟨41, _⟩ => ⟨S8x2048x2x1024, .f32⟩
  | .hbm, ⟨42, _⟩ => ⟨S1x1x2x1024, .f32⟩
  | .hbm, ⟨43, _⟩ => ⟨S8x2048x2x1024, .f32⟩
  | .hbm, ⟨44, _⟩ => ⟨S8x2048x2x1024, .f32⟩
  | .hbm, ⟨45, _⟩ => ⟨S8x2048x1x1024, .f32⟩
  | .hbm, ⟨46, _⟩ => ⟨S8x2048x1024, .f32⟩
  | .hbm, ⟨47, _⟩ => ⟨S8x2048x1x1024, .f32⟩
  | .hbm, ⟨48, _⟩ => ⟨S8x2048x1024, .f32⟩
  | .hbm, ⟨49, _⟩ => ⟨S8x2048x2048, .f32⟩
  | .hbm, ⟨50, _⟩ => ⟨S_, .f32⟩
  | .hbm, ⟨51, _⟩ => ⟨S_, .f32⟩
  | .hbm, ⟨52, _⟩ => ⟨S8x2048x2048, .f32⟩
  | .hbm, ⟨53, _⟩ => ⟨S8x2048x2048, .f32⟩
  | .hbm, ⟨54, _⟩ => ⟨S_, .f32⟩
  | .hbm, ⟨55, _⟩ => ⟨S8x2048, .f32⟩
  | .hbm, ⟨56, _⟩ => ⟨S_, .f32⟩
  | .hbm, ⟨57, _⟩ => ⟨S8x2048, .f32⟩
  | .hbm, ⟨58, _⟩ => ⟨S8x2048, .f32⟩
  | .hbm, ⟨59, _⟩ => ⟨S8x2048x1, .f32⟩
  | .hbm, ⟨60, _⟩ => ⟨S8x2048x2048, .f32⟩
  | .hbm, ⟨61, _⟩ => ⟨S8x2048x2048, .f32⟩
  | .hbm, ⟨62, _⟩ => ⟨S8x2048x2048, .f32⟩
  | .hbm, ⟨63, _⟩ => ⟨S_, .f32⟩
  | .hbm, ⟨64, _⟩ => ⟨S8x2048, .f32⟩
  | .hbm, ⟨65, _⟩ => ⟨S8x2048x1, .f32⟩
  | .hbm, ⟨66, _⟩ => ⟨S8x2048x2048, .f32⟩
  | .hbm, ⟨67, _⟩ => ⟨S8x2048x2048, .f32⟩
  | .hbm, ⟨68, _⟩ => ⟨S2048, .i32⟩
  | .hbm, ⟨69, _⟩ => ⟨S2048, .i32⟩
  | .hbm, ⟨70, _⟩ => ⟨S_, .i32⟩
  | .hbm, ⟨71, _⟩ => ⟨S2048, .i32⟩
  | .hbm, ⟨72, _⟩ => ⟨S2048, .i1⟩
  | .hbm, ⟨73, _⟩ => ⟨S_, .i32⟩
  | .hbm, ⟨74, _⟩ => ⟨S2048, .i32⟩
  | .hbm, ⟨75, _⟩ => ⟨S2048, .i32⟩
  | .hbm, ⟨76, _⟩ => ⟨S2048, .i32⟩
  | .hbm, ⟨77, _⟩ => ⟨S_, .i32⟩
  | .hbm, ⟨78, _⟩ => ⟨S2048, .i32⟩
  | .hbm, ⟨79, _⟩ => ⟨S2048, .i1⟩
  | .hbm, ⟨80, _⟩ => ⟨S_, .i32⟩
  | .hbm, ⟨81, _⟩ => ⟨S2048, .i32⟩
  | .hbm, ⟨82, _⟩ => ⟨S2048, .i32⟩
  | .hbm, ⟨83, _⟩ => ⟨S2048, .i32⟩
  | .hbm, ⟨84, _⟩ => ⟨S2048x1, .i32⟩
  | .hbm, ⟨85, _⟩ => ⟨S2048x1, .i32⟩
  | .hbm, ⟨86, _⟩ => ⟨S2048x2, .i32⟩
  | .hbm, ⟨87, _⟩ => ⟨S8x2048, .f32⟩
  | .hbm, ⟨88, _⟩ => ⟨S8x2048x1, .f32⟩
  | .hbm, ⟨89, _⟩ => ⟨S8x2048x1024, .f32⟩
  | .hbm, ⟨90, _⟩ => ⟨S8x2048x1024, .f32⟩
  | .hbm, ⟨91, _⟩ => ⟨S8x2048x1024, .f32⟩
  | .hbm, ⟨92, _⟩ => ⟨S8x2048x1024, .f32⟩
  | .hbm, ⟨93, _⟩ => ⟨S1x1x1024, .f32⟩
  | .hbm, ⟨94, _⟩ => ⟨S8x2048x1024, .f32⟩
  | .hbm, ⟨95, _⟩ => ⟨S8x2048x1024, .f32⟩
  | .hbm, ⟨96, _⟩ => ⟨S8x1024x2048, .f32⟩
  | .hbm, ⟨97, _⟩ => ⟨S8x1x1024x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_0 : Ref sig .tc := ⟨.hbm, 54, rfl⟩
abbrev main_v28 : Ref sig .tc := ⟨.hbm, 55, rfl⟩
abbrev main_cst_1 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_2 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call2_v0 : Ref sig .tc := ⟨.hbm, 68, rfl⟩
abbrev main_call2_v1 : Ref sig .tc := ⟨.hbm, 69, rfl⟩
abbrev main_call2_c : Ref sig .tc := ⟨.hbm, 70, rfl⟩
abbrev main_call2_v2 : Ref sig .tc := ⟨.hbm, 71, rfl⟩
abbrev main_call2_v3 : Ref sig .tc := ⟨.hbm, 72, rfl⟩
abbrev main_call2_c_0 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_c_1 : Ref sig .tc := ⟨.hbm, 77, rfl⟩
abbrev main_call2_v7 : Ref sig .tc := ⟨.hbm, 78, rfl⟩
abbrev main_call2_v8 : Ref sig .tc := ⟨.hbm, 79, rfl⟩
abbrev main_call2_c_2 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  bcast_S_S8x2048x2048 : S_.BroadcastsInDim S8x2048x2048 (![] : Fin 0 → Fin S8x2048x2048.rank)
  slices_S8x2048x2048_S8x2048x1024_0_0_0 : S8x2048x2048.Slices ![0, 0, 0] S8x2048x1024
  slices_S8x2048x2048_S8x2048x1024_0_0_1024 : S8x2048x2048.Slices ![0, 0, 1024] S8x2048x1024
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x1024 : S_.BroadcastsInDim S8x2048x1024 (![] : Fin 0 → Fin S8x2048x1024.rank)
  bcast_S8x2048x1024_S8x2048x1x1024_0_1_3 : S8x2048x1024.BroadcastsInDim S8x2048x1x1024 (![0, 1, 3] : Fin 3 → Fin S8x2048x1x1024.rank)
  bcast_S2x1024_S1x1x2x1024_2_3 : S2x1024.BroadcastsInDim S1x1x2x1024 (![2, 3] : Fin 2 → Fin S1x1x2x1024.rank)
  bcast_S8x2048x1x1024_S8x2048x2x1024_0_1_2_3 : S8x2048x1x1024.BroadcastsInDim S8x2048x2x1024 (![0, 1, 2, 3] : Fin 4 → Fin S8x2048x2x1024.rank)
  bcast_S1x1x2x1024_S8x2048x2x1024_0_1_2_3 : S1x1x2x1024.BroadcastsInDim S8x2048x2x1024 (![0, 1, 2, 3] : Fin 4 → Fin S8x2048x2x1024.rank)
  slices_S8x2048x2x1024_S8x2048x1x1024_0_0_0_0 : S8x2048x2x1024.Slices ![0, 0, 0, 0] S8x2048x1x1024
  shapeCasts_S8x2048x1x1024_S8x2048x1024 : S8x2048x1x1024.ShapeCasts S8x2048x1024
  slices_S8x2048x2x1024_S8x2048x1x1024_0_0_1_0 : S8x2048x2x1024.Slices ![0, 0, 1, 0] S8x2048x1x1024
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  bcast_S8x2048x1_S8x2048x1024_0_1_2 : S8x2048x1.BroadcastsInDim S8x2048x1024 (![0, 1, 2] : Fin 3 → Fin S8x2048x1024.rank)
  transposes_S8x2048x1024_S8x1024x2048_0_2_1 : S8x2048x1024.Transposes [0, 2, 1] S8x1024x2048
  bcast_S8x1024x2048_S8x1x1024x2048_0_2_3 : S8x1024x2048.BroadcastsInDim S8x1x1024x2048 (![0, 2, 3] : Fin 3 → Fin S8x1x1024x2048.rank)
  dot_S8x2048x1024_S1024x2048_S8x2048x2048_2_0_01_1_n_n_wf : DotDims.WF S8x2048x1024 S1024x2048 S8x2048x2048 [2] [0] [0, 1] [1] [] []
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  gather_S8x2048x2048_S2048x2_S8x2048_0_12_n_n_12_1_811_wf : GatherDims.WF S8x2048x2048 S2048x2 S8x2048 [0] [1, 2] [] [1, 2] [] 1 ![8, 1, 1]

variable [Facts₀]

def dot_S8x2048x1024_S1024x2048_S8x2048x2048_2_0_01_1_n_n : DotDims S8x2048x1024 S1024x2048 S8x2048x2048 where
  lhsContracting := [2]
  rhsContracting := [0]
  lhsNonContracting := [0, 1]
  rhsNonContracting := [1]
  lhsBatch := []
  rhsBatch := []
  wf := dot_S8x2048x1024_S1024x2048_S8x2048x2048_2_0_01_1_n_n_wf
def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def gather_S8x2048x2048_S2048x2_S8x2048_0_12_n_n_12_1_811 : GatherDims S8x2048x2048 S2048x2 S8x2048 where
  offsetDims := [0]
  collapsedSliceDims := [1, 2]
  operandBatchingDims := []
  startIndicesBatchingDims := []
  startIndexMap := [1, 2]
  indexVectorDim := 1
  sliceSizes := ![8, 1, 1]
  wf := gather_S8x2048x2048_S2048x2_S8x2048_0_12_n_n_12_1_811_wf

class Facts : Prop extends Facts₀ where

variable [Facts]
-- ==== Proof.KRun.lean ====
/-
  The kernel program's run with its result NAMED. The two-region frame says every weakly fair execution ends with
  the argument arrays as launched; read one buffer further, the same run ends with the result buffer at the last
  boundary's contents: the launch memory folded through the first host stretch, the two regions' write-backs and
  the closing broadcast. (The term is the frame's, with one more conjunct read off the same final thread state.)
-/
import proofs.«182150_j66503273612026_2_alg».proof.Proof.KernelIdealFrameP

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    last boundary's contents `W4` and the nine argument arrays as launched. -/
theorem run_named : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Whole

end
-- ==== Proof.KPlumb.lean ====
/-
  What each buffer holds at the boundaries of the kernel program, at the ideal values.

  Before the first region the host reshapes the three bias vectors [n] to rows [1, n] and rounds the three weight
  matrices to bfloat16 — at the ideal values a change of format is the identity, so those buffers hold the
  weights themselves; the input `x`, `gamma` and `beta` are read as launched. The first region leaves the four
  arrays v, gate, q, k at what its write-backs fold to and touches nothing else; the second leaves the projected
  output likewise; the closing host operation inserts a unit axis.
-/
import proofs.«182150_j66503273612026_2_alg».proof.Proof.KernelIdealFrameP
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Whole

open Cert.KernelIdeal Cert.KernelIdeal.Gen Cert.KernelIdeal.GenP
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The first region's entry contents -/

/-- The input `x` is as launched. -/
theorem V1_arg0 (c : Dev nD) : V1 m ρ c main_arg0 = m ((c : Thread nD τ).loc main_arg0) := by
  show StableHlo.after hostOps0 (W0 m ρ c) (Proc.devRef .tc main_arg0) = _
  after_results
/-- `gamma` is as launched. -/
theorem V1_arg5 (c : Dev nD) : V1 m ρ c main_arg5 = m ((c : Thread nD τ).loc main_arg5) := by
  show StableHlo.after hostOps0 (W0 m ρ c) (Proc.devRef .tc main_arg5) = _
  after_results
/-- `beta` is as launched. -/
theorem V1_arg6 (c : Dev nD) : V1 m ρ c main_arg6 = m ((c : Thread nD τ).loc main_arg6) := by
  show StableHlo.after hostOps0 (W0 m ρ c) (Proc.devRef .tc main_arg6) = _
  after_results

/-- The hidden projection's weights, rounded to bfloat16: at the ideal values, the weights. -/
theorem V1_v3 (c : Dev nD) : V1 m ρ c main_v3 = m ((c : Thread nD τ).loc main_arg1) := by
  show StableHlo.after hostOps0 (W0 m ρ c) (Proc.devRef .tc main_v3) = _
  after_results; rfl
/-- The query-key projection's weights likewise. -/
theorem V1_v4 (c : Dev nD) : V1 m ρ c main_v4 = m ((c : Thread nD τ).loc main_arg3) := by
  show StableHlo.after hostOps0 (W0 m ρ c) (Proc.devRef .tc main_v4) = _
  after_results; rfl
/-- The output projection's weights likewise. -/
theorem V1_v5 (c : Dev nD) : V1 m ρ c main_v5 = m ((c : Thread nD τ).loc main_arg7) := by
  show StableHlo.after hostOps0 (W0 m ρ c) (Proc.devRef .tc main_v5) = _
  after_results; rfl

/-- The hidden bias as a row: entry (0, e) is entry e of the vector. -/
theorem V1_v0 (c : Dev nD) (e : Fin 2048) : V1 m ρ c main_v0 (ix2 0 e) = m ((c : Thread nD τ).loc main_arg2) (ix1 e) := by
  have h : V1 m ρ c main_v0 = shapeCast S1x2048 (m ((c : Thread nD τ).loc main_arg2)) shapeCasts_S2048_S1x2048 := by
    show StableHlo.after hostOps0 (W0 m ρ c) (Proc.devRef .tc main_v0) = _
    after_results; rfl
  rw [h]; exact shapeCast_a_1a_apply _ _ 0 e
/-- The query-key bias as a row. -/
theorem V1_v1 (c : Dev nD) (o : Fin 1024) : V1 m ρ c main_v1 (ix2 0 o) = m ((c : Thread nD τ).loc main_arg4) (ix1 o) := by
  have h : V1 m ρ c main_v1 = shapeCast S1x1024 (m ((c : Thread nD τ).loc main_arg4)) shapeCasts_S1024_S1x1024 := by
    show StableHlo.after hostOps0 (W0 m ρ c) (Proc.devRef .tc main_v1) = _
    after_results; rfl
  rw [h]; exact shapeCast_a_1a_apply _ _ 0 o
/-- The output bias as a row. -/
theorem V1_v2 (c : Dev nD) (n : Fin 1024) : V1 m ρ c main_v2 (ix2 0 n) = m ((c : Thread nD τ).loc main_arg8) (ix1 n) := by
  have h : V1 m ρ c main_v2 = shapeCast S1x1024 (m ((c : Thread nD τ).loc main_arg8)) shapeCasts_S1024_S1x1024 := by
    show StableHlo.after hostOps0 (W0 m ρ c) (Proc.devRef .tc main_v2) = _
    after_results; rfl
  rw [h]; exact shapeCast_a_1a_apply _ _ 0 n

/-! ## The second region's entry contents -/

/-- The value array is what the first region's write-backs fold to. -/
theorem V2_v (c : Dev nD) : V2 m ρ c main_v6_0 = (dat0 (V1 m ρ) c).arrAt 7 cfg0.N := W2_arr m ρ c 7
/-- The gate array likewise. -/
theorem V2_g (c : Dev nD) : V2 m ρ c main_v6_1 = (dat0 (V1 m ρ) c).arrAt 8 cfg0.N := W2_arr m ρ c 8
/-- The query array likewise. -/
theorem V2_q (c : Dev nD) : V2 m ρ c main_v6_2 = (dat0 (V1 m ρ) c).arrAt 9 cfg0.N := W2_arr m ρ c 9
/-- The key array likewise. -/
theorem V2_k (c : Dev nD) : V2 m ρ c main_v6_3 = (dat0 (V1 m ρ) c).arrAt 10 cfg0.N := W2_arr m ρ c 10
/-- The first region does not touch the output projection's weights. -/
theorem V2_v5 (c : Dev nD) : V2 m ρ c main_v5 = V1 m ρ c main_v5 := W2_of_ne m ρ c main_v5 (by decide)
/-- Nor the output bias row. -/
theorem V2_v2 (c : Dev nD) : V2 m ρ c main_v2 = V1 m ρ c main_v2 := W2_of_ne m ρ c main_v2 (by decide)

/-! ## The result -/

/-- The projected output is what the second region's write-backs fold to. -/
theorem W3_v7 (c : Dev nD) : W3 m ρ c (Proc.devRef .tc main_v7) = (dat1 (V2 m ρ) c).arrAt 6 cfg1.N := W3_arr m ρ c 6

/-- The result is the projected output with a unit axis inserted. -/
theorem W4_v8 (c : Dev nD) : W4 m ρ c (Proc.devRef .tc main_v8)
    = broadcastInDim S8x1x1024x2048 ![0, 2, 3] bcast_S8x1024x2048_S8x1x1024x2048_0_2_3 (W3 m ρ c (Proc.devRef .tc main_v7)) := by
  show StableHlo.after hostOps2 (W3 m ρ c) (Proc.devRef .tc main_v8) = _
  after_results

end Cert.KernelIdeal.Whole

end
-- ==== Proof.K0Matmul.lean ====
/-
  The two matrix products of the first stage, read at one entry. Into a zero accumulator the matrix unit's
  product of a [256, 1024] block with a [1024, E] matrix is, at row `p` and column `e`, the plain sum
  `Σ_d l p d · r d e` over the one contracted axis: the contraction index has a single coordinate, the operand
  indices at a result index and a contraction index are `(p, d)` and `(d, e)`, and the sum is re-indexed along
  that coordinate.
-/
import proofs.«182150_j66503273612026_2_alg».proof.Proof.Gen.KernelIdeal.Skeleton
import Idealize.ShloMosaic.Lib.ValueIdx
import Idealize.ShloMosaic.PureOps.Ideal.Laws

noncomputable section

open scoped BigOperators

namespace Cert.KernelIdeal.Val0

open Cert.KernelIdeal Cert.KernelIdeal.Gen Idealize.ShloMosaic Idealize.ShloMosaic.ValueIdx

theorem matmul_wide_lhs0 (i : S256x2048.Idx) (q : dot_S256x1024_S1024x2048_S256x2048_1_0_0_1_n_n.contr.Idx) : (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem matmul_wide_lhs1 (i : S256x2048.Idx) (q : dot_S256x1024_S1024x2048_S256x2048_1_0_0_1_n_n.contr.Idx) : (dot_S256x1024_S1024x2048_S256x2048_1_0_0_1_n_n.lhsIdx i q 1).val = (q ⟨0, by decide⟩).val :=
  dot_S256x1024_S1024x2048_S256x2048_1_0_0_1_n_n.lhsIdx_val_of_single rfl i q
theorem matmul_wide_rhs0 (i : S256x2048.Idx) (q : dot_S256x1024_S1024x2048_S256x2048_1_0_0_1_n_n.contr.Idx) : (dot_S256x1024_S1024x2048_S256x2048_1_0_0_1_n_n.rhsIdx i q 0).val = (q ⟨0, by decide⟩).val :=
  dot_S256x1024_S1024x2048_S256x2048_1_0_0_1_n_n.rhsIdx_val_of_single rfl i q
theorem matmul_wide_rhs1 (i : S256x2048.Idx) (q : dot_S256x1024_S1024x2048_S256x2048_1_0_0_1_n_n.contr.Idx) : (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- The product with the [1024, 2048] matrix at `(p, e)`. -/
theorem matmul_wide_apply (l : FVec Ideal S256x1024 .bf16) (r : FVec Ideal S1024x2048 .bf16) (p : Fin 256) (e : Fin 2048) :
    matmul dot_S256x1024_S1024x2048_S256x2048_1_0_0_1_n_n none l r (constant (F := Ideal) S256x2048 .f32 0x00000000#32) (ix2 p e)
      = ∑ d : Fin 1024, l (ix2 p d) * r (ix2 d e) := by
  show FloatOps.matmul dot_S256x1024_S1024x2048_S256x2048_1_0_0_1_n_n none l r (constant (F := Ideal) S256x2048 .f32 0x00000000#32) (ix2 p e) = _
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 p e) ((contrEquiv1 dot_S256x1024_S1024x2048_S256x2048_1_0_0_1_n_n 1024 rfl rfl).symm k) = ix2 p k := funext fun a => Fin.ext (by
    match a with
    | ⟨0, _⟩ => exact matmul_wide_lhs0 _ _
    | ⟨1, _⟩ => exact (matmul_wide_lhs1 _ _).trans hk)
  have er : dot_S256x1024_S1024x2048_S256x2048_1_0_0_1_n_n.rhsIdx (ix2 p e) ((contrEquiv1 dot_S256x1024_S1024x2048_S256x2048_1_0_0_1_n_n 1024 rfl rfl).symm k) = ix2 k e := funext fun a => Fin.ext (by
    match a with
    | ⟨0, _⟩ => exact (matmul_wide_rhs0 _ _).trans hk
    | ⟨1, _⟩ => exact matmul_wide_rhs1 _ _)
  rw [el, er]

theorem matmul_square_lhs0 (i : S256x1024.Idx) (q : dot_S256x1024_S1024x1024_S256x1024_1_0_0_1_n_n.contr.Idx) : (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem matmul_square_lhs1 (i : S256x1024.Idx) (q : dot_S256x1024_S1024x1024_S256x1024_1_0_0_1_n_n.contr.Idx) : (dot_S256x1024_S1024x1024_S256x1024_1_0_0_1_n_n.lhsIdx i q 1).val = (q ⟨0, by decide⟩).val :=
  dot_S256x1024_S1024x1024_S256x1024_1_0_0_1_n_n.lhsIdx_val_of_single rfl i q
theorem matmul_square_rhs0 (i : S256x1024.Idx) (q : dot_S256x1024_S1024x1024_S256x1024_1_0_0_1_n_n.contr.Idx) : (dot_S256x1024_S1024x1024_S256x1024_1_0_0_1_n_n.rhsIdx i q 0).val = (q ⟨0, by decide⟩).val :=
  dot_S256x1024_S1024x1024_S256x1024_1_0_0_1_n_n.rhsIdx_val_of_single rfl i q
theorem matmul_square_rhs1 (i : S256x1024.Idx) (q : dot_S256x1024_S1024x1024_S256x1024_1_0_0_1_n_n.contr.Idx) : (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The product with the [1024, 1024] matrix at `(p, o)`. -/
theorem matmul_square_apply (l : FVec Ideal S256x1024 .bf16) (r : FVec Ideal S1024x1024 .bf16) (p : Fin 256) (o : Fin 1024) :
    matmul dot_S256x1024_S1024x1024_S256x1024_1_0_0_1_n_n none l r (constant (F := Ideal) S256x1024 .f32 0x00000000#32) (ix2 p o)
      = ∑ d : Fin 1024, l (ix2 p d) * r (ix2 d o) := by
  show FloatOps.matmul dot_S256x1024_S1024x1024_S256x1024_1_0_0_1_n_n none l r (constant (F := Ideal) S256x1024 .f32 0x00000000#32) (ix2 p o) = _
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p o) ((contrEquiv1 dot_S256x1024_S1024x1024_S256x1024_1_0_0_1_n_n 1024 rfl rfl).symm k) = ix2 p k := funext fun a => Fin.ext (by
    match a with
    | ⟨0, _⟩ => exact matmul_square_lhs0 _ _
    | ⟨1, _⟩ => exact (matmul_square_lhs1 _ _).trans hk)
  have er : dot_S256x1024_S1024x1024_S256x1024_1_0_0_1_n_n.rhsIdx (ix2 p o) ((contrEquiv1 dot_S256x1024_S1024x1024_S256x1024_1_0_0_1_n_n 1024 rfl rfl).symm k) = ix2 k o := funext fun a => Fin.ext (by
    match a with
    | ⟨0, _⟩ => exact (matmul_square_rhs0 _ _).trans hk
    | ⟨1, _⟩ => exact matmul_square_rhs1 _ _)
  rw [el, er]

end Cert.KernelIdeal.Val0

end
-- ==== Proof.LibMaxReduce.lean ====
/-
  A maximum taken along ONE axis, at the ideal float values, is the supremum over that axis's coordinates.

  At the ideal values `maximumf` is `max` on the extended reals, so a reduction with a maximum body from
  `-∞` along one axis is, at each reduced index `j`, the least upper bound of the source's entries at
  `j` with each coordinate `k` of the reduced axis put back (`Shape.Reduces.lift j k`). Stated for the
  in-kernel vector reduction and for the host's one-operand reduce, as an `⨆` over `Fin`: a form whose
  only law a proof needs is `iSup_le_iff`.
-/
import Idealize.ShloMosaic.PureOps.Ideal.Laws
import Idealize.ShloMosaic.PureOps.Reduce

noncomputable section

namespace Idealize.ShloMosaic.Ideal

/-- The f32 pattern of `-∞` denotes the bottom of the extended reals. -/
theorem ofBits_negInf_f32 : Ideal.ofBits .f32 0xFF800000#32 = (⊥ : EReal) := by
  simp [Ideal.ofBits, Ideal.ieee]

/-- A fold of `max` from the bottom over all of `Fin n` is the supremum of the entries. -/
theorem fold_max_bot_eq_iSup {n : Nat} (f : Fin n → EReal) :
    (Finset.univ : Finset (Fin n)).fold max (⊥ : EReal) f = ⨆ k : Fin n, f k := by
  refine eq_of_forall_ge_iff fun z => ?_
  rw [Finset.fold_max_le, iSup_le_iff]
  exact ⟨fun h k => h.2 k (Finset.mem_univ k), fun h => ⟨bot_le, fun k _ => h k⟩⟩

/-- The in-kernel maximum along one axis from `-∞`, at a reduced index, is the supremum over that axis. -/
theorem multiReduction_maximumf_single_iSup {s t : Shape} {a : Fin s.rank} (src : FVec Ideal s .f32)
    (h : s.Reduces [a] t) (hφ : FKind.Formats .f32) (hacc : (0xFF800000#32 : BitVec 32) = FKind.maximumf.neutral .f32 hφ)
    (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf_f32]
  exact fold_max_bot_eq_iSup _

/-- The host's one-operand reduce with a maximum body from `-∞` along one axis is the same supremum. -/
theorem hostReduce_maximumf_single_iSup {s t u : Shape} {a : Fin s.rank} (x : FVec Ideal s .f32)
    (h' : s.ReducesTo [a] t) (h : s.Reduces [a] t) (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu]
  show (Finset.univ : Finset (Fin (s.size a))).fold max (Ideal.ofBits .f32 0xFF800000#32) (x ∘ h.lift j) = _
  rw [ofBits_negInf_f32]
  exact fold_max_bot_eq_iSup _

end Idealize.ShloMosaic.Ideal

end
-- ==== Proof.Consts.lean ====
/-
  The float literals the two programs spell, as the extended reals their bit patterns denote: `1.0` (the logistic's
  numerator and the unit it adds), `1024.0` (whose square root divides the reference's scores) and `2⁻⁵ = 0.03125`
  (which multiplies the kernel's). They are stated in one place, after the module that reads `−∞`, so that the
  pattern decoder is opened once.
-/
import Idealize.ShloMosaic.PureOps.Ideal
import proofs.«182150_j66503273612026_2_alg».proof.Proof.LibMaxReduce

noncomputable section

namespace Cert.Consts

open Idealize.ShloMosaic

/-- `0x3F800000` is `1.0`. -/
theorem ofBits_one : Ideal.ofBits .f32 0x3F800000#32 = 1 := by
  simp [Ideal.ofBits, Ideal.ieee, -EReal.coe_mul]; norm_num

/-- `0x44800000` is `1024.0`. -/
theorem ofBits_1024 : Ideal.ofBits .f32 0x44800000#32 = ((1024 : ℝ) : EReal) := by
  simp [Ideal.ofBits, Ideal.ieee, -EReal.coe_mul]; norm_num

/-- `0x3D000000` is `2⁻⁵`. -/
theorem ofBits_inv32 : Ideal.ofBits .f32 0x3D000000#32 = ((1 / 32 : ℝ) : EReal) := by
  simp [Ideal.ofBits, Ideal.ieee, -EReal.coe_mul]; norm_num

end Cert.Consts

end
-- ==== Proof.Spec.lean ====
/-
  The function both programs compute, written once over coordinates.

  A gated attention unit over a batch of 8 sequences of 2048 tokens of width 1024. Per token the hidden
  activation is `silu (x · W_h + b_h)` (2048 wide), whose lower half is the value `v` and upper half the gate;
  a second projection `z = silu (x · W_qk + b_qk)` (1024 wide) gives the query `z · γ₀ + β₀` and the key
  `z · γ₁ + β₁`. The scores of a batch are `s i j = scale (q i · k j)`; only the DIAGONAL of the row softmax
  is used: `a i = exp (s i i − max_j s i j) / Σ_j exp (s i j − max_j s i j)`. The result at (batch, node, token)
  is `Σ_o (a t · v t o · gate t o) · W_out o n + b_out n`: the output projection, transposed.

  Every array enters as a function of its coordinates, so that the two programs' different layouts of the same
  data (a bias held as [2048] or as [1, 2048]) instantiate one definition.
-/
import Idealize.ShloMosaic.PureOps.Ideal
import Idealize.ShloMosaic.Lib.ValueIdx
import proofs.«182150_j66503273612026_2_alg».proof.Proof.Consts

noncomputable section

open scoped BigOperators

namespace Cert.Spec

open Idealize.ShloMosaic Idealize.ShloMosaic.ValueIdx

/-- `silu u = u · σ(u)`, with the logistic `σ(u) = 1 / (1 + e^(−u))` of the extended reals. -/
def silu (u : EReal) : EReal := u * Ideal.logistic u

/-- One projection followed by `silu`: `silu (Σ_d x b t d · W d e + bias e)`. -/
def proj {E : Nat} (x : Fin 8 → Fin 2048 → Fin 1024 → EReal) (W : Fin 1024 → Fin E → EReal) (bias : Fin E → EReal)
    (b : Fin 8) (t : Fin 2048) (e : Fin E) : EReal :=
  silu ((∑ d : Fin 1024, x b t d * W d e) + bias e)

/-- Column `o` of the lower half of a 2048-wide row. -/
def lo (o : Fin 1024) : Fin 2048 := ⟨o.val, by omega⟩
/-- Column `o` of the upper half of a 2048-wide row. -/
def hi (o : Fin 1024) : Fin 2048 := ⟨o.val + 1024, by omega⟩

/-- Query (`r = 0`) or key (`r = 1`): `z · γ_r + β_r`. -/
def qk (z : Fin 8 → Fin 2048 → Fin 1024 → EReal) (γ β : Fin 2 → Fin 1024 → EReal) (r : Fin 2)
    (b : Fin 8) (t : Fin 2048) (o : Fin 1024) : EReal :=
  z b t o * γ r o + β r o

/-- Entry `i` of the softmax of ONE row of scores: `exp (row i − M) / Σ_j exp (row j − M)` with `M = sup_j row j`. -/
def softmaxAt (row : Fin 2048 → EReal) (i : Fin 2048) : EReal :=
  Ideal.div (Ideal.exp (row i - ⨆ j : Fin 2048, row j)) (∑ j : Fin 2048, Ideal.exp (row j - ⨆ j' : Fin 2048, row j'))

/-- The diagonal entry of the row softmax of the score matrix `s`: row `i`'s softmax at `i`. -/
def diagSoftmax (s : Fin 2048 → Fin 2048 → EReal) (i : Fin 2048) : EReal := softmaxAt (s i) i

/-- The scaling of the scores as the kernel writes it: the product with the binary literal `2⁻⁵`. -/
def scaleK (u : EReal) : EReal := u * Ideal.ofBits .f32 0x3D000000#32
/-- The scaling of the scores as the reference writes it: the quotient by `√1024`. -/
def scaleR (u : EReal) : EReal := Ideal.div u (Ideal.sqrt (Ideal.ofBits .f32 0x44800000#32))

/-- The scores of batch `b`: the scaled inner products of queries and keys. -/
def score (scale : EReal → EReal) (q k : Fin 8 → Fin 2048 → Fin 1024 → EReal) (b : Fin 8) (i j : Fin 2048) : EReal :=
  scale (∑ o : Fin 1024, q b i o * k b j o)

/-- The result at batch `b`, token `t`, node `n`. -/
def out (scale : EReal → EReal) (q k v g : Fin 8 → Fin 2048 → Fin 1024 → EReal) (Wo : Fin 1024 → Fin 1024 → EReal)
    (bo : Fin 1024 → EReal) (b : Fin 8) (t : Fin 2048) (n : Fin 1024) : EReal :=
  (∑ o : Fin 1024, (diagSoftmax (score scale q k b) t * v b t o * g b t o) * Wo o n) + bo n

/-- The whole function of the nine arguments (by coordinates), at batch `b`, node `n`, token `t`. -/
def result (scale : EReal → EReal) (x : Fin 8 → Fin 2048 → Fin 1024 → EReal) (Wh : Fin 1024 → Fin 2048 → EReal) (bh : Fin 2048 → EReal)
    (Wqk : Fin 1024 → Fin 1024 → EReal) (bqk : Fin 1024 → EReal) (γ β : Fin 2 → Fin 1024 → EReal)
    (Wo : Fin 1024 → Fin 1024 → EReal) (bo : Fin 1024 → EReal) (b : Fin 8) (n : Fin 1024) (t : Fin 2048) : EReal :=
  out scale (qk (proj x Wqk bqk) γ β 0) (qk (proj x Wqk bqk) γ β 1)
    (fun b t o => proj x Wh bh b t (lo o)) (fun b t o => proj x Wh bh b t (hi o)) Wo bo b t n

/-- An array of rank 1, 2, 3 as a function of its index. -/
abbrev Arr1 (a : Nat) := (⟨1, ![a]⟩ : Shape).Idx → EReal
abbrev Arr2 (a b : Nat) := (⟨2, ![a, b]⟩ : Shape).Idx → EReal
abbrev Arr3 (a b c : Nat) := (⟨3, ![a, b, c]⟩ : Shape).Idx → EReal

/-- The result as an array [8, 1024, 2048] of the nine argument arrays. -/
def resultArr (scale : EReal → EReal) (x : Arr3 8 2048 1024) (Wh : Arr2 1024 2048) (bh : Arr1 2048) (Wqk : Arr2 1024 1024) (bqk : Arr1 1024)
    (γ β : Arr2 2 1024) (Wo : Arr2 1024 1024) (bo : Arr1 1024) : Arr3 8 1024 2048 := fun j =>
  result scale (fun b t d => x (ix3 b t d)) (fun d e => Wh (ix2 d e)) (fun e => bh (ix1 e)) (fun d o => Wqk (ix2 d o)) (fun o => bqk (ix1 o))
    (fun r o => γ (ix2 r o)) (fun r o => β (ix2 r o)) (fun o n => Wo (ix2 o n)) (fun n => bo (ix1 n)) (j 0) (j 1) (j 2)

/-- `1024 = 32²`, so its square root is `32`, and the quotient by `32` is the product with `2⁻⁵` on every extended real:
    the two scalings are one function. -/
theorem scaleR_eq_scaleK : scaleR = scaleK := by
  funext u
  have h3 : Real.sqrt 1024 = 32 := by
    rw [show (1024 : ℝ) = 32 ^ 2 by norm_num]; exact Real.sqrt_sq (by norm_num)
  unfold scaleR scaleK
  rw [Cert.Consts.ofBits_1024, Cert.Consts.ofBits_inv32, Ideal.sqrt_coe, if_neg (by norm_num), h3, Ideal.div_coe (by norm_num)]

end Cert.Spec

end
-- ==== Proof.K0Hidden.lean ====
/-
  The hidden projection of the first stage, read at one entry. With `u p e = Σ_d x p d · W d e + bias e` the body
  forms `u · σ(u)` on the [256, 2048] tile; the value block keeps the columns `0 … 1023` of it and the gate block
  the columns `1024 … 2047`. The x block [1, 256, 1024] is re-laid as [256, 1024] (entry `(p, d)` is entry
  `(0, p, d)`), the bias row [1, 2048] is repeated along the rows, and the changes of float format are the identity.
-/
import proofs.«182150_j66503273612026_2_alg».proof.Proof.K0Matmul
import proofs.«182150_j66503273612026_2_alg».proof.Proof.Spec
import Idealize.ShloMosaic.Lib.Pipeline.Value

noncomputable section

open scoped BigOperators

namespace Cert.KernelIdeal.Val0

open Cert.KernelIdeal Cert.KernelIdeal.Gen Idealize.ShloMosaic Idealize.ShloMosaic.ValueIdx

/-- `u · σ(u)` of a sum of two tiles, at an entry where the sum is known. -/
theorem silu_tile_apply {s : Shape} (a b : FVec Ideal s .f32) (i : s.Idx) (u : EReal) (h : a i + b i = u) :
    mulf (addf a b) (logistic (addf a b)) i = Cert.Spec.silu u := by
  subst h; rfl

/-- A [256, 1024] tile stored as a [1, 256, 1024] block in the narrower format: entry `(0, p, o)` is entry `(p, o)`. -/
theorem block_of_tile_apply (x : FVec Ideal S256x1024 .f32) (p : Fin 256) (o : Fin 1024) :
    shapeCast S1x256x1024 (truncf .bf16 x bitsLt_bf16_f32) shapeCasts_S256x1024_S1x256x1024 (ix3 0 p o) = x (ix2 p o) := by
  refine (shapeCast_apply _ shapeCasts_S256x1024_S1x256x1024 (ix3 0 p o) (ix2 p o) ?_).trans (truncf_apply x bitsLt_bf16_f32 (ix2 p o))
  rw [Shape.rowMajor_val_three, Shape.rowMajor_val_two]
  show p.val * 1024 + o.val = (0 * 256 + p.val) * 1024 + o.val
  omega

/-- The x block re-laid as [256, 1024]: entry `(p, d)` is the block's entry `(0, p, d)`. -/
theorem pay3_apply (v0 : Vec Ideal S1x256x1024 .f32) (p : Fin 256) (d : Fin 1024) :
    k0_pay3 (F := Ideal) v0 (ix2 p d) = v0 (ix3 0 p d) := by
  unfold k0_pay3
  refine (truncf_apply _ bitsLt_bf16_f32 (ix2 p d)).trans ?_
  refine (shapeCast_apply v0 shapeCasts_S1x256x1024_S256x1024 (ix2 p d) (ix3 0 p d) ?_)
  rw [Shape.rowMajor_val_three, Shape.rowMajor_val_two]
  show (0 * 256 + p.val) * 1024 + d.val = p.val * 1024 + d.val
  omega

/-- The activated hidden tile at `(p, e)`. -/
theorem pay4_apply (v0 : Vec Ideal S1x256x1024 .f32) (v3 : Vec Ideal S1024x2048 .bf16) (v6 : Vec Ideal S1x2048 .f32)
    (p : Fin 256) (e : Fin 2048) :
    k0_pay4 (F := Ideal) v0 v3 v6 (ix2 p e)
      = Cert.Spec.silu ((∑ d : Fin 1024, v0 (ix3 0 p d) * v3 (ix2 d e)) + v6 (ix2 0 e)) := by
  unfold k0_pay4
  refine silu_tile_apply _ _ (ix2 p e) _ (congrArg₂ (· + ·) ?_ ?_)
  · refine (matmul_wide_apply _ _ p e).trans (Finset.sum_congr rfl fun d _ => ?_)
    rw [pay3_apply, shapeCast_self]
  · refine (broadcastTo_apply _ broadcasts_S1x2048_S256x2048 (ix2 p e) (ix2 0 e) fun a => ?_).trans ?_
    · match a with
      | ⟨0, _⟩ => show 0 = if (1 : Nat) = 1 then 0 else p.val; rw [if_pos rfl]
      | ⟨1, _⟩ => show e.val = if (2048 : Nat) = 1 then 0 else e.val; rw [if_neg (by decide)]
    · rw [shapeCast_self]

/-- The value block at `(0, p, o)`: column `o` of the lower half. -/
theorem pay5_apply (v0 : Vec Ideal S1x256x1024 .f32) (v3 : Vec Ideal S1024x2048 .bf16) (v6 : Vec Ideal S1x2048 .f32)
    (p : Fin 256) (o : Fin 1024) :
    k0_pay5 (F := Ideal) v0 v3 v6 (ix3 0 p o)
      = Cert.Spec.silu ((∑ d : Fin 1024, v0 (ix3 0 p d) * v3 (ix2 d (Cert.Spec.lo o))) + v6 (ix2 0 (Cert.Spec.lo o))) := by
  unfold k0_pay5
  refine (block_of_tile_apply _ p o).trans ?_
  have hcut := extractStridedSlice_apply (s := S256x2048) (t := S256x1024) ![0, 0] (k0_pay4 (F := Ideal) v0 v3 v6)
    slices_S256x2048_o0_0_S256x1024 (ix2 p o) (ix2 p (Cert.Spec.lo o)) (fun a => by
      match a with
      | ⟨0, _⟩ => show p.val = 0 + p.val; omega
      | ⟨1, _⟩ => show o.val = 0 + o.val; omega)
  exact hcut.trans (pay4_apply v0 v3 v6 p (Cert.Spec.lo o))

/-- The gate block at `(0, p, o)`: column `o` of the upper half. -/
theorem pay6_apply (v0 : Vec Ideal S1x256x1024 .f32) (v3 : Vec Ideal S1024x2048 .bf16) (v6 : Vec Ideal S1x2048 .f32)
    (p : Fin 256) (o : Fin 1024) :
    k0_pay6 (F := Ideal) v0 v3 v6 (ix3 0 p o)
      = Cert.Spec.silu ((∑ d : Fin 1024, v0 (ix3 0 p d) * v3 (ix2 d (Cert.Spec.hi o))) + v6 (ix2 0 (Cert.Spec.hi o))) := by
  unfold k0_pay6
  refine (block_of_tile_apply _ p o).trans ?_
  have hcut := extractStridedSlice_apply (s := S256x2048) (t := S256x1024) ![0, 1024] (k0_pay4 (F := Ideal) v0 v3 v6)
    slices_S256x2048_o0_1024_S256x1024 (ix2 p o) (ix2 p (Cert.Spec.hi o)) (fun a => by
      match a with
      | ⟨0, _⟩ => show p.val = 0 + p.val; omega
      | ⟨1, _⟩ => show o.val + 1024 = 1024 + o.val; omega)
  exact hcut.trans (pay4_apply v0 v3 v6 p (Cert.Spec.hi o))

end Cert.KernelIdeal.Val0

end
-- ==== Proof.K0QK.lean ====
/-
  The query/key projection of the first stage, read at one entry. With `u p o = Σ_d x p d · W d o + bias o` the body
  forms `z = u · σ(u)` on the [256, 1024] tile, and the query block is `z · γ₀ + β₀`, the key block `z · γ₁ + β₁`:
  row `r` of the [2, 1024] scale and shift is cut out as a [1, 1024] row and repeated along the 256 rows.
-/
import proofs.«182150_j66503273612026_2_alg».proof.Proof.K0Hidden

noncomputable section

open scoped BigOperators

namespace Cert.KernelIdeal.Val0

open Cert.KernelIdeal Cert.KernelIdeal.Gen Idealize.ShloMosaic Idealize.ShloMosaic.ValueIdx

/-- The activated query/key tile at `(p, o)`. -/
theorem pay7_apply (v0 : Vec Ideal S1x256x1024 .f32) (v22 : Vec Ideal S1024x1024 .bf16) (v25 : Vec Ideal S1x1024 .f32)
    (p : Fin 256) (o : Fin 1024) :
    k0_pay7 (F := Ideal) v0 v22 v25 (ix2 p o)
      = Cert.Spec.silu ((∑ d : Fin 1024, v0 (ix3 0 p d) * v22 (ix2 d o)) + v25 (ix2 0 o)) := by
  unfold k0_pay7
  refine silu_tile_apply _ _ (ix2 p o) _ (congrArg₂ (· + ·) ?_ ?_)
  · refine (matmul_square_apply _ _ p o).trans (Finset.sum_congr rfl fun d _ => ?_)
    rw [pay3_apply, shapeCast_self]
  · refine (broadcastTo_apply _ broadcasts_S1x1024_S256x1024 (ix2 p o) (ix2 0 o) fun a => ?_).trans ?_
    · match a with
      | ⟨0, _⟩ => show 0 = if (1 : Nat) = 1 then 0 else p.val; rw [if_pos rfl]
      | ⟨1, _⟩ => show o.val = if (1024 : Nat) = 1 then 0 else o.val; rw [if_neg (by decide)]
    · rw [shapeCast_self]

/-- Row 0 of a [2, 1024] array, repeated along the rows, at `(p, o)`. -/
theorem row0_apply (v : Vec Ideal S2x1024 .f32) (p : Fin 256) (o : Fin 1024) :
    broadcastTo S256x1024 (extractStridedSlice S1x1024 ![0, 0] v slices_S2x1024_o0_0_S1x1024) broadcasts_S1x1024_S256x1024 (ix2 p o)
      = v (ix2 (0 : Fin 2) o) := by
  refine (broadcastTo_apply _ broadcasts_S1x1024_S256x1024 (ix2 p o) (ix2 (0 : Fin 1) o) fun a => ?_).trans ?_
  · match a with
    | ⟨0, _⟩ => show 0 = if (1 : Nat) = 1 then 0 else p.val; rw [if_pos rfl]
    | ⟨1, _⟩ => show o.val = if (1024 : Nat) = 1 then 0 else o.val; rw [if_neg (by decide)]
  · refine extractStridedSlice_apply ![0, 0] v slices_S2x1024_o0_0_S1x1024 (ix2 (0 : Fin 1) o) (ix2 (0 : Fin 2) o) fun a => ?_
    match a with
    | ⟨0, _⟩ => show 0 = 0 + 0; rfl
    | ⟨1, _⟩ => show o.val = 0 + o.val; omega

/-- Row 1 of a [2, 1024] array, repeated along the rows, at `(p, o)`. -/
theorem row1_apply (v : Vec Ideal S2x1024 .f32) (p : Fin 256) (o : Fin 1024) :
    broadcastTo S256x1024 (extractStridedSlice S1x1024 ![1, 0] v slices_S2x1024_o1_0_S1x1024) broadcasts_S1x1024_S256x1024 (ix2 p o)
      = v (ix2 (1 : Fin 2) o) := by
  refine (broadcastTo_apply _ broadcasts_S1x1024_S256x1024 (ix2 p o) (ix2 (0 : Fin 1) o) fun a => ?_).trans ?_
  · match a with
    | ⟨0, _⟩ => show 0 = if (1 : Nat) = 1 then 0 else p.val; rw [if_pos rfl]
    | ⟨1, _⟩ => show o.val = if (1024 : Nat) = 1 then 0 else o.val; rw [if_neg (by decide)]
  · refine extractStridedSlice_apply ![1, 0] v slices_S2x1024_o1_0_S1x1024 (ix2 (0 : Fin 1) o) (ix2 (1 : Fin 2) o) fun a => ?_
    match a with
    | ⟨0, _⟩ => show 1 = 1 + 0; rfl
    | ⟨1, _⟩ => show o.val = 0 + o.val; omega

/-- `z · g + b` of three tiles, stored as a block, at an entry where the scale and the shift are known. -/
theorem affine_block_apply (z g b : FVec Ideal S256x1024 .f32) (p : Fin 256) (o : Fin 1024) (gi bi : EReal)
    (hg : g (ix2 p o) = gi) (hb : b (ix2 p o) = bi) :
    shapeCast S1x256x1024 (truncf .bf16 (addf (mulf z g) b) bitsLt_bf16_f32) shapeCasts_S256x1024_S1x256x1024 (ix3 0 p o)
      = z (ix2 p o) * gi + bi := by
  subst hg hb
  exact (block_of_tile_apply _ p o).trans rfl

/-- The query block at `(0, p, o)`. -/
theorem pay1_apply (v30 : FVec Ideal S256x1024 .f32) (v31 v32 : Vec Ideal S2x1024 .f32) (p : Fin 256) (o : Fin 1024) :
    k0_pay1 (F := Ideal) v30 v31 v32 (ix3 0 p o) = v30 (ix2 p o) * v31 (ix2 (0 : Fin 2) o) + v32 (ix2 (0 : Fin 2) o) := by
  unfold k0_pay1
  exact affine_block_apply v30 _ _ p o _ _ (row0_apply v31 p o) (row0_apply v32 p o)

/-- The key block at `(0, p, o)`. -/
theorem pay2_apply (v30 : FVec Ideal S256x1024 .f32) (v31 v32 : Vec Ideal S2x1024 .f32) (p : Fin 256) (o : Fin 1024) :
    k0_pay2 (F := Ideal) v30 v31 v32 (ix3 0 p o) = v30 (ix2 p o) * v31 (ix2 (1 : Fin 2) o) + v32 (ix2 (1 : Fin 2) o) := by
  unfold k0_pay2
  exact affine_block_apply v30 _ _ p o _ _ (row1_apply v31 p o) (row1_apply v32 p o)

end Cert.KernelIdeal.Val0

end
-- ==== Proof.K0Entries.lean ====
/-
  One entry of each of the four blocks the first stage writes, as the specification's function of the ARRAYS. The body
  sees a block of x (rows of one batch) and blocks that are the whole weight, bias, scale and shift arrays; when row `r`
  of the x block is row `row` of batch `b` of the x array, entry `(0, r, o)` of the value block is
  `proj x W_h b_h b row (lo o)`, of the gate block the same at `hi o`, of the query block
  `qk (proj x W_qk b_qk) γ β 0 b row o` and of the key block the same with row 1 of the scale and shift.
-/
import proofs.«182150_j66503273612026_2_alg».proof.Proof.K0QK

noncomputable section

open scoped BigOperators

namespace Cert.KernelIdeal.Val0

open Cert.KernelIdeal Cert.KernelIdeal.Gen Idealize.ShloMosaic Idealize.ShloMosaic.ValueIdx

/-- The value block's entry. -/
theorem value_entry (x0 : Vec Ideal S1x256x1024 .f32) (x1 : Vec Ideal S1024x2048 .bf16) (x2 : Vec Ideal S1x2048 .f32)
    (A0 : S8x2048x1024.Idx → EReal) (A1 : S1024x2048.Idx → EReal) (A2 : S1x2048.Idx → EReal)
    (b : Fin 8) (row : Fin 2048) (r : Fin 256) (o : Fin 1024)
    (h0 : ∀ d : Fin 1024, x0 (ix3 0 r d) = A0 (ix3 b row d))
    (h1 : ∀ (d : Fin 1024) (e : Fin 2048), x1 (ix2 d e) = A1 (ix2 d e)) (h2 : ∀ e : Fin 2048, x2 (ix2 0 e) = A2 (ix2 0 e)) :
    k0_pay5 (F := Ideal) x0 x1 x2 (ix3 0 r o)
      = Cert.Spec.proj (fun b t d => A0 (ix3 b t d)) (fun d e => A1 (ix2 d e)) (fun e => A2 (ix2 0 e)) b row (Cert.Spec.lo o) := by
  refine (pay5_apply x0 x1 x2 r o).trans ?_
  unfold Cert.Spec.proj
  simp only [h0, h1, h2]

/-- The gate block's entry. -/
theorem gate_entry (x0 : Vec Ideal S1x256x1024 .f32) (x1 : Vec Ideal S1024x2048 .bf16) (x2 : Vec Ideal S1x2048 .f32)
    (A0 : S8x2048x1024.Idx → EReal) (A1 : S1024x2048.Idx → EReal) (A2 : S1x2048.Idx → EReal)
    (b : Fin 8) (row : Fin 2048) (r : Fin 256) (o : Fin 1024)
    (h0 : ∀ d : Fin 1024, x0 (ix3 0 r d) = A0 (ix3 b row d))
    (h1 : ∀ (d : Fin 1024) (e : Fin 2048), x1 (ix2 d e) = A1 (ix2 d e)) (h2 : ∀ e : Fin 2048, x2 (ix2 0 e) = A2 (ix2 0 e)) :
    k0_pay6 (F := Ideal) x0 x1 x2 (ix3 0 r o)
      = Cert.Spec.proj (fun b t d => A0 (ix3 b t d)) (fun d e => A1 (ix2 d e)) (fun e => A2 (ix2 0 e)) b row (Cert.Spec.hi o) := by
  refine (pay6_apply x0 x1 x2 r o).trans ?_
  unfold Cert.Spec.proj
  simp only [h0, h1, h2]

/-- The query block's entry. -/
theorem query_entry (x0 : Vec Ideal S1x256x1024 .f32) (x3 : Vec Ideal S1024x1024 .bf16) (x4 : Vec Ideal S1x1024 .f32)
    (x5 x6 : Vec Ideal S2x1024 .f32)
    (A0 : S8x2048x1024.Idx → EReal) (A3 : S1024x1024.Idx → EReal) (A4 : S1x1024.Idx → EReal) (A5 A6 : S2x1024.Idx → EReal)
    (b : Fin 8) (row : Fin 2048) (r : Fin 256) (o : Fin 1024)
    (h0 : ∀ d : Fin 1024, x0 (ix3 0 r d) = A0 (ix3 b row d))
    (h3 : ∀ (d o : Fin 1024), x3 (ix2 d o) = A3 (ix2 d o)) (h4 : ∀ o : Fin 1024, x4 (ix2 0 o) = A4 (ix2 0 o))
    (h5 : ∀ (k : Fin 2) (o : Fin 1024), x5 (ix2 k o) = A5 (ix2 k o)) (h6 : ∀ (k : Fin 2) (o : Fin 1024), x6 (ix2 k o) = A6 (ix2 k o)) :
    k0_pay1 (F := Ideal) (k0_pay7 (F := Ideal) x0 x3 x4) x5 x6 (ix3 0 r o)
      = Cert.Spec.qk (Cert.Spec.proj (fun b t d => A0 (ix3 b t d)) (fun d o => A3 (ix2 d o)) (fun o => A4 (ix2 0 o)))
          (fun k o => A5 (ix2 k o)) (fun k o => A6 (ix2 k o)) 0 b row o := by
  refine (pay1_apply _ x5 x6 r o).trans ?_
  rw [pay7_apply]
  unfold Cert.Spec.qk Cert.Spec.proj
  simp only [h0, h3, h4, h5, h6]

/-- The key block's entry. -/
theorem key_entry (x0 : Vec Ideal S1x256x1024 .f32) (x3 : Vec Ideal S1024x1024 .bf16) (x4 : Vec Ideal S1x1024 .f32)
    (x5 x6 : Vec Ideal S2x1024 .f32)
    (A0 : S8x2048x1024.Idx → EReal) (A3 : S1024x1024.Idx → EReal) (A4 : S1x1024.Idx → EReal) (A5 A6 : S2x1024.Idx → EReal)
    (b : Fin 8) (row : Fin 2048) (r : Fin 256) (o : Fin 1024)
    (h0 : ∀ d : Fin 1024, x0 (ix3 0 r d) = A0 (ix3 b row d))
    (h3 : ∀ (d o : Fin 1024), x3 (ix2 d o) = A3 (ix2 d o)) (h4 : ∀ o : Fin 1024, x4 (ix2 0 o) = A4 (ix2 0 o))
    (h5 : ∀ (k : Fin 2) (o : Fin 1024), x5 (ix2 k o) = A5 (ix2 k o)) (h6 : ∀ (k : Fin 2) (o : Fin 1024), x6 (ix2 k o) = A6 (ix2 k o)) :
    k0_pay2 (F := Ideal) (k0_pay7 (F := Ideal) x0 x3 x4) x5 x6 (ix3 0 r o)
      = Cert.Spec.qk (Cert.Spec.proj (fun b t d => A0 (ix3 b t d)) (fun d o => A3 (ix2 d o)) (fun o => A4 (ix2 0 o)))
          (fun k o => A5 (ix2 k o)) (fun k o => A6 (ix2 k o)) 1 b row o := by
  refine (pay2_apply _ x5 x6 r o).trans ?_
  rw [pay7_apply]
  unfold Cert.Spec.qk Cert.Spec.proj
  simp only [h0, h3, h4, h5, h6]

end Cert.KernelIdeal.Val0

end
-- ==== Proof.K0Reads.lean ====
/-
  Where each block of the first stage sits in its array.

  Point (b, tile) of the 8 × 8 grid reads rows tile·256 … tile·256 + 255 of batch b of x and the whole of the two
  weight matrices, the two bias rows, the scale and the shift; it writes rows tile·256 … tile·256 + 255 of batch b of
  the value, gate, query and key arrays, all 1024 columns. A block's coordinate on an axis is always the block index
  times the block's extent plus the coordinate inside the block; the block indices are the printed index maps, read
  once over the 64 points.
-/
import proofs.«182150_j66503273612026_2_alg».proof.Proof.KernelIdealFrameP
import Idealize.ShloMosaic.Lib.Pipeline.Value
import Idealize.ShloMosaic.Lib.ValueIdx

noncomputable section

namespace Cert.KernelIdeal.Val0

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices at point t = (b, tile): x and the four outputs at (b, tile, 0); the weights, biases, scale and
    shift at the origin. -/
theorem idx_facts : ∀ t : Fin cfg0.N,
    (win0_0.index t (0 : Fin 3) = (grid0.coords t 0).val ∧ win0_0.index t (1 : Fin 3) = (grid0.coords t 1).val ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = (grid0.coords t 0).val ∧ win0_7.index t (1 : Fin 3) = (grid0.coords t 1).val ∧ win0_7.index t (2 : Fin 3) = 0)
    ∧ (win0_8.index t (0 : Fin 3) = (grid0.coords t 0).val ∧ win0_8.index t (1 : Fin 3) = (grid0.coords t 1).val ∧ win0_8.index t (2 : Fin 3) = 0)
    ∧ (win0_9.index t (0 : Fin 3) = (grid0.coords t 0).val ∧ win0_9.index t (1 : Fin 3) = (grid0.coords t 1).val ∧ win0_9.index t (2 : Fin 3) = 0)
    ∧ (win0_10.index t (0 : Fin 3) = (grid0.coords t 0).val ∧ win0_10.index t (1 : Fin 3) = (grid0.coords t 1).val ∧ win0_10.index t (2 : Fin 3) = 0) :=
  (by decide +kernel : ∀ t : Fin grid0.N, _)

/-- The x block's row r is the array's row tile·256 + r of batch b. -/
theorem x_block_apply (c : Dev nD) (t : Fin cfg0.N) (r : Fin 256) (d : Fin 1024) (b : Fin 8) (row : Fin 2048)
    (hb : b.val = (grid0.coords t 0).val) (hrow : row.val = (grid0.coords t 1).val * 256 + r.val) :
    (iblk0 V c 0 t : Vec Ideal S1x256x1024 .f32) (ix3 0 r d) = (V c main_arg0 : S8x2048x1024.Idx → Elt Ideal .f32) (ix3 b row d) := by
  obtain ⟨⟨e0, e1, e2⟩, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 3) * 1 + 1 * 0 = b.val; omega
  | ⟨1, _⟩ => show win0_0.index t (1 : Fin 3) * 256 + 1 * r.val = row.val; omega
  | ⟨2, _⟩ => show win0_0.index t (2 : Fin 3) * 1024 + 1 * d.val = d.val; omega

/-- The hidden weight block is the whole matrix. -/
theorem wh_block_apply (c : Dev nD) (t : Fin cfg0.N) (d : Fin 1024) (e : Fin 2048) :
    (iblk0 V c 1 t : Vec Ideal S1024x2048 .bf16) (ix2 d e) = (V c main_v3 : S1024x2048.Idx → Elt Ideal .bf16) (ix2 d e) := by
  obtain ⟨-, ⟨e0, e1⟩, -⟩ := idx_facts t
  unfold iblk0
  rw [View.read_apply]
  show V c main_v3 _ = V c main_v3 _
  refine congrArg (V c main_v3) (funext fun a => Fin.ext ?_)
  match a with
  | ⟨0, _⟩ => show win0_1.index t (0 : Fin 2) * 1024 + 1 * d.val = d.val; omega
  | ⟨1, _⟩ => show win0_1.index t (1 : Fin 2) * 2048 + 1 * e.val = e.val; omega

/-- The hidden bias block is the whole row. -/
theorem bh_block_apply (c : Dev nD) (t : Fin cfg0.N) (z : Fin 1) (e : Fin 2048) :
    (iblk0 V c 2 t : Vec Ideal S1x2048 .f32) (ix2 z e) = (V c main_v0 : S1x2048.Idx → Elt Ideal .f32) (ix2 z e) := by
  obtain ⟨-, -, ⟨e0, e1⟩, -⟩ := idx_facts t
  unfold iblk0
  rw [View.read_apply]
  show V c main_v0 _ = V c main_v0 _
  refine congrArg (V c main_v0) (funext fun a => Fin.ext ?_)
  match a with
  | ⟨0, _⟩ => show win0_2.index t (0 : Fin 2) * 1 + 1 * z.val = z.val; omega
  | ⟨1, _⟩ => show win0_2.index t (1 : Fin 2) * 2048 + 1 * e.val = e.val; omega

/-- The query/key weight block is the whole matrix. -/
theorem wqk_block_apply (c : Dev nD) (t : Fin cfg0.N) (d : Fin 1024) (o : Fin 1024) :
    (iblk0 V c 3 t : Vec Ideal S1024x1024 .bf16) (ix2 d o) = (V c main_v4 : S1024x1024.Idx → Elt Ideal .bf16) (ix2 d o) := by
  obtain ⟨-, -, -, ⟨e0, e1⟩, -⟩ := idx_facts t
  unfold iblk0
  rw [View.read_apply]
  show V c main_v4 _ = V c main_v4 _
  refine congrArg (V c main_v4) (funext fun a => Fin.ext ?_)
  match a with
  | ⟨0, _⟩ => show win0_3.index t (0 : Fin 2) * 1024 + 1 * d.val = d.val; omega
  | ⟨1, _⟩ => show win0_3.index t (1 : Fin 2) * 1024 + 1 * o.val = o.val; omega

/-- The query/key bias block is the whole row. -/
theorem bqk_block_apply (c : Dev nD) (t : Fin cfg0.N) (z : Fin 1) (o : Fin 1024) :
    (iblk0 V c 4 t : Vec Ideal S1x1024 .f32) (ix2 z o) = (V c main_v1 : S1x1024.Idx → Elt Ideal .f32) (ix2 z o) := by
  obtain ⟨-, -, -, -, ⟨e0, e1⟩, -⟩ := idx_facts t
  unfold iblk0
  rw [View.read_apply]
  show V c main_v1 _ = V c main_v1 _
  refine congrArg (V c main_v1) (funext fun a => Fin.ext ?_)
  match a with
  | ⟨0, _⟩ => show win0_4.index t (0 : Fin 2) * 1 + 1 * z.val = z.val; omega
  | ⟨1, _⟩ => show win0_4.index t (1 : Fin 2) * 1024 + 1 * o.val = o.val; omega

/-- The scale block is the whole array. -/
theorem gamma_block_apply (c : Dev nD) (t : Fin cfg0.N) (k : Fin 2) (o : Fin 1024) :
    (iblk0 V c 5 t : Vec Ideal S2x1024 .f32) (ix2 k o) = (V c main_arg5 : S2x1024.Idx → Elt Ideal .f32) (ix2 k o) := by
  obtain ⟨-, -, -, -, -, ⟨e0, e1⟩, -⟩ := idx_facts t
  unfold iblk0
  rw [View.read_apply]
  show V c main_arg5 _ = V c main_arg5 _
  refine congrArg (V c main_arg5) (funext fun a => Fin.ext ?_)
  match a with
  | ⟨0, _⟩ => show win0_5.index t (0 : Fin 2) * 2 + 1 * k.val = k.val; omega
  | ⟨1, _⟩ => show win0_5.index t (1 : Fin 2) * 1024 + 1 * o.val = o.val; omega

/-- The shift block is the whole array. -/
theorem beta_block_apply (c : Dev nD) (t : Fin cfg0.N) (k : Fin 2) (o : Fin 1024) :
    (iblk0 V c 6 t : Vec Ideal S2x1024 .f32) (ix2 k o) = (V c main_arg6 : S2x1024.Idx → Elt Ideal .f32) (ix2 k o) := by
  obtain ⟨-, -, -, -, -, -, ⟨e0, e1⟩, -⟩ := idx_facts t
  unfold iblk0
  rw [View.read_apply]
  show V c main_arg6 _ = V c main_arg6 _
  refine congrArg (V c main_arg6) (funext fun a => Fin.ext ?_)
  match a with
  | ⟨0, _⟩ => show win0_6.index t (0 : Fin 2) * 2 + 1 * k.val = k.val; omega
  | ⟨1, _⟩ => show win0_6.index t (1 : Fin 2) * 1024 + 1 * o.val = o.val; omega

/-- Entry `(0, r, o)` of output block 7 sits at `(b, tile·256 + r, o)` of its array. -/
theorem out7_block_emb (t : Fin cfg0.N) (r : Fin 256) (o : Fin 1024) (b : Fin 8) (row : Fin 2048)
    (hb : b.val = (grid0.coords t 0).val) (hrow : row.val = (grid0.coords t 1).val * 256 + r.val) :
    (((cfg0.win 7).blk t).view.emb (ix3 0 r o) : S8x2048x1024.Idx) = ix3 b row o := by
  obtain ⟨-, -, -, -, -, -, -, ⟨e0, e1, e2⟩, -⟩ := idx_facts t
  refine funext fun a => Fin.ext ?_
  match a with
  | ⟨0, _⟩ => show win0_7.index t (0 : Fin 3) * 1 + 1 * 0 = b.val; omega
  | ⟨1, _⟩ => show win0_7.index t (1 : Fin 3) * 256 + 1 * r.val = row.val; omega
  | ⟨2, _⟩ => show win0_7.index t (2 : Fin 3) * 1024 + 1 * o.val = o.val; omega

/-- Entry `(0, r, o)` of output block 8 sits at `(b, tile·256 + r, o)` of its array. -/
theorem out8_block_emb (t : Fin cfg0.N) (r : Fin 256) (o : Fin 1024) (b : Fin 8) (row : Fin 2048)
    (hb : b.val = (grid0.coords t 0).val) (hrow : row.val = (grid0.coords t 1).val * 256 + r.val) :
    (((cfg0.win 8).blk t).view.emb (ix3 0 r o) : S8x2048x1024.Idx) = ix3 b row o := by
  obtain ⟨-, -, -, -, -, -, -, -, ⟨e0, e1, e2⟩, -⟩ := idx_facts t
  refine funext fun a => Fin.ext ?_
  match a with
  | ⟨0, _⟩ => show win0_8.index t (0 : Fin 3) * 1 + 1 * 0 = b.val; omega
  | ⟨1, _⟩ => show win0_8.index t (1 : Fin 3) * 256 + 1 * r.val = row.val; omega
  | ⟨2, _⟩ => show win0_8.index t (2 : Fin 3) * 1024 + 1 * o.val = o.val; omega

/-- Entry `(0, r, o)` of output block 9 sits at `(b, tile·256 + r, o)` of its array. -/
theorem out9_block_emb (t : Fin cfg0.N) (r : Fin 256) (o : Fin 1024) (b : Fin 8) (row : Fin 2048)
    (hb : b.val = (grid0.coords t 0).val) (hrow : row.val = (grid0.coords t 1).val * 256 + r.val) :
    (((cfg0.win 9).blk t).view.emb (ix3 0 r o) : S8x2048x1024.Idx) = ix3 b row o := by
  obtain ⟨-, -, -, -, -, -, -, -, -, ⟨e0, e1, e2⟩, -⟩ := idx_facts t
  refine funext fun a => Fin.ext ?_
  match a with
  | ⟨0, _⟩ => show win0_9.index t (0 : Fin 3) * 1 + 1 * 0 = b.val; omega
  | ⟨1, _⟩ => show win0_9.index t (1 : Fin 3) * 256 + 1 * r.val = row.val; omega
  | ⟨2, _⟩ => show win0_9.index t (2 : Fin 3) * 1024 + 1 * o.val = o.val; omega

/-- Entry `(0, r, o)` of output block 10 sits at `(b, tile·256 + r, o)` of its array. -/
theorem out10_block_emb (t : Fin cfg0.N) (r : Fin 256) (o : Fin 1024) (b : Fin 8) (row : Fin 2048)
    (hb : b.val = (grid0.coords t 0).val) (hrow : row.val = (grid0.coords t 1).val * 256 + r.val) :
    (((cfg0.win 10).blk t).view.emb (ix3 0 r o) : S8x2048x1024.Idx) = ix3 b row o := by
  obtain ⟨-, -, -, -, -, -, -, -, -, -, ⟨e0, e1, e2⟩⟩ := idx_facts t
  refine funext fun a => Fin.ext ?_
  match a with
  | ⟨0, _⟩ => show win0_10.index t (0 : Fin 3) * 1 + 1 * 0 = b.val; omega
  | ⟨1, _⟩ => show win0_10.index t (1 : Fin 3) * 256 + 1 * r.val = row.val; omega
  | ⟨2, _⟩ => show win0_10.index t (2 : Fin 3) * 1024 + 1 * o.val = o.val; omega

end Cert.KernelIdeal.Val0

end
-- ==== Proof.K0Block.lean ====
/-
  What one grid point writes back is its block of ONE function of the region's arrays, for each of the four outputs.

  Point (b, tile) leaves in each output's buffer the payload of the blocks it loaded (one store covering the buffer,
  every load a whole block). Entry (0, r, o) of that buffer goes to (b, tile·256 + r, o) of the output array; and, each
  loaded block entry being the array entry under it, the stored value is the specification's projection at batch b,
  token tile·256 + r: the lower or upper half of `silu (x · W_h + b_h)` for the value and the gate, and
  `silu (x · W_qk + b_qk) · γ_k + β_k` for the query (k = 0) and the key (k = 1).
-/
import proofs.«182150_j66503273612026_2_alg».proof.Proof.K0Entries
import proofs.«182150_j66503273612026_2_alg».proof.Proof.K0Reads

noncomputable section

open scoped BigOperators

namespace Cert.KernelIdeal.Val0

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

/-! The one store covers the buffer and every load reads a whole block: what a point leaves is the payload of its blocks. -/

theorem out0_7_eq {F : FTy → Type} [FloatOps F] (x0 : Vec F S1x256x1024 .f32) (x1 : Vec F S1024x2048 .bf16) (x2 : Vec F S1x2048 .f32)
    (x3 : Vec F S1024x1024 .bf16) (x4 : Vec F S1x1024 .f32) (x5 x6 : Vec F S2x1024 .f32) :
    out0_7 (F := F) x0 x1 x2 x3 x4 x5 x6 = k0_pay5 x0 x1 x2 := by
  unfold out0_7
  rw [View.canon_unit_zero hz3]
  simp only [View.ld_unit_zero (S := S1x256x1024) hz3, View.ld_unit_zero (S := S1024x2048) hz2, View.ld_unit_zero (S := S1x2048) hz2]

theorem out0_8_eq {F : FTy → Type} [FloatOps F] (x0 : Vec F S1x256x1024 .f32) (x1 : Vec F S1024x2048 .bf16) (x2 : Vec F S1x2048 .f32)
    (x3 : Vec F S1024x1024 .bf16) (x4 : Vec F S1x1024 .f32) (x5 x6 : Vec F S2x1024 .f32) :
    out0_8 (F := F) x0 x1 x2 x3 x4 x5 x6 = k0_pay6 x0 x1 x2 := by
  unfold out0_8
  rw [View.canon_unit_zero hz3]
  simp only [View.ld_unit_zero (S := S1x256x1024) hz3, View.ld_unit_zero (S := S1024x2048) hz2, View.ld_unit_zero (S := S1x2048) hz2]

theorem out0_9_eq {F : FTy → Type} [FloatOps F] (x0 : Vec F S1x256x1024 .f32) (x1 : Vec F S1024x2048 .bf16) (x2 : Vec F S1x2048 .f32)
    (x3 : Vec F S1024x1024 .bf16) (x4 : Vec F S1x1024 .f32) (x5 x6 : Vec F S2x1024 .f32) :
    out0_9 (F := F) x0 x1 x2 x3 x4 x5 x6 = k0_pay1 (k0_pay7 x0 x3 x4) x5 x6 := by
  unfold out0_9
  rw [View.canon_unit_zero hz3]
  simp only [View.ld_unit_zero (S := S1x256x1024) hz3, View.ld_unit_zero (S := S1024x1024) hz2, View.ld_unit_zero (S := S1x1024) hz2, View.ld_unit_zero (S := S2x1024) hz2]

theorem out0_10_eq {F : FTy → Type} [FloatOps F] (x0 : Vec F S1x256x1024 .f32) (x1 : Vec F S1024x2048 .bf16) (x2 : Vec F S1x2048 .f32)
    (x3 : Vec F S1024x1024 .bf16) (x4 : Vec F S1x1024 .f32) (x5 x6 : Vec F S2x1024 .f32) :
    out0_10 (F := F) x0 x1 x2 x3 x4 x5 x6 = k0_pay2 (k0_pay7 x0 x3 x4) x5 x6 := by
  unfold out0_10
  rw [View.canon_unit_zero hz3]
  simp only [View.ld_unit_zero (S := S1x256x1024) hz3, View.ld_unit_zero (S := S1024x1024) hz2, View.ld_unit_zero (S := S1x1024) hz2, View.ld_unit_zero (S := S2x1024) hz2]

variable (V : (c : Dev nD) → (b : Ref sig .tc) → Buf (Elt Ideal) ((c : Thread nD τ).loc b))

/-- The value array as one function of the arrays the region finds. -/
abbrev valueFn (c : Dev nD) : S8x2048x1024.Idx → Elt Ideal .bf16 := fun j =>
  Cert.Spec.proj (fun b t d => V c main_arg0 (ix3 b t d)) (fun d e => V c main_v3 (ix2 d e)) (fun e => V c main_v0 (ix2 0 e)) (j 0) (j 1) (Cert.Spec.lo (j 2))

/-- The gate array as one function of the arrays the region finds. -/
abbrev gateFn (c : Dev nD) : S8x2048x1024.Idx → Elt Ideal .bf16 := fun j =>
  Cert.Spec.proj (fun b t d => V c main_arg0 (ix3 b t d)) (fun d e => V c main_v3 (ix2 d e)) (fun e => V c main_v0 (ix2 0 e)) (j 0) (j 1) (Cert.Spec.hi (j 2))

/-- The query array as one function of the arrays the region finds. -/
abbrev queryFn (c : Dev nD) : S8x2048x1024.Idx → Elt Ideal .bf16 := fun j =>
  Cert.Spec.qk (Cert.Spec.proj (fun b t d => V c main_arg0 (ix3 b t d)) (fun d o => V c main_v4 (ix2 d o)) (fun o => V c main_v1 (ix2 0 o)))
    (fun r o => V c main_arg5 (ix2 r o)) (fun r o => V c main_arg6 (ix2 r o)) 0 (j 0) (j 1) (j 2)

/-- The key array as one function of the arrays the region finds. -/
abbrev keyFn (c : Dev nD) : S8x2048x1024.Idx → Elt Ideal .bf16 := fun j =>
  Cert.Spec.qk (Cert.Spec.proj (fun b t d => V c main_arg0 (ix3 b t d)) (fun d o => V c main_v4 (ix2 d o)) (fun o => V c main_v1 (ix2 0 o)))
    (fun r o => V c main_arg5 (ix2 r o)) (fun r o => V c main_arg6 (ix2 r o)) 1 (j 0) (j 1) (j 2)

/-- WHAT POINT t WRITES BACK to output window 7 is block t of `valueFn`. -/
theorem flushed7_eq (c : Dev nD) (t : Fin cfg0.N) :
    (dat0 V c).flushed 7 t = ((cfg0.win 7).blk t).view.read (Elt Ideal) (valueFn V c) := by
  show (cfg0.win 7).cut (grid0.coords t) ((dat0 V c).after 7 t) = _
  rw [after0_7, out0_7_eq (iblk0 V c 0 t) (iblk0 V c 1 t) (iblk0 V c 2 t) (iblk0 V c 3 t) (iblk0 V c 4 t) (iblk0 V c 5 t) (iblk0 V c 6 t)]
  funext j
  obtain ⟨u, r, o, rfl⟩ : ∃ (u : Fin 1) (r : Fin 256) (o : Fin 1024), j = ix3 u r o := ⟨j 0, j 1, j 2, eq_ix3 j⟩
  obtain rfl : u = 0 := Fin.ext (by omega)
  have hq : (grid0.coords t 1).val < 8 := (grid0.coords t 1).isLt
  have hbt : (grid0.coords t 0).val < 8 := (grid0.coords t 0).isLt
  show k0_pay5 (iblk0 V c 0 t) (iblk0 V c 1 t) (iblk0 V c 2 t) (ix3 0 r o)
    = valueFn V c (((cfg0.win 7).blk t).view.emb (ix3 0 r o))
  rw [out7_block_emb t r o ⟨(grid0.coords t 0).val, hbt⟩ ⟨(grid0.coords t 1).val * 256 + r.val, by omega⟩ rfl rfl]
  exact value_entry (iblk0 V c 0 t) (iblk0 V c 1 t) (iblk0 V c 2 t) (V c main_arg0) (V c main_v3) (V c main_v0)
    ⟨(grid0.coords t 0).val, hbt⟩ ⟨(grid0.coords t 1).val * 256 + r.val, by omega⟩ r o
    (fun d => x_block_apply V c t r d _ _ rfl rfl) (fun d e => wh_block_apply V c t d e) (fun e => bh_block_apply V c t 0 e)

/-- WHAT POINT t WRITES BACK to output window 8 is block t of `gateFn`. -/
theorem flushed8_eq (c : Dev nD) (t : Fin cfg0.N) :
    (dat0 V c).flushed 8 t = ((cfg0.win 8).blk t).view.read (Elt Ideal) (gateFn V c) := by
  show (cfg0.win 8).cut (grid0.coords t) ((dat0 V c).after 8 t) = _
  rw [after0_8, out0_8_eq (iblk0 V c 0 t) (iblk0 V c 1 t) (iblk0 V c 2 t) (iblk0 V c 3 t) (iblk0 V c 4 t) (iblk0 V c 5 t) (iblk0 V c 6 t)]
  funext j
  obtain ⟨u, r, o, rfl⟩ : ∃ (u : Fin 1) (r : Fin 256) (o : Fin 1024), j = ix3 u r o := ⟨j 0, j 1, j 2, eq_ix3 j⟩
  obtain rfl : u = 0 := Fin.ext (by omega)
  have hq : (grid0.coords t 1).val < 8 := (grid0.coords t 1).isLt
  have hbt : (grid0.coords t 0).val < 8 := (grid0.coords t 0).isLt
  show k0_pay6 (iblk0 V c 0 t) (iblk0 V c 1 t) (iblk0 V c 2 t) (ix3 0 r o)
    = gateFn V c (((cfg0.win 8).blk t).view.emb (ix3 0 r o))
  rw [out8_block_emb t r o ⟨(grid0.coords t 0).val, hbt⟩ ⟨(grid0.coords t 1).val * 256 + r.val, by omega⟩ rfl rfl]
  exact gate_entry (iblk0 V c 0 t) (iblk0 V c 1 t) (iblk0 V c 2 t) (V c main_arg0) (V c main_v3) (V c main_v0)
    ⟨(grid0.coords t 0).val, hbt⟩ ⟨(grid0.coords t 1).val * 256 + r.val, by omega⟩ r o
    (fun d => x_block_apply V c t r d _ _ rfl rfl) (fun d e => wh_block_apply V c t d e) (fun e => bh_block_apply V c t 0 e)

/-- WHAT POINT t WRITES BACK to output window 9 is block t of `queryFn`. -/
theorem flushed9_eq (c : Dev nD) (t : Fin cfg0.N) :
    (dat0 V c).flushed 9 t = ((cfg0.win 9).blk t).view.read (Elt Ideal) (queryFn V c) := by
  show (cfg0.win 9).cut (grid0.coords t) ((dat0 V c).after 9 t) = _
  rw [after0_9, out0_9_eq (iblk0 V c 0 t) (iblk0 V c 1 t) (iblk0 V c 2 t) (iblk0 V c 3 t) (iblk0 V c 4 t) (iblk0 V c 5 t) (iblk0 V c 6 t)]
  funext j
  obtain ⟨u, r, o, rfl⟩ : ∃ (u : Fin 1) (r : Fin 256) (o : Fin 1024), j = ix3 u r o := ⟨j 0, j 1, j 2, eq_ix3 j⟩
  obtain rfl : u = 0 := Fin.ext (by omega)
  have hq : (grid0.coords t 1).val < 8 := (grid0.coords t 1).isLt
  have hbt : (grid0.coords t 0).val < 8 := (grid0.coords t 0).isLt
  show k0_pay1 (k0_pay7 (iblk0 V c 0 t) (iblk0 V c 3 t) (iblk0 V c 4 t)) (iblk0 V c 5 t) (iblk0 V c 6 t) (ix3 0 r o)
    = queryFn V c (((cfg0.win 9).blk t).view.emb (ix3 0 r o))
  rw [out9_block_emb t r o ⟨(grid0.coords t 0).val, hbt⟩ ⟨(grid0.coords t 1).val * 256 + r.val, by omega⟩ rfl rfl]
  exact query_entry (iblk0 V c 0 t) (iblk0 V c 3 t) (iblk0 V c 4 t) (iblk0 V c 5 t) (iblk0 V c 6 t)
    (V c main_arg0) (V c main_v4) (V c main_v1) (V c main_arg5) (V c main_arg6)
    ⟨(grid0.coords t 0).val, hbt⟩ ⟨(grid0.coords t 1).val * 256 + r.val, by omega⟩ r o
    (fun d => x_block_apply V c t r d _ _ rfl rfl) (fun d o => wqk_block_apply V c t d o) (fun o => bqk_block_apply V c t 0 o)
    (fun k o => gamma_block_apply V c t k o) (fun k o => beta_block_apply V c t k o)

/-- WHAT POINT t WRITES BACK to output window 10 is block t of `keyFn`. -/
theorem flushed10_eq (c : Dev nD) (t : Fin cfg0.N) :
    (dat0 V c).flushed 10 t = ((cfg0.win 10).blk t).view.read (Elt Ideal) (keyFn V c) := by
  show (cfg0.win 10).cut (grid0.coords t) ((dat0 V c).after 10 t) = _
  rw [after0_10, out0_10_eq (iblk0 V c 0 t) (iblk0 V c 1 t) (iblk0 V c 2 t) (iblk0 V c 3 t) (iblk0 V c 4 t) (iblk0 V c 5 t) (iblk0 V c 6 t)]
  funext j
  obtain ⟨u, r, o, rfl⟩ : ∃ (u : Fin 1) (r : Fin 256) (o : Fin 1024), j = ix3 u r o := ⟨j 0, j 1, j 2, eq_ix3 j⟩
  obtain rfl : u = 0 := Fin.ext (by omega)
  have hq : (grid0.coords t 1).val < 8 := (grid0.coords t 1).isLt
  have hbt : (grid0.coords t 0).val < 8 := (grid0.coords t 0).isLt
  show k0_pay2 (k0_pay7 (iblk0 V c 0 t) (iblk0 V c 3 t) (iblk0 V c 4 t)) (iblk0 V c 5 t) (iblk0 V c 6 t) (ix3 0 r o)
    = keyFn V c (((cfg0.win 10).blk t).view.emb (ix3 0 r o))
  rw [out10_block_emb t r o ⟨(grid0.coords t 0).val, hbt⟩ ⟨(grid0.coords t 1).val * 256 + r.val, by omega⟩ rfl rfl]
  exact key_entry (iblk0 V c 0 t) (iblk0 V c 3 t) (iblk0 V c 4 t) (iblk0 V c 5 t) (iblk0 V c 6 t)
    (V c main_arg0) (V c main_v4) (V c main_v1) (V c main_arg5) (V c main_arg6)
    ⟨(grid0.coords t 0).val, hbt⟩ ⟨(grid0.coords t 1).val * 256 + r.val, by omega⟩ r o
    (fun d => x_block_apply V c t r d _ _ rfl rfl) (fun d o => wqk_block_apply V c t d o) (fun o => bqk_block_apply V c t 0 o)
    (fun k o => gamma_block_apply V c t k o) (fun k o => beta_block_apply V c t k o)

end Cert.KernelIdeal.Val0

end
-- ==== Proof.K0Arrays.lean ====
/-
  The four output arrays after the first region: the 64 blocks of each tile it, so each is the one function every point
  writes a block of.

  The block of point (b, tile) holds batch b, tokens tile·256 … tile·256 + 255, every column; the entry at
  (batch, token, column) is therefore in the block of the point (batch, token / 256), and every point writes back. With
  each point writing its block of the same function of the region's arrays, the array ends holding that function.
-/
import proofs.«182150_j66503273612026_2_alg».proof.Proof.K0Block

noncomputable section

open scoped BigOperators

namespace Cert.KernelIdeal.Val0

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Every pair (batch, token tile) is some point's block index, the same point for the four outputs. -/
theorem idx_onto : ∀ (q0 : Fin 8) (q1 : Fin 8), ∃ t : Fin cfg0.N,
    win0_7.index t = ![q0.val, q1.val, 0] ∧ win0_8.index t = ![q0.val, q1.val, 0]
    ∧ win0_9.index t = ![q0.val, q1.val, 0] ∧ win0_10.index t = ![q0.val, q1.val, 0] :=
  (by decide +kernel : ∀ (q0 : Fin 8) (q1 : Fin 8), ∃ t : Fin grid0.N,
    win0_7.index t = ![q0.val, q1.val, 0] ∧ win0_8.index t = ![q0.val, q1.val, 0]
    ∧ win0_9.index t = ![q0.val, q1.val, 0] ∧ win0_10.index t = ![q0.val, q1.val, 0])

/-- An index of output array 7 is in point t's block iff each coordinate is in the block's range on its axis. -/
theorem mem_blk7 (t : Fin cfg0.N) (i : S8x2048x1024.Idx) :
    i ∈ ((cfg0.win 7).blk t).view.set ↔ ∀ a : Fin 3, win0_7.index t a * S1x256x1024.size a ≤ (i a).val
      ∧ (i a).val < win0_7.index t a * S1x256x1024.size a + S1x256x1024.size a := by
  show i ∈ ((View.whole main_v6_0).slice (win0_7.rect t)).set ↔ _
  rw [View.set_slice_whole, Rect.mem_set_unit]
  exact Iff.rfl

/-- An index of output array 8 is in point t's block iff each coordinate is in the block's range on its axis. -/
theorem mem_blk8 (t : Fin cfg0.N) (i : S8x2048x1024.Idx) :
    i ∈ ((cfg0.win 8).blk t).view.set ↔ ∀ a : Fin 3, win0_8.index t a * S1x256x1024.size a ≤ (i a).val
      ∧ (i a).val < win0_8.index t a * S1x256x1024.size a + S1x256x1024.size a := by
  show i ∈ ((View.whole main_v6_1).slice (win0_8.rect t)).set ↔ _
  rw [View.set_slice_whole, Rect.mem_set_unit]
  exact Iff.rfl

/-- An index of output array 9 is in point t's block iff each coordinate is in the block's range on its axis. -/
theorem mem_blk9 (t : Fin cfg0.N) (i : S8x2048x1024.Idx) :
    i ∈ ((cfg0.win 9).blk t).view.set ↔ ∀ a : Fin 3, win0_9.index t a * S1x256x1024.size a ≤ (i a).val
      ∧ (i a).val < win0_9.index t a * S1x256x1024.size a + S1x256x1024.size a := by
  show i ∈ ((View.whole main_v6_2).slice (win0_9.rect t)).set ↔ _
  rw [View.set_slice_whole, Rect.mem_set_unit]
  exact Iff.rfl

/-- An index of output array 10 is in point t's block iff each coordinate is in the block's range on its axis. -/
theorem mem_blk10 (t : Fin cfg0.N) (i : S8x2048x1024.Idx) :
    i ∈ ((cfg0.win 10).blk t).view.set ↔ ∀ a : Fin 3, win0_10.index t a * S1x256x1024.size a ≤ (i a).val
      ∧ (i a).val < win0_10.index t a * S1x256x1024.size a + S1x256x1024.size a := by
  show i ∈ ((View.whole main_v6_3).slice (win0_10.rect t)).set ↔ _
  rw [View.set_slice_whole, Rect.mem_set_unit]
  exact Iff.rfl

/-- THE COVER of output array 7: (batch, token, column) is in the block of the point (batch, token / 256), which writes back. -/
theorem cover7 (i : S8x2048x1024.Idx) :
    ∃ t : Fin cfg0.N, (cfg0.win 7).flush t = true ∧ i ∈ ((cfg0.win 7).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win0_7.index t (0 : Fin 3) = (i 0).val := congrFun ht.1 0
  have q1 : win0_7.index t (1 : Fin 3) = (i 1).val / 256 := congrFun ht.1 1
  have q2 : win0_7.index t (2 : Fin 3) = 0 := congrFun ht.1 2
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 1024 ≤ (i 2).val ∧ (i 2).val < win0_7.index t (2 : Fin 3) * 1024 + 1024; omega

/-- THE COVER of output array 8: (batch, token, column) is in the block of the point (batch, token / 256), which writes back. -/
theorem cover8 (i : S8x2048x1024.Idx) :
    ∃ t : Fin cfg0.N, (cfg0.win 8).flush t = true ∧ i ∈ ((cfg0.win 8).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win0_8.index t (0 : Fin 3) = (i 0).val := congrFun ht.2.1 0
  have q1 : win0_8.index t (1 : Fin 3) = (i 1).val / 256 := congrFun ht.2.1 1
  have q2 : win0_8.index t (2 : Fin 3) = 0 := congrFun ht.2.1 2
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 256 ≤ (i 1).val ∧ (i 1).val < win0_8.index t (1 : Fin 3) * 256 + 256; omega
  | ⟨2, _⟩ => show win0_8.index t (2 : Fin 3) * 1024 ≤ (i 2).val ∧ (i 2).val < win0_8.index t (2 : Fin 3) * 1024 + 1024; omega

/-- THE COVER of output array 9: (batch, token, column) is in the block of the point (batch, token / 256), which writes back. -/
theorem cover9 (i : S8x2048x1024.Idx) :
    ∃ t : Fin cfg0.N, (cfg0.win 9).flush t = true ∧ i ∈ ((cfg0.win 9).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win0_9.index t (0 : Fin 3) = (i 0).val := congrFun ht.2.2.1 0
  have q1 : win0_9.index t (1 : Fin 3) = (i 1).val / 256 := congrFun ht.2.2.1 1
  have q2 : win0_9.index t (2 : Fin 3) = 0 := congrFun ht.2.2.1 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 256 ≤ (i 1).val ∧ (i 1).val < win0_9.index t (1 : Fin 3) * 256 + 256; omega
  | ⟨2, _⟩ => show win0_9.index t (2 : Fin 3) * 1024 ≤ (i 2).val ∧ (i 2).val < win0_9.index t (2 : Fin 3) * 1024 + 1024; omega

/-- THE COVER of output array 10: (batch, token, column) is in the block of the point (batch, token / 256), which writes back. -/
theorem cover10 (i : S8x2048x1024.Idx) :
    ∃ t : Fin cfg0.N, (cfg0.win 10).flush t = true ∧ i ∈ ((cfg0.win 10).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win0_10.index t (0 : Fin 3) = (i 0).val := congrFun ht.2.2.2 0
  have q1 : win0_10.index t (1 : Fin 3) = (i 1).val / 256 := congrFun ht.2.2.2 1
  have q2 : win0_10.index t (2 : Fin 3) = 0 := congrFun ht.2.2.2 2
  refine ⟨t, flush0_10 t, ?_⟩
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 256 ≤ (i 1).val ∧ (i 1).val < win0_10.index t (1 : Fin 3) * 256 + 256; omega
  | ⟨2, _⟩ => show win0_10.index t (2 : Fin 3) * 1024 ≤ (i 2).val ∧ (i 2).val < win0_10.index t (2 : Fin 3) * 1024 + 1024; omega

/-- THE VALUE ARRAY after the region: the lower half of the activated hidden projection. -/
theorem arr7 (c : Dev nD) : (dat0 (F := Ideal) V c).arrAt 7 cfg0.N = fun j =>
    Cert.Spec.proj (fun b t d => V c main_arg0 (ix3 b t d)) (fun d e => V c main_v3 (ix2 d e)) (fun e => V c main_v0 (ix2 0 e)) (j 0) (j 1) (Cert.Spec.lo (j 2)) :=
  (dat0 V c).arrAt_eq_of_cover 7 (valueFn V c) (fun t _ => flushed7_eq V c t) cover7

/-- THE GATE ARRAY after the region: the upper half of the activated hidden projection. -/
theorem arr8 (c : Dev nD) : (dat0 (F := Ideal) V c).arrAt 8 cfg0.N = fun j =>
    Cert.Spec.proj (fun b t d => V c main_arg0 (ix3 b t d)) (fun d e => V c main_v3 (ix2 d e)) (fun e => V c main_v0 (ix2 0 e)) (j 0) (j 1) (Cert.Spec.hi (j 2)) :=
  (dat0 V c).arrAt_eq_of_cover 8 (gateFn V c) (fun t _ => flushed8_eq V c t) cover8

/-- THE QUERY ARRAY after the region: the activated query/key projection scaled and shifted by row 0. -/
theorem arr9 (c : Dev nD) : (dat0 (F := Ideal) V c).arrAt 9 cfg0.N = fun j =>
    Cert.Spec.qk (Cert.Spec.proj (fun b t d => V c main_arg0 (ix3 b t d)) (fun d o => V c main_v4 (ix2 d o)) (fun o => V c main_v1 (ix2 0 o)))
    (fun r o => V c main_arg5 (ix2 r o)) (fun r o => V c main_arg6 (ix2 r o)) 0 (j 0) (j 1) (j 2) :=
  (dat0 V c).arrAt_eq_of_cover 9 (queryFn V c) (fun t _ => flushed9_eq V c t) cover9

/-- THE KEY ARRAY after the region: the activated query/key projection scaled and shifted by row 1. -/
theorem arr10 (c : Dev nD) : (dat0 (F := Ideal) V c).arrAt 10 cfg0.N = fun j =>
    Cert.Spec.qk (Cert.Spec.proj (fun b t d => V c main_arg0 (ix3 b t d)) (fun d o => V c main_v4 (ix2 d o)) (fun o => V c main_v1 (ix2 0 o)))
    (fun r o => V c main_arg5 (ix2 r o)) (fun r o => V c main_arg6 (ix2 r o)) 1 (j 0) (j 1) (j 2) :=
  (dat0 V c).arrAt_eq_of_cover 10 (keyFn V c) (fun t _ => flushed10_eq V c t) cover10

end Cert.KernelIdeal.Val0

end
-- ==== Proof.K1SoftmaxScore.lean ====
/-
  The scaled scores of one query tile against all keys of its batch.

  The product of a [256, 1024] block of queries with the transpose of a [2048, 1024] block of keys, into a zero
  accumulator, is at (r, j) the inner product Σ_d q r d · k j d: the contraction runs over axis 1 of both
  operands, and its one-axis index is re-indexed to the coordinate d. The blocks arrive with a leading unit axis,
  which the reshapes drop, and the product is multiplied by a splat literal: the scaling of the specification.
-/
import proofs.«182150_j66503273612026_2_alg».proof.Proof.Gen.KernelIdeal.Skeleton
import proofs.«182150_j66503273612026_2_alg».proof.Proof.Spec
import Idealize.ShloMosaic.Lib.ValueLayout
import Idealize.ShloMosaic.PureOps.Ideal.Laws

noncomputable section

open scoped BigOperators

namespace Cert.KernelIdeal.K1

open Idealize.ShloMosaic Idealize.ShloMosaic.ValueIdx

/-- The dimension numbers of q · kᵀ: both operands contract their axis 1. -/
abbrev dotQK : DotDims S256x1024 S2048x1024 S256x2048 := dot_S256x1024_S2048x1024_S256x2048_1_1_0_0_n_n

theorem dotQK_lhs0 (i : S256x2048.Idx) (q : dotQK.contr.Idx) : (dotQK.lhsIdx i q 0).val = (i 0).val := by
  unfold DotDims.lhsIdx
  rw [dif_neg (show ¬(0 : Fin S256x1024.rank) ∈ dotQK.lhsBatch by decide),
    dif_pos (show (0 : Fin S256x1024.rank) ∈ dotQK.lhsNonContracting by decide)]
  rfl

theorem dotQK_rhs0 (i : S256x2048.Idx) (q : dotQK.contr.Idx) : (dotQK.rhsIdx i q 0).val = (i 1).val := by
  unfold DotDims.rhsIdx
  rw [dif_neg (show ¬(0 : Fin S2048x1024.rank) ∈ dotQK.rhsBatch by decide),
    dif_pos (show (0 : Fin S2048x1024.rank) ∈ dotQK.rhsNonContracting by decide)]
  rfl

/-- q · kᵀ into a zero accumulator, at (r, j): the inner product of query row r and key row j. -/
theorem qk_apply (q : FVec Ideal S256x1024 .bf16) (k : FVec Ideal S2048x1024 .bf16) (r : Fin 256) (j : Fin 2048) :
    matmul dotQK none q k (constant (F := Ideal) S256x2048 .f32 0x00000000#32) (ix2 r j)
      = ∑ d : Fin 1024, q (ix2 r d) * k (ix2 j d) := by
  simp only [matmul]
  rw [Ideal.matmul_constant_zero_apply, ← Equiv.sum_comp (contrEquiv1 dotQK 1024 rfl rfl).symm]
  refine Finset.sum_congr rfl fun d _ => ?_
  have hk := contrEquiv1_symm_val dotQK 1024 rfl rfl d
  have el : dotQK.lhsIdx (ix2 r j) ((contrEquiv1 dotQK 1024 rfl rfl).symm d) = ix2 r d := funext fun a => Fin.ext (by
    match a with
    | ⟨0, _⟩ => exact dotQK_lhs0 _ _
    | ⟨1, _⟩ => exact (dotQK.lhsIdx_val_of_single rfl _ _).trans hk)
  have er : dotQK.rhsIdx (ix2 r j) ((contrEquiv1 dotQK 1024 rfl rfl).symm d) = ix2 j d := funext fun a => Fin.ext (by
    match a with
    | ⟨0, _⟩ => exact dotQK_rhs0 _ _
    | ⟨1, _⟩ => exact (dotQK.rhsIdx_val_of_single rfl _ _).trans hk)
  rw [el, er]

/-- The scaled scores as the kernel spells them: the blocks without their unit axis, multiplied, times the splat literal. -/
def score (x0 : FVec Ideal S1x256x1024 .bf16) (x1 : FVec Ideal S1x2048x1024 .bf16) : FVec Ideal S256x2048 .f32 :=
  mulf (matmul dotQK none (shapeCast S256x1024 x0 Gen.shapeCasts_S1x256x1024_S256x1024)
      (shapeCast S2048x1024 x1 Gen.shapeCasts_S1x2048x1024_S2048x1024) (constant (F := Ideal) S256x2048 .f32 0x00000000#32))
    (broadcast S256x2048 (Scalar.ofBits (F := Ideal) .f32 0x3D000000#32))

/-- The scaled score at (r, j) is the specification's scaling of the inner product. -/
theorem score_apply (x0 : FVec Ideal S1x256x1024 .bf16) (x1 : FVec Ideal S1x2048x1024 .bf16) (r : Fin 256) (j : Fin 2048) :
    score x0 x1 (ix2 r j) = Cert.Spec.scaleK (∑ d : Fin 1024, x0 (ix3 0 r d) * x1 (ix3 0 j d)) := by
  unfold score
  rw [mulf_apply, qk_apply]
  unfold Cert.Spec.scaleK
  refine congrArg (· * _) (Finset.sum_congr rfl fun d _ => ?_)
  rw [shapeCast_1ab_ab_apply, shapeCast_1ab_ab_apply]

end Cert.KernelIdeal.K1

end
-- ==== Proof.K1SoftmaxRows.lean ====
/-
  Rows and their one-column shapes.

  A reduction along the columns of an [a, b] matrix leaves one value per row, which the program keeps as an
  [a, 1] column and spreads back over [a, b] (or over another width). Read at an index these are: the column
  (r, 0) of a reshaped [a] vector is its entry r; a column spread over the rows' width reads its row's entry at
  every column; the source index over row r with column k put back is (r, k). With these a row maximum from −∞
  is the supremum over the row and a row sum from 0 is the sum over the row.
-/
import Idealize.ShloMosaic.Lib.ValueLayout
import Idealize.ShloMosaic.PureOps.Ideal.Laws
import proofs.«182150_j66503273612026_2_alg».proof.Proof.LibMaxReduce

noncomputable section

open scoped BigOperators

namespace Cert.KernelIdeal.K1

open Idealize.ShloMosaic Idealize.ShloMosaic.ValueIdx

variable {α : Type}

/-- An [a] vector reshaped to an [a, 1] column reads, at (i, u), its entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread over [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over row r of an [a, b] matrix reduced along its columns, the source index with column k put back is (r, k). -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- The maximum along the columns from −∞, at row r, is the supremum over the row. -/
theorem rowMax_apply {a b : ℕ} (s : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction (F := Ideal) .maximumf [1] ⟨1, ![a]⟩ s 0xFF800000#32 h hφ hacc (ix1 r) = ⨆ j : Fin b, s (ix2 r j) :=
  (Ideal.multiReduction_maximumf_single_iSup s h hφ hacc (ix1 r)).trans
    (iSup_congr fun k => congrArg s (lift_row h r k))

/-- The sum along the columns from 0, at row r, is the sum over the row. -/
theorem rowSum_apply {a b : ℕ} (s : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ s 0x00000000#32 h hφ hacc (ix1 r) = ∑ j : Fin b, s (ix2 r j) :=
  (Ideal.multiReduction_add_single s _ h hφ hacc (ix1 r)).trans
    (Finset.sum_congr rfl fun k _ => congrArg s (lift_row h r k))

end Cert.KernelIdeal.K1

end
-- ==== Proof.K1SoftmaxDiag.lean ====
/-
  The diagonal of the score tile, picked out by a mask.

  The tile holds rows 256·c … 256·c + 255 of the batch's 2048 × 2048 score matrix (c the tile's number, below 8).
  Row r of the tile is given the number r + 256·c and column j the number j, as 32-bit words; the mask is 1 where the
  two words agree. All numbers are below 2048, so no word wraps and the words agree exactly when r + 256·c = j:
  one column per row. Selecting the score under the mask and 0 elsewhere, and summing the row, leaves that one
  entry: a sum of extended reals whose other terms are 0 is its one term (no finiteness is needed).
-/
import proofs.«182150_j66503273612026_2_alg».proof.Proof.Gen.KernelIdeal.Skeleton
import proofs.«182150_j66503273612026_2_alg».proof.Proof.K1SoftmaxRows
import Idealize.ShloMosaic.Lib.Affine

noncomputable section

open scoped BigOperators

namespace Cert.KernelIdeal.K1

open Idealize.ShloMosaic Idealize.ShloMosaic.ValueIdx

/-- The row's number and the column's number agree as 32-bit words exactly when they agree as numbers. -/
theorem rowWord_eq_colWord_iff (r c j : ℕ) (hr : r < 256) (hc : c < 8) (hj : j < 2048) :
    IntOp.addi (BitVec.ofNat 32 r) (Scalar.muli (BitVec.ofNat 32 c) 256#32) = BitVec.ofNat 32 j ↔ r + 256 * c = j := by
  show BitVec.ofNat 32 r + BitVec.ofNat 32 c * 256#32 = BitVec.ofNat 32 j ↔ _
  rw [← BitVec.toNat_inj]
  simp only [BitVec.toNat_add, BitVec.toNat_mul, BitVec.toNat_ofNat, Nat.reducePow, Nat.reduceMod]
  omega

/-- The mask of the tile numbered by the word `c`: row number = column number. -/
def diagMask (c : BitVec 32) : IVec S256x2048 1 :=
  cmpi .eq
    (broadcastTo S256x2048 (addi (iota .tc S256x1 32 [0] Gen.iota_S256x1_d0_w32) (broadcast S256x1 (Scalar.muli c 256#32)))
      Gen.broadcasts_S256x1_S256x2048)
    (broadcastTo S256x2048 (iota .tc S1x2048 32 [1] Gen.iota_S1x2048_d1_w32) Gen.broadcasts_S1x2048_S256x2048)

/-- The mask at (r, j) compares the word r + 256·c with the word j. -/
theorem diagMask_apply (c : BitVec 32) (r : Fin 256) (j : Fin 2048) :
    diagMask c (ix2 r j)
      = IntOp.cmpi .eq (IntOp.addi (BitVec.ofNat 32 r.val) (Scalar.muli c 256#32)) (BitVec.ofNat 32 j.val) := by
  unfold diagMask
  show IntOp.cmpi .eq (broadcastTo S256x2048 _ Gen.broadcasts_S256x1_S256x2048 (ix2 r j))
      (broadcastTo S256x2048 _ Gen.broadcasts_S1x2048_S256x2048 (ix2 r j)) = _
  rw [broadcastTo_a1_ab_apply, broadcastTo_1b_ab_apply]
  show IntOp.cmpi .eq (IntOp.addi (iota .tc S256x1 32 [0] Gen.iota_S256x1_d0_w32 (ix2 r (0 : Fin 1))) (Scalar.muli c 256#32))
      (iota .tc S1x2048 32 [1] Gen.iota_S1x2048_d1_w32 (ix2 (0 : Fin 1) j)) = _
  rw [iota_single_apply, iota_single_apply]

/-- The masked scores of row r sum to the row's diagonal entry, column r + 256·c. -/
theorem diag_sum (c : ℕ) (hc : c < 8) (s : FVec Ideal S256x2048 .f32) (r : Fin 256) :
    ∑ j : Fin 2048, select (diagMask (BitVec.ofNat 32 c)) s
        (broadcast S256x2048 (Scalar.ofBits (F := Ideal) .f32 0x00000000#32)) (ix2 r j)
      = s (ix2 r (⟨r.val + 256 * c, by have := r.isLt; omega⟩ : Fin 2048)) := by
  rw [Finset.sum_eq_single (⟨r.val + 256 * c, by have := r.isLt; omega⟩ : Fin 2048)]
  · rw [select_apply, diagMask_apply,
      IntOp.cmpi_eq.mpr ((rowWord_eq_colWord_iff r.val c _ r.isLt hc (by have := r.isLt; omega)).mpr rfl), select_one]
  · intro j _ hj
    have h0 : IntOp.cmpi .eq (IntOp.addi (BitVec.ofNat 32 r.val) (Scalar.muli (BitVec.ofNat 32 c) 256#32)) (BitVec.ofNat 32 j.val) = 0#1 :=
      eq_zero_of_ne_one fun h =>
        hj (Fin.ext ((rowWord_eq_colWord_iff r.val c j.val r.isLt hc j.isLt).mp (IntOp.cmpi_eq.mp h)).symm)
    rw [select_apply, diagMask_apply, h0, select_zero, broadcast_apply]
    exact Ideal.ofBits_zero_f32
  · intro h
    exact absurd (Finset.mem_univ _) h

/-- The diagonal scores as the kernel keeps them: the masked row sums, as a column. -/
def diagCol (c : BitVec 32) (s : FVec Ideal S256x2048 .f32) : FVec Ideal S256x1 .f32 :=
  shapeCast S256x1
    (multiReduction (F := Ideal) .add [1] S256
      (select (diagMask c) s (broadcast S256x2048 (Scalar.ofBits (F := Ideal) .f32 0x00000000#32)))
      0x00000000#32 Gen.reduces_S256x2048_S256 (.inl rfl) rfl)
    Gen.shapeCasts_S256_S256x1

/-- The column at row r is the score at (r, r + 256·c). -/
theorem diagCol_apply (c : ℕ) (hc : c < 8) (s : FVec Ideal S256x2048 .f32) (r : Fin 256) (u : Fin 1) :
    diagCol (BitVec.ofNat 32 c) s (ix2 r u) = s (ix2 r (⟨r.val + 256 * c, by have := r.isLt; omega⟩ : Fin 2048)) := by
  unfold diagCol
  refine (shapeCast_a_a1_apply _ _ r u).trans ?_
  refine (rowSum_apply _ Gen.reduces_S256x2048_S256 _ _ r).trans ?_
  exact diag_sum c hc s r

end Cert.KernelIdeal.K1

end
-- ==== Proof.K1SoftmaxWeight.lean ====
/-
  The diagonal softmax weight of each row of the score tile.

  With M r = sup_j s r j the row's maximum (kept as a column and spread back over the row), the shifted
  exponentials exp (s r j − M r) sum to the row's normalizer, and the weight is exp (s r (r + 256·c) − M r)
  divided by it: the specification's softmax of row r of the scores, read at the row's own column.
-/
import proofs.«182150_j66503273612026_2_alg».proof.Proof.Gen.KernelIdeal.Skeleton
import proofs.«182150_j66503273612026_2_alg».proof.Proof.Spec
import proofs.«182150_j66503273612026_2_alg».proof.Proof.K1SoftmaxRows
import proofs.«182150_j66503273612026_2_alg».proof.Proof.K1SoftmaxDiag

noncomputable section

open scoped BigOperators

namespace Cert.KernelIdeal.K1

open Idealize.ShloMosaic Idealize.ShloMosaic.ValueIdx

/-- The row maxima, as a column. -/
def rowMaxCol (s : FVec Ideal S256x2048 .f32) : FVec Ideal S256x1 .f32 :=
  shapeCast S256x1
    (multiReduction (F := Ideal) .maximumf [1] S256 s 0xFF800000#32 Gen.reduces_S256x2048_S256 (.inl rfl) rfl)
    Gen.shapeCasts_S256_S256x1

theorem rowMaxCol_apply (s : FVec Ideal S256x2048 .f32) (r : Fin 256) (u : Fin 1) :
    rowMaxCol s (ix2 r u) = ⨆ j : Fin 2048, s (ix2 r j) := by
  unfold rowMaxCol
  refine (shapeCast_a_a1_apply _ _ r u).trans ?_
  exact rowMax_apply s Gen.reduces_S256x2048_S256 _ _ r

/-- The exponentials of the scores shifted by their row's maximum. -/
def expShift (s : FVec Ideal S256x2048 .f32) : FVec Ideal S256x2048 .f32 :=
  exp (subf s (broadcastTo S256x2048 (rowMaxCol s) Gen.broadcasts_S256x1_S256x2048))

theorem expShift_apply (s : FVec Ideal S256x2048 .f32) (r : Fin 256) (j : Fin 2048) :
    expShift s (ix2 r j) = Ideal.exp (s (ix2 r j) - ⨆ j' : Fin 2048, s (ix2 r j')) := by
  unfold expShift
  show Ideal.exp (s (ix2 r j) - broadcastTo S256x2048 (rowMaxCol s) Gen.broadcasts_S256x1_S256x2048 (ix2 r j)) = _
  rw [broadcastTo_a1_ab_apply, rowMaxCol_apply]

/-- The rows' normalizers, as a column. -/
def rowSumCol (s : FVec Ideal S256x2048 .f32) : FVec Ideal S256x1 .f32 :=
  shapeCast S256x1
    (multiReduction (F := Ideal) .add [1] S256 (expShift s) 0x00000000#32 Gen.reduces_S256x2048_S256 (.inl rfl) rfl)
    Gen.shapeCasts_S256_S256x1

theorem rowSumCol_apply (s : FVec Ideal S256x2048 .f32) (r : Fin 256) (u : Fin 1) :
    rowSumCol s (ix2 r u) = ∑ j : Fin 2048, Ideal.exp (s (ix2 r j) - ⨆ j' : Fin 2048, s (ix2 r j')) := by
  unfold rowSumCol
  refine (shapeCast_a_a1_apply _ _ r u).trans ?_
  refine (rowSum_apply _ Gen.reduces_S256x2048_S256 _ _ r).trans ?_
  exact Finset.sum_congr rfl fun j _ => expShift_apply s r j

/-- The diagonal softmax weights of the tile numbered by the word `c`, as a column. -/
def weightCol (c : BitVec 32) (s : FVec Ideal S256x2048 .f32) : FVec Ideal S256x1 .f32 :=
  divf (exp (subf (diagCol c s) (rowMaxCol s))) (rowSumCol s)

/-- The weight of row r is the softmax of row r of the scores at column r + 256·c. -/
theorem weightCol_apply (c : ℕ) (hc : c < 8) (s : FVec Ideal S256x2048 .f32) (r : Fin 256) (u : Fin 1) :
    weightCol (BitVec.ofNat 32 c) s (ix2 r u)
      = Cert.Spec.softmaxAt (fun j : Fin 2048 => s (ix2 r j)) (⟨r.val + 256 * c, by have := r.isLt; omega⟩ : Fin 2048) := by
  unfold weightCol Cert.Spec.softmaxAt
  show Ideal.div (Ideal.exp (diagCol (BitVec.ofNat 32 c) s (ix2 r u) - rowMaxCol s (ix2 r u))) (rowSumCol s (ix2 r u)) = _
  rw [diagCol_apply c hc, rowMaxCol_apply, rowSumCol_apply]

end Cert.KernelIdeal.K1

end
-- ==== Proof.K1Softmax.lean ====
/-
  The value the second kernel forms before its output projection, at an index.

  For the tile numbered c (the grid's second coordinate, below 8) the body computes, from the tile's queries and the
  batch's keys, the scaled scores s; from them the diagonal softmax weight a r of each row; and the products
  a r · v r o · g r o with the tile's values and gates (widened from and narrowed to a shorter float format, both the
  identity on the extended reals). At (r, o) this is the specification's softmax of row r of the scores at column
  r + 256·c, times v, times g, in that order of the factors.
-/
import proofs.«182150_j66503273612026_2_alg».proof.Proof.Gen.KernelIdeal.Skeleton
import proofs.«182150_j66503273612026_2_alg».proof.Proof.Spec
import proofs.«182150_j66503273612026_2_alg».proof.Proof.K1SoftmaxScore
import proofs.«182150_j66503273612026_2_alg».proof.Proof.K1SoftmaxWeight

noncomputable section

open scoped BigOperators

namespace Cert.KernelIdeal.K1

open Idealize.ShloMosaic Idealize.ShloMosaic.ValueIdx

/-- What follows the scores: the weights spread over the tile's width, times the values, times the gates. -/
def weighted (c : BitVec 32) (s : FVec Ideal S256x2048 .f32) (x2 x3 : FVec Ideal S1x256x1024 .bf16) : FVec Ideal S256x1024 .bf16 :=
  truncf .bf16
    (mulf
      (mulf (broadcastTo S256x1024 (weightCol c s) Gen.broadcasts_S256x1_S256x1024)
        (extf .f32 (shapeCast S256x1024 x2 Gen.shapeCasts_S1x256x1024_S256x1024) Gen.bitsLt_bf16_f32))
      (extf .f32 (shapeCast S256x1024 x3 Gen.shapeCasts_S1x256x1024_S256x1024) Gen.bitsLt_bf16_f32))
    Gen.bitsLt_bf16_f32

/-- The body's value is `weighted` of its scores: the same operations in the same order. -/
theorem pay2_eq (i : grid1.Coords) (x0 : Vec Ideal S1x256x1024 .bf16) (x1 : Vec Ideal S1x2048x1024 .bf16)
    (x2 x3 : Vec Ideal S1x256x1024 .bf16) :
    Gen.k1_pay2 (F := Ideal) i x0 x1 x2 x3 = weighted (BitVec.ofNat 32 (i 1).val) (score x0 x1) x2 x3 := rfl

/-- `weighted` at (r, o): the softmax weight of row r at its diagonal column, times the value, times the gate. -/
theorem weighted_apply (c : ℕ) (hc : c < 8) (s : FVec Ideal S256x2048 .f32) (x2 x3 : FVec Ideal S1x256x1024 .bf16)
    (r : Fin 256) (o : Fin 1024) :
    weighted (BitVec.ofNat 32 c) s x2 x3 (ix2 r o)
      = Cert.Spec.softmaxAt (fun j : Fin 2048 => s (ix2 r j)) (⟨r.val + 256 * c, by have := r.isLt; omega⟩ : Fin 2048)
          * x2 (ix3 0 r o) * x3 (ix3 0 r o) := by
  unfold weighted
  rw [truncf_apply, mulf_apply, mulf_apply, extf_apply, extf_apply, broadcastTo_a1_ab_apply, weightCol_apply c hc,
    shapeCast_1ab_ab_apply, shapeCast_1ab_ab_apply]

/-- The body's value at (r, o), in the specification's terms. -/
theorem pay2_apply (i : grid1.Coords) (x0 : Vec Ideal S1x256x1024 .bf16) (x1 : Vec Ideal S1x2048x1024 .bf16)
    (x2 x3 : Vec Ideal S1x256x1024 .bf16) (r : Fin 256) (o : Fin 1024) :
    Gen.k1_pay2 (F := Ideal) i x0 x1 x2 x3 (ix2 r o)
      = Cert.Spec.softmaxAt (fun j : Fin 2048 => Cert.Spec.scaleK (∑ d : Fin 1024, x0 (ix3 0 r d) * x1 (ix3 0 j d)))
          (⟨r.val + 256 * (i 1).val, by have := r.isLt; have : (i 1).val < 8 := (i 1).isLt; omega⟩ : Fin 2048)
          * x2 (ix3 0 r o) * x3 (ix3 0 r o) := by
  have hc : (i 1).val < 8 := (i 1).isLt
  have hs : (fun j : Fin 2048 => score x0 x1 (ix2 r j))
      = fun j : Fin 2048 => Cert.Spec.scaleK (∑ d : Fin 1024, x0 (ix3 0 r d) * x1 (ix3 0 j d)) :=
    funext fun j => score_apply x0 x1 r j
  rw [pay2_eq, weighted_apply _ hc, hs]

end Cert.KernelIdeal.K1

end
-- ==== Proof.K1OutProj.lean ====
/-
  The output projection of one query tile, entry by entry.

  The tile's 256 rows of gated values (each 1024 wide) are multiplied by the 1024 × 1024 output weights into a zero
  accumulator, the bias row is added to every row, and the 256 × 1024 result is TRANSPOSED to 1024 × 256 and given a
  leading unit axis. So the entry at (0, node n, row r) of what is stored is
  Σ_o value r o · W o n + bias n: the transposition only swaps which coordinate names the row and which the node.
-/
import proofs.«182150_j66503273612026_2_alg».proof.Proof.Gen.KernelIdeal.Skeleton
import Idealize.ShloMosaic.Lib.ValueLayout
import Idealize.ShloMosaic.PureOps.Ideal.Laws

noncomputable section

open scoped BigOperators

namespace Cert.KernelIdeal.Val1

open Idealize.ShloMosaic Idealize.ShloMosaic.ValueIdx Cert.KernelIdeal Cert.KernelIdeal.Gen

/-- The dimension numbers of the product rows × weights: contract the rows' columns with the weights' rows. -/
abbrev projDims : DotDims S256x1024 S1024x1024 S256x1024 := dot_S256x1024_S1024x1024_S256x1024_1_0_0_1_n_n

/-- The left operand's row is the output's row. -/
theorem proj_lhs_0 (i : S256x1024.Idx) (q : projDims.contr.Idx) : (projDims.lhsIdx i q 0).val = (i 0).val := by
  unfold DotDims.lhsIdx
  rw [dif_neg (show ¬(0 : Fin S256x1024.rank) ∈ projDims.lhsBatch by decide),
    dif_pos (show (0 : Fin S256x1024.rank) ∈ projDims.lhsNonContracting by decide)]
  rfl
/-- The left operand's column is the contraction coordinate. -/
theorem proj_lhs_1 (i : S256x1024.Idx) (q : projDims.contr.Idx) : (projDims.lhsIdx i q 1).val = (q ⟨0, by decide⟩).val :=
  projDims.lhsIdx_val_of_single rfl i q
/-- The right operand's row is the contraction coordinate. -/
theorem proj_rhs_0 (i : S256x1024.Idx) (q : projDims.contr.Idx) : (projDims.rhsIdx i q 0).val = (q ⟨0, by decide⟩).val :=
  projDims.rhsIdx_val_of_single rfl i q
/-- The right operand's column is the output's column. -/
theorem proj_rhs_1 (i : S256x1024.Idx) (q : projDims.contr.Idx) : (projDims.rhsIdx i q 1).val = (i 1).val := by
  unfold DotDims.rhsIdx
  rw [dif_neg (show ¬(1 : Fin S1024x1024.rank) ∈ projDims.rhsBatch by decide),
    dif_pos (show (1 : Fin S1024x1024.rank) ∈ projDims.rhsNonContracting by decide)]
  rfl

/-- The product of the tile's rows with the weights, into a zero accumulator, at (r, n): the sum over the 1024 columns. -/
theorem proj_matmul_apply (l : FVec Ideal S256x1024 .bf16) (w : FVec Ideal S1024x1024 .bf16) (r : Fin 256) (n : Fin 1024) :
    matmul (F := Ideal) dot_S256x1024_S1024x1024_S256x1024_1_0_0_1_n_n none l w
        (constant (F := Ideal) S256x1024 .f32 0x00000000#32) (ix2 r n)
      = ∑ o : Fin 1024, l (ix2 r o) * w (ix2 o n) := by
  refine (Ideal.matmul_constant_zero_apply projDims none l w (ix2 r n)).trans ?_
  rw [← Equiv.sum_comp (contrEquiv1 projDims 1024 rfl rfl).symm]
  refine Finset.sum_congr rfl fun k _ => ?_
  have hk := contrEquiv1_symm_val projDims 1024 rfl rfl k
  have el : projDims.lhsIdx (ix2 r n) ((contrEquiv1 projDims 1024 rfl rfl).symm k) = ix2 r k := funext fun a => Fin.ext (by
    match a with
    | ⟨0, _⟩ => exact proj_lhs_0 _ _
    | ⟨1, _⟩ => exact (proj_lhs_1 _ _).trans hk)
  have er : projDims.rhsIdx (ix2 r n) ((contrEquiv1 projDims 1024 rfl rfl).symm k) = ix2 k n := funext fun a => Fin.ext (by
    match a with
    | ⟨0, _⟩ => exact (proj_rhs_0 _ _).trans hk
    | ⟨1, _⟩ => exact proj_rhs_1 _ _)
  rw [el, er]

/-- What the tile stores, at (0, node n, row r): the projection of row r onto node n, plus the node's bias. -/
theorem pay1_apply (v38 : FVec Ideal S256x1024 .bf16) (v39 : Vec Ideal S1024x1024 .bf16) (v42 : Vec Ideal S1x1024 .f32)
    (n : Fin 1024) (r : Fin 256) :
    k1_pay1 (F := Ideal) v38 v39 v42 (ix3 0 n r)
      = (∑ o : Fin 1024, v38 (ix2 r o) * v39 (ix2 o n)) + v42 (ix2 0 n) := by
  unfold k1_pay1
  -- the unit axis, then the transposition: (0, n, r) reads the 256 × 1024 sum at (r, n)
  refine (shapeCast_ab_1ab_apply _ shapeCasts_S1024x256_S1x1024x256 0 n r).trans ?_
  refine (transpose_ix2_apply _ transposes_S256x1024_p1_0_S1024x256 n r).trans ?_
  refine (addf_apply _ _ (ix2 r n)).trans ?_
  refine congrArg₂ (· + ·) ?_ ?_
  · rw [shapeCast_self]
    exact proj_matmul_apply v38 v39 r n
  · refine (broadcastTo_1b_ab_apply _ broadcasts_S1x1024_S256x1024 r n).trans ?_
    rw [shapeCast_self]

end Cert.KernelIdeal.Val1

end
-- ==== Proof.K1Tile.lean ====
/-
  One entry of a query tile's result, as the specification's function of the rows it reads.

  The tile's gated values are, row by row, the diagonal softmax weight of the row times its value times its gate; their
  projection onto a node, plus the node's bias, is the specification's result at (batch, token, node) once each block
  entry is named by the array entry it holds: row r of the tile is token qi·256 + r of the batch, the key block is the
  batch's whole key array, weights and bias are whole. Sums are matched term by term; no law of the extended reals is
  used beyond rewriting equal entries.
-/
import proofs.«182150_j66503273612026_2_alg».proof.Proof.K1OutProj
import proofs.«182150_j66503273612026_2_alg».proof.Proof.Spec

noncomputable section

open scoped BigOperators

namespace Cert.KernelIdeal.Val1

open Idealize.ShloMosaic Idealize.ShloMosaic.ValueIdx Cert.KernelIdeal Cert.KernelIdeal.Gen

/-- Given the gated values entry by entry (hgv: the row's diagonal softmax weight, over the scaled inner products of the
    row's query with every key, times value times gate) and the array entry behind each block entry (h0 … h5), the
    stored entry (0, n, r) is the specification's result at batch b, token tok = qi·256 + r, node n. -/
theorem tile_apply_of (i : grid1.Coords) (x0 : Vec Ideal S1x256x1024 .bf16) (x1 : Vec Ideal S1x2048x1024 .bf16)
    (x2 x3 : Vec Ideal S1x256x1024 .bf16) (x4 : Vec Ideal S1024x1024 .bf16) (x5 : Vec Ideal S1x1024 .f32)
    (hbd : ∀ r : Fin 256, r.val + 256 * (i 1).val < 2048)
    (hgv : ∀ (r : Fin 256) (o : Fin 1024), k1_pay2 (F := Ideal) i x0 x1 x2 x3 (ix2 r o)
      = Cert.Spec.softmaxAt (fun j : Fin 2048 => Cert.Spec.scaleK (∑ d : Fin 1024, x0 (ix3 0 r d) * x1 (ix3 0 j d)))
          ⟨r.val + 256 * (i 1).val, hbd r⟩ * x2 (ix3 0 r o) * x3 (ix3 0 r o))
    (q k v g : Fin 8 → Fin 2048 → Fin 1024 → EReal) (Wo : Fin 1024 → Fin 1024 → EReal) (bo : Fin 1024 → EReal)
    (b : Fin 8) (n : Fin 1024) (r : Fin 256) (tok : Fin 2048) (htok : tok.val = r.val + 256 * (i 1).val)
    (h0 : ∀ d, x0 (ix3 0 r d) = q b tok d) (h1 : ∀ j d, x1 (ix3 0 j d) = k b j d)
    (h2 : ∀ o, x2 (ix3 0 r o) = v b tok o) (h3 : ∀ o, x3 (ix3 0 r o) = g b tok o)
    (h4 : ∀ o, x4 (ix2 o n) = Wo o n) (h5 : x5 (ix2 0 n) = bo n) :
    k1_pay1 (F := Ideal) (k1_pay2 (F := Ideal) i x0 x1 x2 x3) x4 x5 (ix3 0 n r)
      = Cert.Spec.out Cert.Spec.scaleK q k v g Wo bo b tok n := by
  refine (pay1_apply _ x4 x5 n r).trans ?_
  unfold Cert.Spec.out Cert.Spec.diagSoftmax Cert.Spec.score
  rw [h5]
  refine congrArg (· + bo n) (Finset.sum_congr rfl fun o _ => ?_)
  rw [hgv r o, h4 o, h2 o, h3 o]
  have ht : (⟨r.val + 256 * (i 1).val, hbd r⟩ : Fin 2048) = tok := Fin.ext htok.symm
  rw [ht]
  simp only [h0, h1]

end Cert.KernelIdeal.Val1

end
-- ==== Proof.K1Reads.lean ====
/-
  Where each block of a query tile sits in its array.

  Point (b, qi) of the 8 × 8 grid reads rows qi·256 … qi·256 + 255 of batch b of the queries, of the values and of the
  gates, ALL 2048 rows of batch b of the keys, the whole weight matrix and the whole bias row; and it writes columns
  qi·256 … qi·256 + 255 of batch b of the result, all 1024 nodes. A block's coordinate on an axis is always
  the block index times the block's extent plus the coordinate inside the block; the block indices are the printed
  index maps, read once over the 64 points.
-/
import proofs.«182150_j66503273612026_2_alg».proof.Proof.KernelIdealFrameP
import Idealize.ShloMosaic.Lib.Pipeline.Value
import Idealize.ShloMosaic.Lib.ValueIdx

noncomputable section

namespace Cert.KernelIdeal.Val1

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices at point t = (b, qi): queries, values and gates at (b, qi, 0); keys at (b, 0, 0); weights and bias
    at the origin; the result at (b, 0, qi). -/
theorem idx_facts : ∀ t : Fin cfg1.N,
    (win1_0.index t (0 : Fin 3) = (grid1.coords t 0).val ∧ win1_0.index t (1 : Fin 3) = (grid1.coords t 1).val ∧ win1_0.index t (2 : Fin 3) = 0)
    ∧ (win1_1.index t (0 : Fin 3) = (grid1.coords t 0).val ∧ win1_1.index t (1 : Fin 3) = 0 ∧ win1_1.index t (2 : Fin 3) = 0)
    ∧ (win1_2.index t (0 : Fin 3) = (grid1.coords t 0).val ∧ win1_2.index t (1 : Fin 3) = (grid1.coords t 1).val ∧ win1_2.index t (2 : Fin 3) = 0)
    ∧ (win1_3.index t (0 : Fin 3) = (grid1.coords t 0).val ∧ win1_3.index t (1 : Fin 3) = (grid1.coords t 1).val ∧ win1_3.index t (2 : Fin 3) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 3) = (grid1.coords t 0).val ∧ win1_6.index t (1 : Fin 3) = 0 ∧ win1_6.index t (2 : Fin 3) = (grid1.coords t 1).val) :=
  (by decide +kernel : ∀ t : Fin grid1.N, _)

/-- The query block's row r is the array's row qi·256 + r of batch b. -/
theorem q_block_apply (c : Dev nD) (t : Fin cfg1.N) (r : Fin 256) (d : Fin 1024) (b : Fin 8) (tok : Fin 2048)
    (hb : b.val = (grid1.coords t 0).val) (htok : tok.val = r.val + 256 * (grid1.coords t 1).val) :
    (iblk1 V c 0 t : Vec Ideal S1x256x1024 .bf16) (ix3 0 r d) = (V c main_v6_2 : S8x2048x1024.Idx → Elt Ideal .bf16) (ix3 b tok d) := by
  obtain ⟨⟨e0, e1, e2⟩, -⟩ := idx_facts t
  unfold iblk1
  rw [View.read_apply]
  show V c main_v6_2 _ = V c main_v6_2 _
  refine congrArg (V c main_v6_2) (funext fun a => Fin.ext ?_)
  match a with
  | ⟨0, _⟩ => show win1_0.index t (0 : Fin 3) * 1 + 1 * 0 = b.val; omega
  | ⟨1, _⟩ => show win1_0.index t (1 : Fin 3) * 256 + 1 * r.val = tok.val; omega
  | ⟨2, _⟩ => show win1_0.index t (2 : Fin 3) * 1024 + 1 * d.val = d.val; omega

/-- The key block is the whole of batch b: its row j is the array's row j. -/
theorem k_block_apply (c : Dev nD) (t : Fin cfg1.N) (j : Fin 2048) (d : Fin 1024) (b : Fin 8)
    (hb : b.val = (grid1.coords t 0).val) :
    (iblk1 V c 1 t : Vec Ideal S1x2048x1024 .bf16) (ix3 0 j d) = (V c main_v6_3 : S8x2048x1024.Idx → Elt Ideal .bf16) (ix3 b j d) := by
  obtain ⟨-, ⟨e0, e1, e2⟩, -⟩ := idx_facts t
  unfold iblk1
  rw [View.read_apply]
  show V c main_v6_3 _ = V c main_v6_3 _
  refine congrArg (V c main_v6_3) (funext fun a => Fin.ext ?_)
  match a with
  | ⟨0, _⟩ => show win1_1.index t (0 : Fin 3) * 1 + 1 * 0 = b.val; omega
  | ⟨1, _⟩ => show win1_1.index t (1 : Fin 3) * 2048 + 1 * j.val = j.val; omega
  | ⟨2, _⟩ => show win1_1.index t (2 : Fin 3) * 1024 + 1 * d.val = d.val; omega

/-- The value block's row r is the array's row qi·256 + r of batch b. -/
theorem v_block_apply (c : Dev nD) (t : Fin cfg1.N) (r : Fin 256) (d : Fin 1024) (b : Fin 8) (tok : Fin 2048)
    (hb : b.val = (grid1.coords t 0).val) (htok : tok.val = r.val + 256 * (grid1.coords t 1).val) :
    (iblk1 V c 2 t : Vec Ideal S1x256x1024 .bf16) (ix3 0 r d) = (V c main_v6_0 : S8x2048x1024.Idx → Elt Ideal .bf16) (ix3 b tok d) := by
  obtain ⟨-, -, ⟨e0, e1, e2⟩, -⟩ := idx_facts t
  unfold iblk1
  rw [View.read_apply]
  show V c main_v6_0 _ = V c main_v6_0 _
  refine congrArg (V c main_v6_0) (funext fun a => Fin.ext ?_)
  match a with
  | ⟨0, _⟩ => show win1_2.index t (0 : Fin 3) * 1 + 1 * 0 = b.val; omega
  | ⟨1, _⟩ => show win1_2.index t (1 : Fin 3) * 256 + 1 * r.val = tok.val; omega
  | ⟨2, _⟩ => show win1_2.index t (2 : Fin 3) * 1024 + 1 * d.val = d.val; omega

/-- The gate block's row r is the array's row qi·256 + r of batch b. -/
theorem g_block_apply (c : Dev nD) (t : Fin cfg1.N) (r : Fin 256) (d : Fin 1024) (b : Fin 8) (tok : Fin 2048)
    (hb : b.val = (grid1.coords t 0).val) (htok : tok.val = r.val + 256 * (grid1.coords t 1).val) :
    (iblk1 V c 3 t : Vec Ideal S1x256x1024 .bf16) (ix3 0 r d) = (V c main_v6_1 : S8x2048x1024.Idx → Elt Ideal .bf16) (ix3 b tok d) := by
  obtain ⟨-, -, -, ⟨e0, e1, e2⟩, -⟩ := idx_facts t
  unfold iblk1
  rw [View.read_apply]
  show V c main_v6_1 _ = V c main_v6_1 _
  refine congrArg (V c main_v6_1) (funext fun a => Fin.ext ?_)
  match a with
  | ⟨0, _⟩ => show win1_3.index t (0 : Fin 3) * 1 + 1 * 0 = b.val; omega
  | ⟨1, _⟩ => show win1_3.index t (1 : Fin 3) * 256 + 1 * r.val = tok.val; omega
  | ⟨2, _⟩ => show win1_3.index t (2 : Fin 3) * 1024 + 1 * d.val = d.val; omega

/-- The weight block is the whole matrix. -/
theorem w_block_apply (c : Dev nD) (t : Fin cfg1.N) (o n : Fin 1024) :
    (iblk1 V c 4 t : Vec Ideal S1024x1024 .bf16) (ix2 o n) = (V c main_v5 : S1024x1024.Idx → Elt Ideal .bf16) (ix2 o n) := by
  obtain ⟨-, -, -, -, ⟨e0, e1⟩, -⟩ := idx_facts t
  unfold iblk1
  rw [View.read_apply]
  show V c main_v5 _ = V c main_v5 _
  refine congrArg (V c main_v5) (funext fun a => Fin.ext ?_)
  match a with
  | ⟨0, _⟩ => show win1_4.index t (0 : Fin 2) * 1024 + 1 * o.val = o.val; omega
  | ⟨1, _⟩ => show win1_4.index t (1 : Fin 2) * 1024 + 1 * n.val = n.val; omega

/-- The bias block is the whole row. -/
theorem bias_block_apply (c : Dev nD) (t : Fin cfg1.N) (n : Fin 1024) :
    (iblk1 V c 5 t : Vec Ideal S1x1024 .f32) (ix2 0 n) = (V c main_v2 : S1x1024.Idx → Elt Ideal .f32) (ix2 0 n) := by
  obtain ⟨-, -, -, -, -, ⟨e0, e1⟩, -⟩ := idx_facts t
  unfold iblk1
  rw [View.read_apply]
  show V c main_v2 _ = V c main_v2 _
  refine congrArg (V c main_v2) (funext fun a => Fin.ext ?_)
  match a with
  | ⟨0, _⟩ => show win1_5.index t (0 : Fin 2) * 1 + 1 * 0 = 0; omega
  | ⟨1, _⟩ => show win1_5.index t (1 : Fin 2) * 1024 + 1 * n.val = n.val; omega

/-- The result block's entry (0, n, r) sits at (b, n, qi·256 + r) of the result. -/
theorem out_block_emb (t : Fin cfg1.N) (n : Fin 1024) (r : Fin 256) (b : Fin 8) (tok : Fin 2048)
    (hb : b.val = (grid1.coords t 0).val) (htok : tok.val = r.val + 256 * (grid1.coords t 1).val) :
    (((cfg1.win 6).blk t).view.emb (ix3 0 n r) : S8x1024x2048.Idx) = ix3 b n tok := by
  obtain ⟨-, -, -, -, -, -, ⟨e0, e1, e2⟩⟩ := idx_facts t
  refine funext fun a => Fin.ext ?_
  match a with
  | ⟨0, _⟩ => show win1_6.index t (0 : Fin 3) * 1 + 1 * 0 = b.val; omega
  | ⟨1, _⟩ => show win1_6.index t (1 : Fin 3) * 1024 + 1 * n.val = n.val; omega
  | ⟨2, _⟩ => show win1_6.index t (2 : Fin 3) * 256 + 1 * r.val = tok.val; omega

end Cert.KernelIdeal.Val1

end
-- ==== Proof.K1Block.lean ====
/-
  What one grid point writes back is its block of ONE function of the region's arrays.

  Point (b, qi) leaves in the result's buffer the payload of the blocks it loaded (one store covering the buffer, every
  load a whole block). Entry (0, n, r) of that buffer goes to (b, n, qi·256 + r) of the result; and, each loaded block
  entry being the array entry under it, the stored value is the specification's result at batch b, token qi·256 + r,
  node n. So the point writes the block at (b, 0, qi) of the function
  (batch, node, token) ↦ Σ_o (a token · v token o · gate token o) · W o node + bias node.
-/
import proofs.«182150_j66503273612026_2_alg».proof.Proof.K1Softmax
import proofs.«182150_j66503273612026_2_alg».proof.Proof.K1Tile
import proofs.«182150_j66503273612026_2_alg».proof.Proof.K1Reads

noncomputable section

open scoped BigOperators

namespace Cert.KernelIdeal.Val1

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

/-- The one store covers the buffer and every load reads a whole block: what a point leaves is the payload of its blocks. -/
theorem out1_6_eq {F : FTy → Type} [FloatOps F] (i : grid1.Coords) (x0 : Vec F S1x256x1024 .bf16) (x1 : Vec F S1x2048x1024 .bf16)
    (x2 x3 : Vec F S1x256x1024 .bf16) (x4 : Vec F S1024x1024 .bf16) (x5 : Vec F S1x1024 .f32) :
    out1_6 (F := F) i x0 x1 x2 x3 x4 x5 = k1_pay1 (k1_pay2 i x0 x1 x2 x3) x4 x5 := by
  unfold out1_6
  rw [View.canon_unit_zero hz3]
  simp only [View.ld_unit_zero (S := S1x256x1024) hz3, View.ld_unit_zero (S := S1x2048x1024) hz3,
    View.ld_unit_zero (S := S1024x1024) hz2, View.ld_unit_zero (S := S1x1024) hz2]

variable (V : (c : Dev nD) → (b : Ref sig .tc) → Buf (Elt Ideal) ((c : Thread nD τ).loc b))

/-- The result array as one function of the six arrays the region finds: at (batch, node, token), the specification's
    result at (batch, token, node). -/
abbrev resultFn (c : Dev nD) : S8x1024x2048.Idx → Elt Ideal .f32 := fun j =>
  Cert.Spec.out Cert.Spec.scaleK (fun b t o => V c main_v6_2 (ix3 b t o)) (fun b t o => V c main_v6_3 (ix3 b t o))
    (fun b t o => V c main_v6_0 (ix3 b t o)) (fun b t o => V c main_v6_1 (ix3 b t o)) (fun o n => V c main_v5 (ix2 o n))
    (fun n => V c main_v2 (ix2 0 n)) (j 0) (j 2) (j 1)

/-- WHAT POINT t WRITES BACK is block t of that function. -/
theorem flushed6_eq (c : Dev nD) (t : Fin cfg1.N) :
    (dat1 V c).flushed 6 t = ((cfg1.win 6).blk t).view.read (Elt Ideal) (resultFn V c) := by
  show (cfg1.win 6).cut (grid1.coords t) ((dat1 V c).after 6 t) = _
  rw [after1_6, out1_6_eq (grid1.coords t) (iblk1 V c 0 t) (iblk1 V c 1 t) (iblk1 V c 2 t) (iblk1 V c 3 t) (iblk1 V c 4 t) (iblk1 V c 5 t)]
  funext j
  obtain ⟨u, n, r, rfl⟩ : ∃ (u : Fin 1) (n : Fin 1024) (r : Fin 256), j = ix3 u n r := ⟨j 0, j 1, j 2, eq_ix3 j⟩
  obtain rfl : u = 0 := Fin.ext (by omega)
  have hq : (grid1.coords t 1).val < 8 := (grid1.coords t 1).isLt
  have hbt : (grid1.coords t 0).val < 8 := (grid1.coords t 0).isLt
  show k1_pay1 (k1_pay2 (grid1.coords t) (iblk1 V c 0 t) (iblk1 V c 1 t) (iblk1 V c 2 t) (iblk1 V c 3 t)) (iblk1 V c 4 t) (iblk1 V c 5 t) (ix3 0 n r)
    = resultFn V c (((cfg1.win 6).blk t).view.emb (ix3 0 n r))
  -- the entry's place in the result: batch b, node n, token qi·256 + r
  rw [out_block_emb t n r ⟨(grid1.coords t 0).val, hbt⟩ ⟨r.val + 256 * (grid1.coords t 1).val, by omega⟩ rfl rfl]
  exact tile_apply_of (grid1.coords t) (iblk1 V c 0 t) (iblk1 V c 1 t) (iblk1 V c 2 t) (iblk1 V c 3 t) (iblk1 V c 4 t) (iblk1 V c 5 t)
    (fun r => by have := r.isLt; omega)
    (fun r o => K1.pay2_apply (grid1.coords t) (iblk1 V c 0 t) (iblk1 V c 1 t) (iblk1 V c 2 t) (iblk1 V c 3 t) r o)
    (fun b t o => V c main_v6_2 (ix3 b t o)) (fun b t o => V c main_v6_3 (ix3 b t o)) (fun b t o => V c main_v6_0 (ix3 b t o))
    (fun b t o => V c main_v6_1 (ix3 b t o)) (fun o n => V c main_v5 (ix2 o n)) (fun n => V c main_v2 (ix2 0 n))
    ⟨(grid1.coords t 0).val, hbt⟩ n r ⟨r.val + 256 * (grid1.coords t 1).val, by omega⟩ rfl
    (fun d => q_block_apply V c t r d _ _ rfl rfl) (fun j d => k_block_apply V c t j d _ rfl)
    (fun o => v_block_apply V c t r o _ _ rfl rfl) (fun o => g_block_apply V c t r o _ _ rfl rfl)
    (fun o => w_block_apply V c t o n) (bias_block_apply V c t n)

end Cert.KernelIdeal.Val1

end
-- ==== Proof.K1Array.lean ====
/-
  The result array after the region: the 64 blocks tile it, so it is the one function every point writes a block of.

  The block of point (b, qi) holds batch b, every node, tokens qi·256 … qi·256 + 255; the entry at (batch, node, token)
  is therefore in the block of the point (batch, token / 256), and every point writes back. With each point writing its
  block of the same function of the region's arrays, the array ends holding that function.
-/
import proofs.«182150_j66503273612026_2_alg».proof.Proof.K1Block

noncomputable section

open scoped BigOperators

namespace Cert.KernelIdeal.Val1

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Every pair (batch, token tile) is some point's block index. -/
theorem idx_onto6 : ∀ (q0 : Fin 8) (q2 : Fin 8), ∃ t : Fin cfg1.N, win1_6.index t = ![q0.val, 0, q2.val] :=
  (by decide +kernel : ∀ (q0 : Fin 8) (q2 : Fin 8), ∃ t : Fin grid1.N, win1_6.index t = ![q0.val, 0, q2.val])

/-- An index of the result is in point t's block iff each coordinate is in the block's range on its axis. -/
theorem mem_blk6 (t : Fin cfg1.N) (i : S8x1024x2048.Idx) :
    i ∈ ((cfg1.win 6).blk t).view.set ↔ ∀ a : Fin 3, win1_6.index t a * S1x1024x256.size a ≤ (i a).val
      ∧ (i a).val < win1_6.index t a * S1x1024x256.size a + S1x1024x256.size a := by
  show i ∈ ((View.whole main_v7).slice (win1_6.rect t)).set ↔ _
  rw [View.set_slice_whole, Rect.mem_set_unit]
  exact Iff.rfl

/-- THE COVER: (batch, node, token) is in the block of the point (batch, token / 256), which writes back. -/
theorem cover6 (i : S8x1024x2048.Idx) :
    ∃ t : Fin cfg1.N, (cfg1.win 6).flush t = true ∧ i ∈ ((cfg1.win 6).blk t).view.set := by
  have hi0 : (i 0).val < 8 := (i 0).isLt
  have hi1 : (i 1).val < 1024 := (i 1).isLt
  have hi2 : (i 2).val < 2048 := (i 2).isLt
  obtain ⟨t, ht⟩ := idx_onto6 ⟨(i 0).val, hi0⟩ ⟨(i 2).val / 256, by omega⟩
  have q0 : win1_6.index t (0 : Fin 3) = (i 0).val := congrFun ht 0
  have q1 : win1_6.index t (1 : Fin 3) = 0 := congrFun ht 1
  have q2 : win1_6.index t (2 : Fin 3) = (i 2).val / 256 := congrFun ht 2
  refine ⟨t, flush1_6 t, ?_⟩
  rw [mem_blk6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 1024 ≤ (i 1).val ∧ (i 1).val < win1_6.index t (1 : Fin 3) * 1024 + 1024; omega
  | ⟨2, _⟩ => show win1_6.index t (2 : Fin 3) * 256 ≤ (i 2).val ∧ (i 2).val < win1_6.index t (2 : Fin 3) * 256 + 256; omega

/-- THE RESULT ARRAY after the region, as the specification's function of the six arrays the region finds. -/
theorem arr6 (c : Dev nD) : (dat1 (F := Ideal) V c).arrAt 6 cfg1.N = fun j =>
    Cert.Spec.out Cert.Spec.scaleK (fun b t o => V c main_v6_2 (ix3 b t o)) (fun b t o => V c main_v6_3 (ix3 b t o))
      (fun b t o => V c main_v6_0 (ix3 b t o)) (fun b t o => V c main_v6_1 (ix3 b t o)) (fun o n => V c main_v5 (ix2 o n))
      (fun n => V c main_v2 (ix2 0 n)) (j 0) (j 2) (j 1) :=
  (dat1 V c).arrAt_eq_of_cover 6 (resultFn V c) (fun t _ => flushed6_eq V c t) cover6

end Cert.KernelIdeal.Val1

end
-- ==== Proof.KWhole.lean ====
/-
  The kernel program's result as ONE function of its nine arguments.

  The second region's output array is the output projection of softmax-diagonal × value × gate of ITS entry
  arrays; those are the first region's four output arrays (query, key, value, gate), each a projection of ITS
  entry arrays followed by silu; and those are the arguments, the weights unchanged by the rounding to bfloat16
  (the identity at the ideal values) and the biases re-laid as rows. Substituting one into the next gives the
  specification; the closing host operation inserts the unit axis on both sides alike.
-/
import proofs.«182150_j66503273612026_2_alg».proof.Proof.KPlumb
import proofs.«182150_j66503273612026_2_alg».proof.Proof.K0Arrays
import proofs.«182150_j66503273612026_2_alg».proof.Proof.K1Array
import proofs.«182150_j66503273612026_2_alg».proof.Proof.Spec

noncomputable section

namespace Cert.KernelIdeal.Whole

open Cert.KernelIdeal Cert.KernelIdeal.Gen Cert.KernelIdeal.GenP
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The result buffer's final contents: the specification's array of the launch contents of the nine arguments,
    with the unit axis inserted. -/
theorem result_eq (c : Dev nD) :
    W4 m ρ c (Proc.devRef .tc main_v8)
      = broadcastInDim (s := S8x1024x2048) S8x1x1024x2048 ![0, 2, 3] bcast_S8x1024x2048_S8x1x1024x2048_0_2_3
          (Cert.Spec.resultArr Cert.Spec.scaleK (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5)) (m ((c : Thread nD τ).loc main_arg6))
            (m ((c : Thread nD τ).loc main_arg7)) (m ((c : Thread nD τ).loc main_arg8))) := by
  rw [W4_v8, W3_v7, Val1.arr6 (V2 m ρ) c]
  refine congrArg (broadcastInDim (s := S8x1024x2048) S8x1x1024x2048 ![0, 2, 3] bcast_S8x1024x2048_S8x1x1024x2048_0_2_3) ?_
  have hv : (fun (b : Fin 8) (t : Fin 2048) (o : Fin 1024) => V2 m ρ c main_v6_0 (ix3 b t o))
      = fun b t o => Cert.Spec.proj (fun b t d => m ((c : Thread nD τ).loc main_arg0) (ix3 b t d)) (fun d e => m ((c : Thread nD τ).loc main_arg1) (ix2 d e)) (fun e => m ((c : Thread nD τ).loc main_arg2) (ix1 e)) b t (Cert.Spec.lo o) := by
    funext b t o
    rw [V2_v, Val0.arr7 (V1 m ρ) c]
    show Cert.Spec.proj (fun b t d => V1 m ρ c main_arg0 (ix3 b t d)) (fun d e => V1 m ρ c main_v3 (ix2 d e)) (fun e => V1 m ρ c main_v0 (ix2 0 e)) b t (Cert.Spec.lo o) = _
    rw [V1_arg0, V1_v3, show (fun e : Fin 2048 => V1 m ρ c main_v0 (ix2 0 e)) = fun e => m ((c : Thread nD τ).loc main_arg2) (ix1 e) from funext fun e => V1_v0 m ρ c e]
  have hg : (fun (b : Fin 8) (t : Fin 2048) (o : Fin 1024) => V2 m ρ c main_v6_1 (ix3 b t o))
      = fun b t o => Cert.Spec.proj (fun b t d => m ((c : Thread nD τ).loc main_arg0) (ix3 b t d)) (fun d e => m ((c : Thread nD τ).loc main_arg1) (ix2 d e)) (fun e => m ((c : Thread nD τ).loc main_arg2) (ix1 e)) b t (Cert.Spec.hi o) := by
    funext b t o
    rw [V2_g, Val0.arr8 (V1 m ρ) c]
    show Cert.Spec.proj (fun b t d => V1 m ρ c main_arg0 (ix3 b t d)) (fun d e => V1 m ρ c main_v3 (ix2 d e)) (fun e => V1 m ρ c main_v0 (ix2 0 e)) b t (Cert.Spec.hi o) = _
    rw [V1_arg0, V1_v3, show (fun e : Fin 2048 => V1 m ρ c main_v0 (ix2 0 e)) = fun e => m ((c : Thread nD τ).loc main_arg2) (ix1 e) from funext fun e => V1_v0 m ρ c e]
  have hq : (fun (b : Fin 8) (t : Fin 2048) (o : Fin 1024) => V2 m ρ c main_v6_2 (ix3 b t o))
      = Cert.Spec.qk (Cert.Spec.proj (fun b t d => m ((c : Thread nD τ).loc main_arg0) (ix3 b t d)) (fun d o => m ((c : Thread nD τ).loc main_arg3) (ix2 d o)) (fun o => m ((c : Thread nD τ).loc main_arg4) (ix1 o)))
          (fun r o => m ((c : Thread nD τ).loc main_arg5) (ix2 r o)) (fun r o => m ((c : Thread nD τ).loc main_arg6) (ix2 r o)) 0 := by
    funext b t o
    rw [V2_q, Val0.arr9 (V1 m ρ) c]
    show Cert.Spec.qk (Cert.Spec.proj (fun b t d => V1 m ρ c main_arg0 (ix3 b t d)) (fun d o => V1 m ρ c main_v4 (ix2 d o)) (fun o => V1 m ρ c main_v1 (ix2 0 o)))
      (fun r o => V1 m ρ c main_arg5 (ix2 r o)) (fun r o => V1 m ρ c main_arg6 (ix2 r o)) 0 b t o = _
    rw [V1_arg0, V1_v4, V1_arg5, V1_arg6, show (fun o : Fin 1024 => V1 m ρ c main_v1 (ix2 0 o)) = fun o => m ((c : Thread nD τ).loc main_arg4) (ix1 o) from funext fun o => V1_v1 m ρ c o]
  have hk : (fun (b : Fin 8) (t : Fin 2048) (o : Fin 1024) => V2 m ρ c main_v6_3 (ix3 b t o))
      = Cert.Spec.qk (Cert.Spec.proj (fun b t d => m ((c : Thread nD τ).loc main_arg0) (ix3 b t d)) (fun d o => m ((c : Thread nD τ).loc main_arg3) (ix2 d o)) (fun o => m ((c : Thread nD τ).loc main_arg4) (ix1 o)))
          (fun r o => m ((c : Thread nD τ).loc main_arg5) (ix2 r o)) (fun r o => m ((c : Thread nD τ).loc main_arg6) (ix2 r o)) 1 := by
    funext b t o
    rw [V2_k, Val0.arr10 (V1 m ρ) c]
    show Cert.Spec.qk (Cert.Spec.proj (fun b t d => V1 m ρ c main_arg0 (ix3 b t d)) (fun d o => V1 m ρ c main_v4 (ix2 d o)) (fun o => V1 m ρ c main_v1 (ix2 0 o)))
      (fun r o => V1 m ρ c main_arg5 (ix2 r o)) (fun r o => V1 m ρ c main_arg6 (ix2 r o)) 1 b t o = _
    rw [V1_arg0, V1_v4, V1_arg5, V1_arg6, show (fun o : Fin 1024 => V1 m ρ c main_v1 (ix2 0 o)) = fun o => m ((c : Thread nD τ).loc main_arg4) (ix1 o) from funext fun o => V1_v1 m ρ c o]
  have hW : (fun (o n : Fin 1024) => V2 m ρ c main_v5 (ix2 o n)) = fun o n => m ((c : Thread nD τ).loc main_arg7) (ix2 o n) := by
    rw [V2_v5, V1_v5]
  have hb : (fun (n : Fin 1024) => V2 m ρ c main_v2 (ix2 0 n)) = fun n => m ((c : Thread nD τ).loc main_arg8) (ix1 n) := by
    funext n; rw [V2_v2, V1_v2]
  unfold Cert.Spec.resultArr Cert.Spec.result
  rw [hq, hk, hv, hg, hW, hb]
  rfl

end Cert.KernelIdeal.Whole

end
-- ==== Proof.RefHidden.lean ====
/-
  The reference's hidden activation and its two halves.

  The first projection of the reference, `x · W_h + b_h` followed by `u · (1 / (1 + exp (−u)))`, read at one index
  is the specification's `proj`: the contraction is the sum over the 1024 input features, the bias is broadcast
  along batch and token, and the written-out logistic is the extended reals' logistic by definition. The two slices
  of the 2048 columns are the value (columns `o`) and the gate (columns `o + 1024`).
-/
import proofs.«182150_j66503273612026_2_alg».proof.Proof.Gen.ReferenceIdeal.Read
import proofs.«182150_j66503273612026_2_alg».proof.Proof.Spec

noncomputable section

open scoped BigOperators

namespace Cert.RefValue

open Idealize.ShloMosaic Idealize.ShloMosaic.ValueIdx Cert.ReferenceIdeal Cert.ReferenceIdeal.Gen Cert.ReferenceIdeal.Read

/-- The hidden activation before the split: at (b, t, e) it is `silu (Σ_d x b t d · W_h d e + b_h e)`. The program
    spells the logistic as `1 / (1 + exp (−u))`, which is the extended reals' logistic by definition. -/
theorem val_main_v4_eq (x0 : (⟨S8x2048x1024, .f32⟩ : BufTy).Contents (Elt Ideal)) (x1 : (⟨S1024x2048, .f32⟩ : BufTy).Contents (Elt Ideal)) (x2 : (⟨S2048, .f32⟩ : BufTy).Contents (Elt Ideal)) :
    val_main_v4 (F := Ideal) x0 x1 x2
      = fun j => Cert.Spec.proj (fun b t d => x0 (ix3 b t d)) (fun d e => x1 (ix2 d e)) (fun e => x2 (ix1 e)) (j 0) (j 1) (j 2) := by
  funext i
  obtain ⟨b, t, e, rfl⟩ : ∃ (b : Fin 8) (t : Fin 2048) (e : Fin 2048), i = ix3 b t e := ⟨i 0, i 1, i 2, eq_ix3 i⟩
  rw [val_main_v4_apply, val_main_call0_v5_apply, val_main_call0_v4_apply, val_main_call0_cst_0_apply, val_main_call0_v3_apply,
    val_main_call0_v2_apply, val_main_call0_cst_apply, val_main_call0_v1_apply, val_main_call0_v0_apply, val_main_v3_apply,
    val_main_v0_apply, val_main_v2_apply, val_main_v1_apply]
  have e1 : ∀ k : Fin 1024, lidx_main_v0 (ix3 b t e) k = ix3 b t k := fun k => funext fun a => by
    match a with | ⟨0, _⟩ => rfl | ⟨1, _⟩ => rfl | ⟨2, _⟩ => rfl
  have e2 : ∀ k : Fin 1024, ridx_main_v0 (ix3 b t e) k = ix2 k e := fun k => funext fun a => by
    match a with | ⟨0, _⟩ => rfl | ⟨1, _⟩ => rfl
  have e3 : idx_main_v1 (idx_main_v2 (ix3 b t e)) = ix1 e := funext fun a => by
    match a with | ⟨0, _⟩ => rfl
  simp only [Ideal.mulf_def, Ideal.addf_def, Ideal.hostDivf_def, Ideal.hostUnary_exp_def, Ideal.hostNegf_def, Ideal.negf_def,
    Ideal.ofBits_def, Cert.Consts.ofBits_one, e1, e2, e3]
  rfl

/-- The value: the lower half of the hidden activation's columns. -/
theorem val_main_v5_eq (x0 : (⟨S8x2048x1024, .f32⟩ : BufTy).Contents (Elt Ideal)) (x1 : (⟨S1024x2048, .f32⟩ : BufTy).Contents (Elt Ideal)) (x2 : (⟨S2048, .f32⟩ : BufTy).Contents (Elt Ideal)) :
    val_main_v5 (F := Ideal) x0 x1 x2
      = fun j => Cert.Spec.proj (fun b t d => x0 (ix3 b t d)) (fun d e => x1 (ix2 d e)) (fun e => x2 (ix1 e)) (j 0) (j 1) (Cert.Spec.lo (j 2)) := by
  funext i
  obtain ⟨b, t, o, rfl⟩ : ∃ (b : Fin 8) (t : Fin 2048) (o : Fin 1024), i = ix3 b t o := ⟨i 0, i 1, i 2, eq_ix3 i⟩
  rw [val_main_v5_apply, val_main_v4_eq]
  have e : idx_main_v5 (ix3 b t o) = ix3 b t (Cert.Spec.lo o) := funext fun a => by
    match a with | ⟨0, _⟩ => rfl | ⟨1, _⟩ => rfl | ⟨2, _⟩ => rfl
  rw [e]

/-- The gate: the upper half of the hidden activation's columns. -/
theorem val_main_v6_eq (x0 : (⟨S8x2048x1024, .f32⟩ : BufTy).Contents (Elt Ideal)) (x1 : (⟨S1024x2048, .f32⟩ : BufTy).Contents (Elt Ideal)) (x2 : (⟨S2048, .f32⟩ : BufTy).Contents (Elt Ideal)) :
    val_main_v6 (F := Ideal) x0 x1 x2
      = fun j => Cert.Spec.proj (fun b t d => x0 (ix3 b t d)) (fun d e => x1 (ix2 d e)) (fun e => x2 (ix1 e)) (j 0) (j 1) (Cert.Spec.hi (j 2)) := by
  funext i
  obtain ⟨b, t, o, rfl⟩ : ∃ (b : Fin 8) (t : Fin 2048) (o : Fin 1024), i = ix3 b t o := ⟨i 0, i 1, i 2, eq_ix3 i⟩
  rw [val_main_v6_apply, val_main_v4_eq]
  have e : idx_main_v6 (ix3 b t o) = ix3 b t (Cert.Spec.hi o) := funext fun a => Fin.ext (by
    match a with
    | ⟨0, _⟩ => rfl
    | ⟨1, _⟩ => rfl
    | ⟨2, _⟩ => show 1024 + o.val = o.val + 1024; omega)
  rw [e]

end Cert.RefValue

end
-- ==== Proof.RefQK.lean ====
/-
  The reference's query and key.

  The second projection `z = silu (x · W_qk + b_qk)` is the specification's `proj`; the reference stacks
  `z · γ_r + β_r` for `r = 0, 1` along a new axis of a [8, 2048, 2, 1024] array, and takes the query and the key as
  its two rows, each reshaped to [8, 2048, 1024]: the reshape drops a unit axis, so row-major position is unchanged and
  the coordinates (b, t, o) read the pair at (b, t, r, o).
-/
import proofs.«182150_j66503273612026_2_alg».proof.Proof.Gen.ReferenceIdeal.Read
import proofs.«182150_j66503273612026_2_alg».proof.Proof.Spec

noncomputable section

open scoped BigOperators

namespace Cert.RefValue

open Idealize.ShloMosaic Idealize.ShloMosaic.ValueIdx Cert.ReferenceIdeal Cert.ReferenceIdeal.Gen Cert.ReferenceIdeal.Read

/-- The second projection: at (b, t, o) it is `silu (Σ_d x b t d · W_qk d o + b_qk o)`. -/
theorem val_main_v11_eq (x0 : (⟨S8x2048x1024, .f32⟩ : BufTy).Contents (Elt Ideal)) (x3 : (⟨S1024x1024, .f32⟩ : BufTy).Contents (Elt Ideal)) (x4 : (⟨S1024, .f32⟩ : BufTy).Contents (Elt Ideal)) :
    val_main_v11 (F := Ideal) x0 x3 x4
      = fun j => Cert.Spec.proj (fun b t d => x0 (ix3 b t d)) (fun d o => x3 (ix2 d o)) (fun o => x4 (ix1 o)) (j 0) (j 1) (j 2) := by
  funext i
  obtain ⟨b, t, o, rfl⟩ : ∃ (b : Fin 8) (t : Fin 2048) (o : Fin 1024), i = ix3 b t o := ⟨i 0, i 1, i 2, eq_ix3 i⟩
  rw [val_main_v11_apply, val_main_call1_v5_apply, val_main_call1_v4_apply, val_main_call1_cst_0_apply, val_main_call1_v3_apply,
    val_main_call1_v2_apply, val_main_call1_cst_apply, val_main_call1_v1_apply, val_main_call1_v0_apply, val_main_v10_apply,
    val_main_v7_apply, val_main_v9_apply, val_main_v8_apply]
  have e1 : ∀ k : Fin 1024, lidx_main_v7 (ix3 b t o) k = ix3 b t k := fun k => funext fun a => by
    match a with | ⟨0, _⟩ => rfl | ⟨1, _⟩ => rfl | ⟨2, _⟩ => rfl
  have e2 : ∀ k : Fin 1024, ridx_main_v7 (ix3 b t o) k = ix2 k o := fun k => funext fun a => by
    match a with | ⟨0, _⟩ => rfl | ⟨1, _⟩ => rfl
  have e3 : idx_main_v8 (idx_main_v9 (ix3 b t o)) = ix1 o := funext fun a => by
    match a with | ⟨0, _⟩ => rfl
  simp only [Ideal.mulf_def, Ideal.addf_def, Ideal.hostDivf_def, Ideal.hostUnary_exp_def, Ideal.hostNegf_def, Ideal.negf_def,
    Ideal.ofBits_def, Cert.Consts.ofBits_one, e1, e2, e3]
  rfl

/-- The stacked pair: at (b, t, r, o) it is `z b t o · γ r o + β r o`. -/
theorem val_main_v19_eq (x0 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 x6 : (⟨S2x1024, .f32⟩ : BufTy).Contents (Elt Ideal)) :
    val_main_v19 (F := Ideal) x0 x3 x4 x5 x6
      = fun j => Cert.Spec.qk (Cert.Spec.proj (fun b t d => x0 (ix3 b t d)) (fun d o => x3 (ix2 d o)) (fun o => x4 (ix1 o))) (fun r o => x5 (ix2 r o)) (fun r o => x6 (ix2 r o)) (j 2) (j 0) (j 1) (j 3) := by
  funext i
  obtain ⟨b, t, r, o, rfl⟩ : ∃ (b : Fin 8) (t : Fin 2048) (r : Fin 2) (o : Fin 1024), i = ix4 b t r o :=
    ⟨i 0, i 1, i 2, i 3, eq_ix4 i⟩
  rw [val_main_v19_apply, val_main_v16_apply, val_main_v14_apply, val_main_v12_apply, val_main_v15_apply, val_main_v13_apply,
    val_main_v18_apply, val_main_v17_apply, val_main_v11_eq]
  have e1 : idx_main_v12 (idx_main_v14 (ix4 b t r o)) = ix3 b t o := funext fun a => by
    match a with | ⟨0, _⟩ => rfl | ⟨1, _⟩ => rfl | ⟨2, _⟩ => rfl
  have e2 : idx_main_v13 (idx_main_v15 (ix4 b t r o)) = ix2 r o := funext fun a => by
    match a with | ⟨0, _⟩ => rfl | ⟨1, _⟩ => rfl
  have e3 : idx_main_v17 (idx_main_v18 (ix4 b t r o)) = ix2 r o := funext fun a => by
    match a with | ⟨0, _⟩ => rfl | ⟨1, _⟩ => rfl
  simp only [Ideal.mulf_def, Ideal.addf_def, e1, e2, e3]
  rfl

/-- Row-major position ((b · 2048 + t) · 1024 + o) of a [8, 2048, 1024] array, read back as coordinates of [8, 2048, 1, 1024]. -/
theorem unflatten (b : Fin 8) (t : Fin 2048) (o : Fin 1024) :
    ((b.val * 2048 + t.val) * 1024 + o.val) / 2097152 = b.val ∧ ((b.val * 2048 + t.val) * 1024 + o.val) / 1024 % 2048 = t.val
      ∧ ((b.val * 2048 + t.val) * 1024 + o.val) % 1024 = o.val := by
  have hb := b.isLt; have ht := t.isLt; have ho := o.isLt
  omega

/-- The query: row 0 of the pair. -/
theorem val_main_v21_eq (x0 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 x6 : (⟨S2x1024, .f32⟩ : BufTy).Contents (Elt Ideal)) :
    val_main_v21 (F := Ideal) x0 x3 x4 x5 x6
      = fun j => Cert.Spec.qk (Cert.Spec.proj (fun b t d => x0 (ix3 b t d)) (fun d o => x3 (ix2 d o)) (fun o => x4 (ix1 o))) (fun r o => x5 (ix2 r o)) (fun r o => x6 (ix2 r o)) 0 (j 0) (j 1) (j 2) := by
  funext i
  obtain ⟨b, t, o, rfl⟩ : ∃ (b : Fin 8) (t : Fin 2048) (o : Fin 1024), i = ix3 b t o := ⟨i 0, i 1, i 2, eq_ix3 i⟩
  rw [val_main_v21_apply, val_main_v20_apply, val_main_v19_eq]
  have e : idx_main_v20 (idx_main_v21 (ix3 b t o)) = ix4 b t (0 : Fin 2) o := funext fun a => Fin.ext (by
    match a with
    | ⟨0, _⟩ => exact (unflatten b t o).1
    | ⟨1, _⟩ => exact (unflatten b t o).2.1
    | ⟨2, _⟩ => rfl
    | ⟨3, _⟩ => exact (unflatten b t o).2.2)
  rw [e]

/-- The key: row 1 of the pair. -/
theorem val_main_v23_eq (x0 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 x6 : (⟨S2x1024, .f32⟩ : BufTy).Contents (Elt Ideal)) :
    val_main_v23 (F := Ideal) x0 x3 x4 x5 x6
      = fun j => Cert.Spec.qk (Cert.Spec.proj (fun b t d => x0 (ix3 b t d)) (fun d o => x3 (ix2 d o)) (fun o => x4 (ix1 o))) (fun r o => x5 (ix2 r o)) (fun r o => x6 (ix2 r o)) 1 (j 0) (j 1) (j 2) := by
  funext i
  obtain ⟨b, t, o, rfl⟩ : ∃ (b : Fin 8) (t : Fin 2048) (o : Fin 1024), i = ix3 b t o := ⟨i 0, i 1, i 2, eq_ix3 i⟩
  rw [val_main_v23_apply, val_main_v22_apply, val_main_v19_eq]
  have e : idx_main_v22 (idx_main_v23 (ix3 b t o)) = ix4 b t (1 : Fin 2) o := funext fun a => Fin.ext (by
    match a with
    | ⟨0, _⟩ => exact (unflatten b t o).1
    | ⟨1, _⟩ => exact (unflatten b t o).2.1
    | ⟨2, _⟩ => rfl
    | ⟨3, _⟩ => exact (unflatten b t o).2.2)
  rw [e]

end Cert.RefValue

end
-- ==== Proof.RefScore.lean ====
/-
  The reference's scores.

  The batched product `q · kᵀ` contracts the 1024 features of query `i` and key `j` of one batch; the reference
  then divides by `sqrt 1024.0`, the square root applied to the literal and never evaluated: the specification's
  `scaleR`.
-/
import proofs.«182150_j66503273612026_2_alg».proof.Proof.RefQK

noncomputable section

open scoped BigOperators

namespace Cert.RefValue

open Idealize.ShloMosaic Idealize.ShloMosaic.ValueIdx Cert.ReferenceIdeal Cert.ReferenceIdeal.Gen Cert.ReferenceIdeal.Read

/-- The scores: at (b, i, j) the inner product of query `i` and key `j` of batch `b`, divided by the square root of
    the literal 1024 — the specification's `score` at the reference's scaling. -/
theorem val_main_v27_eq (x0 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 x6 : (⟨S2x1024, .f32⟩ : BufTy).Contents (Elt Ideal)) :
    val_main_v27 (F := Ideal) x0 x3 x4 x5 x6
      = fun j => (Cert.Spec.score Cert.Spec.scaleR (Cert.Spec.qk (Cert.Spec.proj (fun b t d => x0 (ix3 b t d)) (fun d o => x3 (ix2 d o)) (fun o => x4 (ix1 o))) (fun r o => x5 (ix2 r o)) (fun r o => x6 (ix2 r o)) 0) (Cert.Spec.qk (Cert.Spec.proj (fun b t d => x0 (ix3 b t d)) (fun d o => x3 (ix2 d o)) (fun o => x4 (ix1 o))) (fun r o => x5 (ix2 r o)) (fun r o => x6 (ix2 r o)) 1)) (j 0) (j 1) (j 2) := by
  funext i
  obtain ⟨b, p, q, rfl⟩ : ∃ (b : Fin 8) (p q : Fin 2048), i = ix3 b p q := ⟨i 0, i 1, i 2, eq_ix3 i⟩
  rw [val_main_v27_apply, val_main_v24_apply, val_main_v26_apply, val_main_v25_apply, val_main_cst_apply, val_main_v21_eq,
    val_main_v23_eq]
  have e1 : ∀ k : Fin 1024, lidx_main_v24 (ix3 b p q) k = ix3 b p k := fun k => funext fun a => by
    match a with | ⟨0, _⟩ => rfl | ⟨1, _⟩ => rfl | ⟨2, _⟩ => rfl
  have e2 : ∀ k : Fin 1024, ridx_main_v24 (ix3 b p q) k = ix3 b q k := fun k => funext fun a => by
    match a with | ⟨0, _⟩ => rfl | ⟨1, _⟩ => rfl | ⟨2, _⟩ => rfl
  simp only [Ideal.hostDivf_def, Ideal.hostUnary_sqrt_def, Ideal.ofBits_def, e1, e2]
  rfl

end Cert.RefValue

end
-- ==== Proof.RefSoftmax.lean ====
/-
  The reference's row softmax of the scores.

  The softmax along the key axis: the row maximum `M` (a maximum-reduce from `-∞`, then one more maximum with
  `-∞`), the exponentials of the differences `s − M`, their row sum from zero, and the quotient. At an index
  (b, i, j) this is the specification's `softmaxAt` of row `i` of batch `b`'s scores at `j`, with `M` the
  supremum of the row.
-/
import proofs.«182150_j66503273612026_2_alg».proof.Proof.RefScore

noncomputable section

open scoped BigOperators

namespace Cert.RefValue

open Idealize.ShloMosaic Idealize.ShloMosaic.ValueIdx Cert.ReferenceIdeal Cert.ReferenceIdeal.Gen Cert.ReferenceIdeal.Read

/-- The row maximum: the maximum from `-∞` along the key axis is the supremum of the row; the further maximum with
    `-∞` that the softmax takes changes nothing. -/
theorem val_main_v30_eq (x0 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 x6 : (⟨S2x1024, .f32⟩ : BufTy).Contents (Elt Ideal)) :
    val_main_v30 (F := Ideal) x0 x3 x4 x5 x6
      = fun j => ⨆ q : Fin 2048, (Cert.Spec.score Cert.Spec.scaleR (Cert.Spec.qk (Cert.Spec.proj (fun b t d => x0 (ix3 b t d)) (fun d o => x3 (ix2 d o)) (fun o => x4 (ix1 o))) (fun r o => x5 (ix2 r o)) (fun r o => x6 (ix2 r o)) 0) (Cert.Spec.qk (Cert.Spec.proj (fun b t d => x0 (ix3 b t d)) (fun d o => x3 (ix2 d o)) (fun o => x4 (ix1 o))) (fun r o => x5 (ix2 r o)) (fun r o => x6 (ix2 r o)) 1)) (j 0) (j 1) q := by
  funext i
  obtain ⟨b, p, rfl⟩ : ∃ (b : Fin 8) (p : Fin 2048), i = ix2 b p := ⟨i 0, i 1, eq_ix2 i⟩
  have hR : S8x2048x2048.Reduces [2] S8x2048 := by decide
  have hmax : val_main_v28 (F := Ideal) x0 x3 x4 x5 x6 (ix2 b p) = ⨆ q : Fin 2048, (Cert.Spec.score Cert.Spec.scaleR (Cert.Spec.qk (Cert.Spec.proj (fun b t d => x0 (ix3 b t d)) (fun d o => x3 (ix2 d o)) (fun o => x4 (ix1 o))) (fun r o => x5 (ix2 r o)) (fun r o => x6 (ix2 r o)) 0) (Cert.Spec.qk (Cert.Spec.proj (fun b t d => x0 (ix3 b t d)) (fun d o => x3 (ix2 d o)) (fun o => x4 (ix1 o))) (fun r o => x5 (ix2 r o)) (fun r o => x6 (ix2 r o)) 1)) b p q := by
    unfold val_main_v28 val_main_cst_0
    rw [val_main_v27_eq]
    refine (Ideal.hostReduce_maximumf_single_iSup _ reducesTo_S8x2048x2048_S8x2048_d2 hR h_S_ (ix2 b p)).trans ?_
    refine iSup_congr fun q => ?_
    have e : hR.lift (ix2 b p) q = ix3 b p q := funext fun a => Fin.ext (by
      match a with | ⟨0, _⟩ => rfl | ⟨1, _⟩ => rfl | ⟨2, _⟩ => rfl)
    rw [e]
  rw [val_main_v30_apply, val_main_v29_apply, val_main_cst_1_apply, hmax]
  simp only [Ideal.maximumf_def, Ideal.ofBits_def, Ideal.ofBits_negInf_f32]
  exact max_eq_right bot_le

/-- The shifted exponentials: `exp (s b i j − max_j' s b i j')`. -/
theorem val_main_v34_eq (x0 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 x6 : (⟨S2x1024, .f32⟩ : BufTy).Contents (Elt Ideal)) :
    val_main_v34 (F := Ideal) x0 x3 x4 x5 x6
      = fun j => Ideal.exp ((Cert.Spec.score Cert.Spec.scaleR (Cert.Spec.qk (Cert.Spec.proj (fun b t d => x0 (ix3 b t d)) (fun d o => x3 (ix2 d o)) (fun o => x4 (ix1 o))) (fun r o => x5 (ix2 r o)) (fun r o => x6 (ix2 r o)) 0) (Cert.Spec.qk (Cert.Spec.proj (fun b t d => x0 (ix3 b t d)) (fun d o => x3 (ix2 d o)) (fun o => x4 (ix1 o))) (fun r o => x5 (ix2 r o)) (fun r o => x6 (ix2 r o)) 1)) (j 0) (j 1) (j 2) - ⨆ q : Fin 2048, (Cert.Spec.score Cert.Spec.scaleR (Cert.Spec.qk (Cert.Spec.proj (fun b t d => x0 (ix3 b t d)) (fun d o => x3 (ix2 d o)) (fun o => x4 (ix1 o))) (fun r o => x5 (ix2 r o)) (fun r o => x6 (ix2 r o)) 0) (Cert.Spec.qk (Cert.Spec.proj (fun b t d => x0 (ix3 b t d)) (fun d o => x3 (ix2 d o)) (fun o => x4 (ix1 o))) (fun r o => x5 (ix2 r o)) (fun r o => x6 (ix2 r o)) 1)) (j 0) (j 1) q) := by
  funext i
  obtain ⟨b, p, q, rfl⟩ : ∃ (b : Fin 8) (p q : Fin 2048), i = ix3 b p q := ⟨i 0, i 1, i 2, eq_ix3 i⟩
  rw [val_main_v34_apply, val_main_v33_apply, val_main_v32_apply, val_main_v31_apply, val_main_v27_eq, val_main_v30_eq]
  have e : idx_main_v31 (idx_main_v32 (ix3 b p q)) = ix2 b p := funext fun a => by
    match a with | ⟨0, _⟩ => rfl | ⟨1, _⟩ => rfl
  simp only [Ideal.hostUnary_exp_def, Ideal.subf_def, e]
  rfl

/-- The row softmax: each shifted exponential divided by their sum along the row (the sum starts from the literal
    zero). -/
theorem val_main_v38_eq (x0 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 x6 : (⟨S2x1024, .f32⟩ : BufTy).Contents (Elt Ideal)) :
    val_main_v38 (F := Ideal) x0 x3 x4 x5 x6
      = fun j => Cert.Spec.softmaxAt ((Cert.Spec.score Cert.Spec.scaleR (Cert.Spec.qk (Cert.Spec.proj (fun b t d => x0 (ix3 b t d)) (fun d o => x3 (ix2 d o)) (fun o => x4 (ix1 o))) (fun r o => x5 (ix2 r o)) (fun r o => x6 (ix2 r o)) 0) (Cert.Spec.qk (Cert.Spec.proj (fun b t d => x0 (ix3 b t d)) (fun d o => x3 (ix2 d o)) (fun o => x4 (ix1 o))) (fun r o => x5 (ix2 r o)) (fun r o => x6 (ix2 r o)) 1)) (j 0) (j 1)) (j 2) := by
  funext i
  obtain ⟨b, p, q, rfl⟩ : ∃ (b : Fin 8) (p q : Fin 2048), i = ix3 b p q := ⟨i 0, i 1, i 2, eq_ix3 i⟩
  rw [val_main_v38_apply, val_main_v37_apply, val_main_v36_apply, val_main_v35_apply, val_main_cst_2_apply, val_main_v34_eq]
  have e : idx_main_v36 (idx_main_v37 (ix3 b p q)) = ix2 b p := funext fun a => by
    match a with | ⟨0, _⟩ => rfl | ⟨1, _⟩ => rfl
  have e2 : ∀ k : Fin 2048, idx_main_v35 (ix2 b p) k = ix3 b p k := fun k => funext fun a => by
    match a with | ⟨0, _⟩ => rfl | ⟨1, _⟩ => rfl | ⟨2, _⟩ => rfl
  simp only [Ideal.hostDivf_def, Ideal.ofBits_def, Ideal.ofBits_zero_f32, zero_add, e, e2]
  rfl

end Cert.RefValue

end
-- ==== Proof.RefDiagonal.lean ====
/-
  The reference's `diagonal` read at an index.

  The diagonal of a [8, 2048, 2048] array over its last two axes is taken by a gather whose [2048, 2] start indices are
  two iotas, each passed through the negative-index wrap `select (s < 0, s + 2048, s)`, joined along a new axis. An
  iota's entries are nonnegative, so the wrap is the identity and row `t` of the start indices is (t, t); the gather
  collapses axes 1 and 2 with unit slices there and takes axis 0 whole, so its element at (b, t) is the operand's at
  (b, t, t).
-/
import proofs.«182150_j66503273612026_2_alg».proof.Proof.Gen.ReferenceIdeal.Read

noncomputable section

open scoped BigOperators

namespace Cert.RefValue

open Idealize.ShloMosaic Idealize.ShloMosaic.ValueIdx Cert.ReferenceIdeal Cert.ReferenceIdeal.Gen Cert.ReferenceIdeal.Read

/-- A number below 2048, as a 32-bit word read signed, is itself. -/
theorem toInt_small (t : Fin 2048) : (BitVec.ofNat 32 t.val).toInt = (t.val : Int) := by
  have h := t.isLt
  rw [BitVec.toInt_eq_toNat_of_lt (by rw [BitVec.toNat_ofNat]; omega), BitVec.toNat_ofNat]
  congr 1
  omega

/-- So it is not below zero as a signed word. -/
theorem not_neg (t : Fin 2048) : IntOp.cmpi .slt (BitVec.ofNat 32 t.val) 0#32 = 0#1 := by
  unfold IntOp.cmpi
  show BitVec.ofBool ((BitVec.ofNat 32 t.val).slt 0#32) = 0#1
  have h : (BitVec.ofNat 32 t.val).slt 0#32 = false := by
    rw [BitVec.slt, toInt_small]
    simp
  rw [h]; rfl

section Indices
variable {F : FTy → Type} [FloatOps F]

/-- The first wrapped iota at `t` is `t`: the select's condition `t < 0` is false. -/
theorem wrapped_fst (t : Fin 2048) : val_main_call2_v6 (F := F) (ix1 t) = BitVec.ofNat 32 t.val := by
  rw [val_main_call2_v6_apply, val_main_call2_v3_apply, val_main_call2_v0_apply]
  show Scalar.select (IntOp.cmpi .slt (BitVec.ofNat 32 t.val) _) _ _ = _
  rw [val_main_call2_v2_apply, val_main_call2_c_apply, not_neg, select_zero]

/-- The second wrapped iota at `t` is `t`. -/
theorem wrapped_snd (t : Fin 2048) : val_main_call2_v11 (F := F) (ix1 t) = BitVec.ofNat 32 t.val := by
  rw [val_main_call2_v11_apply, val_main_call2_v8_apply, val_main_call2_v1_apply]
  show Scalar.select (IntOp.cmpi .slt (BitVec.ofNat 32 t.val) _) _ _ = _
  rw [val_main_call2_v7_apply, val_main_call2_c_1_apply, not_neg, select_zero]

/-- Row `t` of the [2048, 2] array of start indices is (t, t): column 0 comes from the first piece of the
    concatenation, column 1 from the second. -/
theorem start_indices (t : Fin 2048) (c : Fin 2) : val_main_call2_v14 (F := F) (ix2 t c) = BitVec.ofNat 32 t.val := by
  unfold val_main_call2_v14
  match c with
  | ⟨0, _⟩ =>
    refine (concatenate_pair_apply_left (1 : Fin S2048x2.rank) _ _ concatenates_S2048x1_S2048x1_S2048x2_d1 (ix2 t ⟨0, by omega⟩) rfl
      (ix2 t (0 : Fin 1)) (fun b => by
        match b with
        | ⟨0, _⟩ => rfl
        | ⟨1, _⟩ => rfl)).trans ?_
    rw [val_main_call2_v12_apply]
    exact wrapped_fst t
  | ⟨1, _⟩ =>
    refine (concatenate_pair_apply_right (1 : Fin S2048x2.rank) _ _ concatenates_S2048x1_S2048x1_S2048x2_d1 (ix2 t ⟨1, by omega⟩) rfl rfl
      (ix2 t (0 : Fin 1)) (fun b hb => by
        match b with
        | ⟨0, _⟩ => rfl
        | ⟨1, _⟩ => exact absurd rfl hb) rfl).trans ?_
    rw [val_main_call2_v13_apply]
    exact wrapped_snd t

end Indices

section Operand
variable (idx : IVec S2048x2 32) (hidx : ∀ (t : Fin 2048) (c : Fin 2), idx (ix2 t c) = BitVec.ofNat 32 t.val) (b : Fin 8) (t : Fin 2048)
include hidx

/-- On the batch axis (an offset axis of full extent, not in the start index map) the operand's coordinate is the
    result's. -/
theorem operand_batch : (gather_S8x2048x2048_S2048x2_S8x2048_0_12_n_n_12_1_811.operandIdx (ix2 b t) idx (0 : Fin 3)).val = b.val := by
  show gather_S8x2048x2048_S2048x2_S8x2048_0_12_n_n_12_1_811.start (ix2 b t) idx (0 : Fin 3) + gather_S8x2048x2048_S2048x2_S8x2048_0_12_n_n_12_1_811.batchCoord (ix2 b t) (0 : Fin 3) + gather_S8x2048x2048_S2048x2_S8x2048_0_12_n_n_12_1_811.offCoord (ix2 b t) (0 : Fin 3) = _
  rw [GatherDims.batchCoord_eq_zero _ _ _ List.not_mem_nil]
  unfold GatherDims.start GatherDims.offCoord
  rw [dif_neg (show ¬ (0 : Fin 3) ∈ gather_S8x2048x2048_S2048x2_S8x2048_0_12_n_n_12_1_811.startIndexMap by decide), dif_pos (show (0 : Fin 3) ∈ gather_S8x2048x2048_S2048x2_S8x2048_0_12_n_n_12_1_811.sKept by decide)]
  show 0 + 0 + b.val = b.val
  omega

/-- On a collapsed axis named by the start index map the operand's coordinate is the start index's component,
    clamped into [0, 2047]: here `t`. -/
theorem operand_collapsed (a : Fin 3) (ha : a ∈ gather_S8x2048x2048_S2048x2_S8x2048_0_12_n_n_12_1_811.startIndexMap) (hc : a ∈ gather_S8x2048x2048_S2048x2_S8x2048_0_12_n_n_12_1_811.collapsedSliceDims)
    (hsz : S8x2048x2048.size a - gather_S8x2048x2048_S2048x2_S8x2048_0_12_n_n_12_1_811.sliceSizes a = 2047) :
    (gather_S8x2048x2048_S2048x2_S8x2048_0_12_n_n_12_1_811.operandIdx (ix2 b t) idx a).val = t.val := by
  show gather_S8x2048x2048_S2048x2_S8x2048_0_12_n_n_12_1_811.start (ix2 b t) idx a + gather_S8x2048x2048_S2048x2_S8x2048_0_12_n_n_12_1_811.batchCoord (ix2 b t) a + gather_S8x2048x2048_S2048x2_S8x2048_0_12_n_n_12_1_811.offCoord (ix2 b t) a = _
  rw [GatherDims.batchCoord_eq_zero _ _ _ List.not_mem_nil,
    GatherDims.offCoord_eq_zero _ _ _ (fun h => ((GatherDims.mem_sKept _ _).mp h).1 hc)]
  unfold GatherDims.start
  rw [dif_pos ha, hsz]
  have hlt : List.idxOf a gather_S8x2048x2048_S2048x2_S8x2048_0_12_n_n_12_1_811.startIndexMap < 2 := List.idxOf_lt_length_iff.2 ha
  have hsi : gather_S8x2048x2048_S2048x2_S8x2048_0_12_n_n_12_1_811.siIdx (ix2 b t) ⟨List.idxOf a gather_S8x2048x2048_S2048x2_S8x2048_0_12_n_n_12_1_811.startIndexMap, List.idxOf_lt_length_iff.2 ha⟩
      = (ix2 t (⟨List.idxOf a gather_S8x2048x2048_S2048x2_S8x2048_0_12_n_n_12_1_811.startIndexMap, hlt⟩ : Fin 2) : S2048x2.Idx) := by
    funext c; refine Fin.ext ?_
    match c with
    | ⟨0, _⟩ => rfl
    | ⟨1, _⟩ => rfl
  rw [hsi, hidx t ⟨_, hlt⟩, toInt_small]
  have := t.isLt
  simp only [Int.toNat_natCast]
  omega

end Operand

/-- The gather with collapsed axes 1 and 2 at start indices whose row `t` is (t, t): the element at (b, t) is the
    operand's at (b, t, t). -/
theorem gather_diag {α : Type} (y : S8x2048x2048.Idx → α) (idx : IVec S2048x2 32)
    (hidx : ∀ (t : Fin 2048) (c : Fin 2), idx (ix2 t c) = BitVec.ofNat 32 t.val) (b : Fin 8) (t : Fin 2048) :
    Host.gather gather_S8x2048x2048_S2048x2_S8x2048_0_12_n_n_12_1_811 y idx (ix2 b t) = y (ix3 b t t) := by
  unfold Host.gather
  refine congrArg y (funext fun a => Fin.ext ?_)
  match a with
  | ⟨0, _⟩ => exact operand_batch idx hidx b t
  | ⟨1, _⟩ => exact operand_collapsed idx hidx b t (1 : Fin 3) (by decide) (by decide) (by decide)
  | ⟨2, _⟩ => exact operand_collapsed idx hidx b t (2 : Fin 3) (by decide) (by decide) (by decide)

/-- The reference's diagonal of a [8, 2048, 2048] array `y`: at (b, t) it is `y (b, t, t)`. -/
theorem diagonal_apply {F : FTy → Type} [FloatOps F] {α : Type} (y : S8x2048x2048.Idx → α) (b : Fin 8) (t : Fin 2048) :
    Host.gather gather_S8x2048x2048_S2048x2_S8x2048_0_12_n_n_12_1_811 y (val_main_call2_v14 (F := F)) (ix2 b t) = y (ix3 b t t) :=
  gather_diag y _ start_indices b t

end Cert.RefValue

end
-- ==== Proof.RefResult.lean ====
/-
  The reference is the specification.

  The diagonal of the row softmax (the gather reads (b, t, t)), broadcast along the 1024 features and multiplied by
  the value and the gate; the output projection with its bias; and the transpose that puts the node axis before the
  token axis. Read at (b, n, t) this is the specification's `result` at the reference's scaling of the scores.
-/
import proofs.«182150_j66503273612026_2_alg».proof.Proof.RefHidden
import proofs.«182150_j66503273612026_2_alg».proof.Proof.RefSoftmax
import proofs.«182150_j66503273612026_2_alg».proof.Proof.RefDiagonal

noncomputable section

open scoped BigOperators

namespace Cert.RefValue

open Idealize.ShloMosaic Idealize.ShloMosaic.ValueIdx Cert.ReferenceIdeal Cert.ReferenceIdeal.Gen Cert.ReferenceIdeal.Read

/-- The diagonal of the softmax: at (b, t) row `t`'s softmax at `t`. -/
theorem val_main_v39_eq (x0 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 x6 : (⟨S2x1024, .f32⟩ : BufTy).Contents (Elt Ideal)) :
    val_main_v39 (F := Ideal) x0 x3 x4 x5 x6
      = fun j => Cert.Spec.diagSoftmax ((Cert.Spec.score Cert.Spec.scaleR (Cert.Spec.qk (Cert.Spec.proj (fun b t d => x0 (ix3 b t d)) (fun d o => x3 (ix2 d o)) (fun o => x4 (ix1 o))) (fun r o => x5 (ix2 r o)) (fun r o => x6 (ix2 r o)) 0) (Cert.Spec.qk (Cert.Spec.proj (fun b t d => x0 (ix3 b t d)) (fun d o => x3 (ix2 d o)) (fun o => x4 (ix1 o))) (fun r o => x5 (ix2 r o)) (fun r o => x6 (ix2 r o)) 1)) (j 0)) (j 1) := by
  funext i
  obtain ⟨b, t, rfl⟩ : ∃ (b : Fin 8) (t : Fin 2048), i = ix2 b t := ⟨i 0, i 1, eq_ix2 i⟩
  unfold val_main_v39
  rw [diagonal_apply, val_main_v38_eq]
  rfl

/-- The gated values: `a b t · v b t o · gate b t o`. -/
theorem val_main_v43_eq (x0 : (⟨S8x2048x1024, .f32⟩ : BufTy).Contents (Elt Ideal)) (x1 : (⟨S1024x2048, .f32⟩ : BufTy).Contents (Elt Ideal)) (x2 : (⟨S2048, .f32⟩ : BufTy).Contents (Elt Ideal)) (x3 : (⟨S1024x1024, .f32⟩ : BufTy).Contents (Elt Ideal)) (x4 : (⟨S1024, .f32⟩ : BufTy).Contents (Elt Ideal)) (x5 x6 : (⟨S2x1024, .f32⟩ : BufTy).Contents (Elt Ideal)) :
    val_main_v43 (F := Ideal) x0 x1 x2 x3 x4 x5 x6
      = fun j => Cert.Spec.diagSoftmax ((Cert.Spec.score Cert.Spec.scaleR (Cert.Spec.qk (Cert.Spec.proj (fun b t d => x0 (ix3 b t d)) (fun d o => x3 (ix2 d o)) (fun o => x4 (ix1 o))) (fun r o => x5 (ix2 r o)) (fun r o => x6 (ix2 r o)) 0) (Cert.Spec.qk (Cert.Spec.proj (fun b t d => x0 (ix3 b t d)) (fun d o => x3 (ix2 d o)) (fun o => x4 (ix1 o))) (fun r o => x5 (ix2 r o)) (fun r o => x6 (ix2 r o)) 1)) (j 0)) (j 1) * (fun b t o => Cert.Spec.proj (fun b t d => x0 (ix3 b t d)) (fun d e => x1 (ix2 d e)) (fun e => x2 (ix1 e)) b t (Cert.Spec.lo o)) (j 0) (j 1) (j 2) * (fun b t o => Cert.Spec.proj (fun b t d => x0 (ix3 b t d)) (fun d e => x1 (ix2 d e)) (fun e => x2 (ix1 e)) b t (Cert.Spec.hi o)) (j 0) (j 1) (j 2) := by
  funext i
  obtain ⟨b, t, o, rfl⟩ : ∃ (b : Fin 8) (t : Fin 2048) (o : Fin 1024), i = ix3 b t o := ⟨i 0, i 1, i 2, eq_ix3 i⟩
  rw [val_main_v43_apply, val_main_v42_apply, val_main_v41_apply, val_main_v40_apply, val_main_v39_eq, val_main_v5_eq, val_main_v6_eq]
  have e : idx_main_v40 (idx_main_v41 (ix3 b t o)) = ix2 b t := funext fun a => by
    match a with | ⟨0, _⟩ => rfl | ⟨1, _⟩ => rfl
  simp only [Ideal.mulf_def, e]
  rfl

/-- The output projection: `Σ_o (a b t · v b t o · gate b t o) · W_out o n + b_out n` at (b, t, n). -/
theorem val_main_v47_eq (x0 : (⟨S8x2048x1024, .f32⟩ : BufTy).Contents (Elt Ideal)) (x1 : (⟨S1024x2048, .f32⟩ : BufTy).Contents (Elt Ideal)) (x2 : (⟨S2048, .f32⟩ : BufTy).Contents (Elt Ideal)) (x3 : (⟨S1024x1024, .f32⟩ : BufTy).Contents (Elt Ideal)) (x4 : (⟨S1024, .f32⟩ : BufTy).Contents (Elt Ideal)) (x5 x6 : (⟨S2x1024, .f32⟩ : BufTy).Contents (Elt Ideal)) (x7 : (⟨S1024x1024, .f32⟩ : BufTy).Contents (Elt Ideal)) (x8 : (⟨S1024, .f32⟩ : BufTy).Contents (Elt Ideal)) :
    val_main_v47 (F := Ideal) x0 x1 x2 x3 x4 x5 x6 x7 x8
      = fun j => Cert.Spec.out Cert.Spec.scaleR (Cert.Spec.qk (Cert.Spec.proj (fun b t d => x0 (ix3 b t d)) (fun d o => x3 (ix2 d o)) (fun o => x4 (ix1 o))) (fun r o => x5 (ix2 r o)) (fun r o => x6 (ix2 r o)) 0) (Cert.Spec.qk (Cert.Spec.proj (fun b t d => x0 (ix3 b t d)) (fun d o => x3 (ix2 d o)) (fun o => x4 (ix1 o))) (fun r o => x5 (ix2 r o)) (fun r o => x6 (ix2 r o)) 1) (fun b t o => Cert.Spec.proj (fun b t d => x0 (ix3 b t d)) (fun d e => x1 (ix2 d e)) (fun e => x2 (ix1 e)) b t (Cert.Spec.lo o)) (fun b t o => Cert.Spec.proj (fun b t d => x0 (ix3 b t d)) (fun d e => x1 (ix2 d e)) (fun e => x2 (ix1 e)) b t (Cert.Spec.hi o)) (fun o n => x7 (ix2 o n)) (fun n => x8 (ix1 n)) (j 0) (j 1) (j 2) := by
  funext i
  obtain ⟨b, t, n, rfl⟩ : ∃ (b : Fin 8) (t : Fin 2048) (n : Fin 1024), i = ix3 b t n := ⟨i 0, i 1, i 2, eq_ix3 i⟩
  rw [val_main_v47_apply, val_main_v44_apply, val_main_v46_apply, val_main_v45_apply, val_main_v43_eq]
  have e1 : ∀ k : Fin 1024, lidx_main_v44 (ix3 b t n) k = ix3 b t k := fun k => funext fun a => by
    match a with | ⟨0, _⟩ => rfl | ⟨1, _⟩ => rfl | ⟨2, _⟩ => rfl
  have e2 : ∀ k : Fin 1024, ridx_main_v44 (ix3 b t n) k = ix2 k n := fun k => funext fun a => by
    match a with | ⟨0, _⟩ => rfl | ⟨1, _⟩ => rfl
  have e3 : idx_main_v45 (idx_main_v46 (ix3 b t n)) = ix1 n := funext fun a => by
    match a with | ⟨0, _⟩ => rfl
  simp only [Ideal.addf_def, e1, e2, e3]
  rfl

/-- THE REFERENCE IS THE SPECIFICATION: its [8, 1024, 2048] result (before the last unit axis is inserted) is the
    transpose of the output projection, the specification's `resultArr` at the reference's scaling. -/
theorem val_main_v48_eq_spec (x0 : (⟨S8x2048x1024, .f32⟩ : BufTy).Contents (Elt Ideal)) (x1 : (⟨S1024x2048, .f32⟩ : BufTy).Contents (Elt Ideal)) (x2 : (⟨S2048, .f32⟩ : BufTy).Contents (Elt Ideal)) (x3 : (⟨S1024x1024, .f32⟩ : BufTy).Contents (Elt Ideal)) (x4 : (⟨S1024, .f32⟩ : BufTy).Contents (Elt Ideal)) (x5 x6 : (⟨S2x1024, .f32⟩ : BufTy).Contents (Elt Ideal)) (x7 : (⟨S1024x1024, .f32⟩ : BufTy).Contents (Elt Ideal)) (x8 : (⟨S1024, .f32⟩ : BufTy).Contents (Elt Ideal)) :
    val_main_v48 (F := Ideal) x0 x1 x2 x3 x4 x5 x6 x7 x8 = Cert.Spec.resultArr Cert.Spec.scaleR x0 x1 x2 x3 x4 x5 x6 x7 x8 := by
  funext i
  obtain ⟨b, n, t, rfl⟩ : ∃ (b : Fin 8) (n : Fin 1024) (t : Fin 2048), i = ix3 b n t := ⟨i 0, i 1, i 2, eq_ix3 i⟩
  rw [val_main_v48_apply, val_main_v47_eq]
  have e : idx_main_v48 (ix3 b n t) = ix3 b t n := funext fun a => by
    match a with | ⟨0, _⟩ => rfl | ⟨1, _⟩ => rfl | ⟨2, _⟩ => rfl
  rw [e]
  rfl

end Cert.RefValue

end
-- ==== Proof.lean ====
/-
  A gated attention unit's forward pass, computed by two pipelined kernels, against its plain array reference.

  The first kernel, per batch and tile of 256 tokens, projects the tokens twice (`silu (x · W + b)`): the 2048-wide
  hidden activation splits into the value and the gate, the 1024-wide one is scaled and shifted into the query and
  the key. The second kernel, per batch and tile of 256 queries, forms the tile's scores against ALL keys of the
  batch, scaled by `2⁻⁵`, and keeps only the diagonal entry of each row's softmax — found by summing the row
  against the mask "column = the row's index in the sequence" —, multiplies it into value × gate, applies the
  output projection and stores the tile transposed. The reference computes the same quantities as whole arrays:
  it divides the scores by `√1024`, takes the full softmax, and gathers its diagonal.

  At the ideal float values the two are one function of the nine arguments (`Cert.Spec.resultArr`): a change of
  float format is the identity, a matrix product into a zero accumulator is the plain sum, `√1024 = 32` so the two
  scalings agree on every extended real, and a sum of one entry and zeros is that entry. No finiteness of the
  inputs is used. The kernel's side is read off the two-region frame — in each region, what a grid point writes
  back is a block of one whole-array function, and the blocks tile the array —; the reference's side off its
  run, one operation at a time.
-/
import proofs.«182150_j66503273612026_2_alg».proof.Defs
import proofs.«182150_j66503273612026_2_alg».proof.Proof.Gen.Kernel
import proofs.«182150_j66503273612026_2_alg».proof.Proof.Gen.KernelIdeal
import proofs.«182150_j66503273612026_2_alg».proof.Proof.Gen.ReferenceIdeal
import proofs.«182150_j66503273612026_2_alg».proof.Proof.Gen.Pre_finite_inputs
import proofs.«182150_j66503273612026_2_alg».proof.Proof.KernelFrameP
import proofs.«182150_j66503273612026_2_alg».proof.Proof.KernelIdealFrameP
import proofs.«182150_j66503273612026_2_alg».proof.Proof.KRun
import proofs.«182150_j66503273612026_2_alg».proof.Proof.KWhole
import proofs.«182150_j66503273612026_2_alg».proof.Proof.RefResult
import Idealize.ShloMosaic.Adequacy
import Idealize.ShloMosaic.Init

noncomputable section

namespace Cert.Proof

open Idealize.ShloMosaic Idealize.ShloMosaic.TcCoe Idealize.SL.Sem

/-- The kernel program, at the machine words, runs and leaves its arguments as launched. -/
theorem frame_k : Cert.frame_Kernel :=
  fun m ρ _ => Cert.Kernel.GenP.frame m ρ

/-- The same at the ideal values. -/
theorem frame_ki : Cert.frame_KernelIdeal :=
  fun m ρ _ => Cert.KernelIdeal.GenP.frame m ρ

/-- The reference runs and leaves its arguments as launched: its run, with the result forgotten. -/
theorem frame_ri : Cert.frame_ReferenceIdeal :=
  fun m ρ _ => (θ_run Cert.ReferenceIdeal.defs _ _).mono (fun _ h c => (h c).2) (Cert.ReferenceIdeal.Value.run (F := Ideal) m ρ)

/-- Both programs end with the result buffer at the specification of their (agreeing) arguments, the unit axis
    inserted: the kernel by its run with the result named and the two regions composed, the reference by its run
    read one operation at a time; the two score scalings are one function. -/
theorem algebraic : Cert.algebraic_KernelIdeal_ReferenceIdeal := by
  intro m ρ m' ρ' _ hagree
  refine ⟨fun c => broadcastInDim (s := Cert.KernelIdeal.S8x1024x2048) Cert.KernelIdeal.S8x1x1024x2048 ![0, 2, 3]
      Cert.KernelIdeal.Facts₀.bcast_S8x1024x2048_S8x1x1024x2048_0_2_3
      (Cert.Spec.resultArr Cert.Spec.scaleK (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        (m ((c.tc : Thread Cert.KernelIdeal.nD Cert.KernelIdeal.τ).loc Cert.KernelIdeal.main_arg8))), ?_, ?_⟩
  · exact (θ_run Cert.KernelIdeal.defs _ _).mono (fun _ h c => ⟨(h c).1.trans (Cert.KernelIdeal.Whole.result_eq m ρ c), (h c).2⟩)
      (Cert.KernelIdeal.Whole.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v49_eq]
    unfold Cert.ReferenceIdeal.Read.val_main_v49
    rw [Cert.RefValue.val_main_v48_eq_spec, Cert.Spec.scaleR_eq_scaleK,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
